-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x750 : Shape := ⟨2, ![4096, 750]⟩
abbrev S_ : Shape := ⟨0, ![]⟩

class Facts : Prop where
  bcast_S_S4096x750 : S_.BroadcastsInDim S4096x750 (![] : Fin 0 → Fin S4096x750.rank)
  reducesTo_S4096x750_S_d0_1 : S4096x750.ReducesTo [0, 1] S_
  h_S_ : 0 < S_.numel

variable [Facts]

def fn {F : FTy → Type} [FloatOps F] (main_arg0 : FVec F S4096x750 .f32) (main_arg1 : FVec F S4096x750 .f32) : IVec S_ 1 :=
  let main_v0 : FVec F S4096x750 .f32 := Host.absf main_arg0
  let main_cst : FVec F S_ .f32 := constant S_ .f32 0x7F800000#32
  let main_v1 : FVec F S4096x750 .f32 := broadcastInDim S4096x750 ![] bcast_S_S4096x750 main_cst
  let main_v2 : IVec S4096x750 1 := cmpf .olt main_v0 main_v1
  let main_c : IVec S_ 1 := constantI S_ 1 1#1
  let main_v3 : IVec S_ 1 := (fun x v => Host.reduce IntOp.andi x v reducesTo_S4096x750_S_d0_1 h_S_) main_v2 main_c
  let main_v4 : FVec F S4096x750 .f32 := Host.absf main_arg1
  let main_cst_0 : FVec F S_ .f32 := constant S_ .f32 0x7F800000#32
  let main_v5 : FVec F S4096x750 .f32 := broadcastInDim S4096x750 ![] bcast_S_S4096x750 main_cst_0
  let main_v6 : IVec S4096x750 1 := cmpf .olt main_v4 main_v5
  let main_c_1 : IVec S_ 1 := constantI S_ 1 1#1
  let main_v7 : IVec S_ 1 := (fun x v => Host.reduce IntOp.andi x v reducesTo_S4096x750_S_d0_1 h_S_) main_v6 main_c_1
  let main_v8 : IVec S_ 1 := andi main_v3 main_v7
  main_v8
-- ==== Kernel.lean ====
abbrev S4096x750 : Shape := ⟨2, ![4096, 750]⟩
abbrev S4096x1 : Shape := ⟨2, ![4096, 1]⟩
abbrev S4096x1x6 : Shape := ⟨3, ![4096, 1, 6]⟩
abbrev S4096x6 : Shape := ⟨2, ![4096, 6]⟩
abbrev S4096x1x5 : Shape := ⟨3, ![4096, 1, 5]⟩
abbrev S4096x5 : Shape := ⟨2, ![4096, 5]⟩
abbrev S4096x761 : Shape := ⟨2, ![4096, 761]⟩
abbrev S2x11x750 : Shape := ⟨3, ![2, 11, 750]⟩
abbrev S2x1x1 : Shape := ⟨3, ![2, 1, 1]⟩
abbrev S1024x761 : Shape := ⟨2, ![1024, 761]⟩
abbrev S1x11x750 : Shape := ⟨3, ![1, 11, 750]⟩
abbrev S1x1x1 : Shape := ⟨3, ![1, 1, 1]⟩
abbrev S11x750 : Shape := ⟨2, ![11, 750]⟩
abbrev S1x1 : Shape := ⟨2, ![1, 1]⟩
abbrev S1024x750 : Shape := ⟨2, ![1024, 750]⟩
abbrev S750 : Shape := ⟨1, ![750]⟩
abbrev S1x750 : Shape := ⟨2, ![1, 750]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 41
  | .vmem => 10
  | .smem => 0
  | _ => 0

abbrev bufTy : (tb : Table) → Fin (tcTables nBuf tb) → BufTy
  | .hbm, ⟨0, _⟩ => ⟨S4096x750, .f32⟩
  | .hbm, ⟨1, _⟩ => ⟨S4096x750, .f32⟩
  | .hbm, ⟨2, _⟩ => ⟨S4096x1, .f32⟩
  | .hbm, ⟨3, _⟩ => ⟨S4096x1x6, .f32⟩
  | .hbm, ⟨4, _⟩ => ⟨S4096x6, .f32⟩
  | .hbm, ⟨5, _⟩ => ⟨S4096x1, .f32⟩
  | .hbm, ⟨6, _⟩ => ⟨S4096x1x5, .f32⟩
  | .hbm, ⟨7, _⟩ => ⟨S4096x5, .f32⟩
  | .hbm, ⟨8, _⟩ => ⟨S4096x761, .f32⟩
  | .hbm, ⟨9, _⟩ => ⟨S4096x1, .f32⟩
  | .hbm, ⟨10, _⟩ => ⟨S4096x1x6, .f32⟩
  | .hbm, ⟨11, _⟩ => ⟨S4096x6, .f32⟩
  | .hbm, ⟨12, _⟩ => ⟨S4096x1, .f32⟩
  | .hbm, ⟨13, _⟩ => ⟨S4096x1x5, .f32⟩
  | .hbm, ⟨14, _⟩ => ⟨S4096x5, .f32⟩
  | .hbm, ⟨15, _⟩ => ⟨S4096x761, .f32⟩
  | .hbm, ⟨16, _⟩ => ⟨S2x11x750, .f32⟩
  | .hbm, ⟨17, _⟩ => ⟨S2x11x750, .f32⟩
  | .hbm, ⟨18, _⟩ => ⟨S2x1x1, .f32⟩
  | .hbm, ⟨19, _⟩ => ⟨S_, .f32⟩
  | .hbm, ⟨20, _⟩ => ⟨S11x750, .f32⟩
  | .hbm, ⟨21, _⟩ => ⟨S_, .f32⟩
  | .hbm, ⟨22, _⟩ => ⟨S11x750, .f32⟩
  | .hbm, ⟨23, _⟩ => ⟨S11x750, .f32⟩
  | .hbm, ⟨24, _⟩ => ⟨S11x750, .f32⟩
  | .hbm, ⟨25, _⟩ => ⟨S_, .f32⟩
  | .hbm, ⟨26, _⟩ => ⟨S11x750, .f32⟩
  | .hbm, ⟨27, _⟩ => ⟨S_, .f32⟩
  | .hbm, ⟨28, _⟩ => ⟨S_, .f32⟩
  | .hbm, ⟨29, _⟩ => ⟨S11x750, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1024x761, .f32⟩
  | .local _ .vmem, ⟨1, _⟩ => ⟨S1024x761, .f32⟩
  | .local _ .vmem, ⟨2, _⟩ => ⟨S1024x761, .f32⟩
  | .local _ .vmem, ⟨3, _⟩ => ⟨S1024x761, .f32⟩
  | .local _ .vmem, ⟨4, _⟩ => ⟨S1x11x750, .f32⟩
  | .local _ .vmem, ⟨5, _⟩ => ⟨S1x11x750, .f32⟩
  | .local _ .vmem, ⟨6, _⟩ => ⟨S1x11x750, .f32⟩
  | .local _ .vmem, ⟨7, _⟩ => ⟨S1x11x750, .f32⟩
  | .local _ .vmem, ⟨8, _⟩ => ⟨S1x1x1, .f32⟩
  | .local _ .vmem, ⟨9, _⟩ => ⟨S1x1x1, .f32⟩
  | _, _ => ⟨S4096x750, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14_0 : Ref sig .tc := ⟨.hbm, 16, rfl⟩
abbrev main_v14_1 : Ref sig .tc := ⟨.hbm, 17, rfl⟩
abbrev main_v14_2 : Ref sig .tc := ⟨.hbm, 18, rfl⟩
abbrev main_cst : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x761 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x761 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x11x750 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x11x750 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S4096x750_S4096x1_0_0 : S4096x750.Slices ![0, 0] S4096x1
  bcast_S4096x1_S4096x1x6_0_1 : S4096x1.BroadcastsInDim S4096x1x6 (![0, 1] : Fin 2 → Fin S4096x1x6.rank)
  shapeCasts_S4096x1x6_S4096x6 : S4096x1x6.ShapeCasts S4096x6
  slices_S4096x750_S4096x1_0_749 : S4096x750.Slices ![0, 749] S4096x1
  bcast_S4096x1_S4096x1x5_0_1 : S4096x1.BroadcastsInDim S4096x1x5 (![0, 1] : Fin 2 → Fin S4096x1x5.rank)
  shapeCasts_S4096x1x5_S4096x5 : S4096x1x5.ShapeCasts S4096x5
  concatenates_S4096x6_S4096x750_S4096x5_S4096x761_d1 : Shape.Concatenates [S4096x6, S4096x750, S4096x5] S4096x761 1
  inb_S1x11x750_S1x11x750_0_0_0 : ∀ a, (![0, 0, 0] : Fin 3 → Nat) a + S1x11x750.size a ≤ S1x11x750.size a
  h_S1x11x750 : 0 < S1x11x750.numel
  shapeCasts_S1x11x750_S11x750 : S1x11x750.ShapeCasts S11x750
  shapeCasts_S11x750_S1x11x750 : S11x750.ShapeCasts S1x11x750
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1024x761_S1024x750_0_6 : ∀ a, (![0, 6] : Fin 2 → Nat) a + S1024x750.size a ≤ S1024x761.size a
  h_S1024x750 : 0 < S1024x750.numel
  shapeCasts_S1024x750_S1024x750 : S1024x750.ShapeCasts S1024x750
  inb_S1024x761_S1024x750_0_0 : ∀ a, (![0, 0] : Fin 2 → Nat) a + S1024x750.size a ≤ S1024x761.size a
  reduces_S1024x750_S750 : S1024x750.Reduces [0] S750
  shapeCasts_S750_S1x750 : S750.ShapeCasts S1x750
  inb_S1024x761_S1024x750_0_1 : ∀ a, (![0, 1] : Fin 2 → Nat) a + S1024x750.size a ≤ S1024x761.size a
  inb_S1024x761_S1024x750_0_2 : ∀ a, (![0, 2] : Fin 2 → Nat) a + S1024x750.size a ≤ S1024x761.size a
  inb_S1024x761_S1024x750_0_3 : ∀ a, (![0, 3] : Fin 2 → Nat) a + S1024x750.size a ≤ S1024x761.size a
  inb_S1024x761_S1024x750_0_4 : ∀ a, (![0, 4] : Fin 2 → Nat) a + S1024x750.size a ≤ S1024x761.size a
  inb_S1024x761_S1024x750_0_5 : ∀ a, (![0, 5] : Fin 2 → Nat) a + S1024x750.size a ≤ S1024x761.size a
  inb_S1024x761_S1024x750_0_7 : ∀ a, (![0, 7] : Fin 2 → Nat) a + S1024x750.size a ≤ S1024x761.size a
  inb_S1024x761_S1024x750_0_8 : ∀ a, (![0, 8] : Fin 2 → Nat) a + S1024x750.size a ≤ S1024x761.size a
  inb_S1024x761_S1024x750_0_9 : ∀ a, (![0, 9] : Fin 2 → Nat) a + S1024x750.size a ≤ S1024x761.size a
  inb_S1024x761_S1024x750_0_10 : ∀ a, (![0, 10] : Fin 2 → Nat) a + S1024x750.size a ≤ S1024x761.size a
  concatenates_S1x750_S1x750_S1x750_S1x750_S1x750_S1x750_S1x750_S1x750_S1x750_S1x750_S1x750_S11x750_d0 : Shape.Concatenates [S1x750, S1x750, S1x750, S1x750, S1x750, S1x750, S1x750, S1x750, S1x750, S1x750, S1x750] S11x750 0
  reduces_S1024x750_S1024 : S1024x750.Reduces [1] S1024
  shapeCasts_S1024_S1024x1 : S1024.ShapeCasts S1024x1
  reduces_S1024x1_S1 : S1024x1.Reduces [0] S1
  shapeCasts_S1_S1x1 : S1.ShapeCasts S1x1
  reducesTo_S2x11x750_S11x750_d0 : S2x11x750.ReducesTo [0] S11x750
  h_S_ : 0 < S_.numel
  bcast_S_S11x750 : S_.BroadcastsInDim S11x750 (![] : Fin 0 → Fin S11x750.rank)
  reducesTo_S2x1x1_S_d0_1_2 : S2x1x1.ReducesTo [0, 1, 2] S_
  reducesTo_S11x750_S_d0_1 : S11x750.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x761.size a ≤ S4096x761.size a
  hwx0_0 : ∀ i : grid0.Coords, EltTy.bits .f32 = 32 ∨ (Rect.block (s := S4096x761) S1024x761.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x761.size a ≤ S4096x761.size a
  hwx0_1 : ∀ i : grid0.Coords, EltTy.bits .f32 = 32 ∨ (Rect.block (s := S4096x761) S1024x761.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x11x750.size a ≤ S2x11x750.size a
  hwx0_2 : ∀ i : grid0.Coords, EltTy.bits .f32 = 32 ∨ (Rect.block (s := S2x11x750) S1x11x750.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x11x750.size a ≤ S2x11x750.size a
  hwx0_3 : ∀ i : grid0.Coords, EltTy.bits .f32 = 32 ∨ (Rect.block (s := S2x11x750) S1x11x750.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

abbrev win0_0 : Pipeline.Window sig grid0 :=
  Pipeline.Window.ofSpec (Memref.whole main_v6) S1024x761.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x761.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14_0) S1x11x750.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_1) S1x11x750.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_2) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x750 : Shape := ⟨2, ![4096, 750]⟩
abbrev S4096x1 : Shape := ⟨2, ![4096, 1]⟩
abbrev S4096x1x6 : Shape := ⟨3, ![4096, 1, 6]⟩
abbrev S4096x6 : Shape := ⟨2, ![4096, 6]⟩
abbrev S4096x1x5 : Shape := ⟨3, ![4096, 1, 5]⟩
abbrev S4096x5 : Shape := ⟨2, ![4096, 5]⟩
abbrev S4096x761 : Shape := ⟨2, ![4096, 761]⟩
abbrev S750 : Shape := ⟨1, ![750]⟩
abbrev S750x1 : Shape := ⟨2, ![750, 1]⟩
abbrev S11 : Shape := ⟨1, ![11]⟩
abbrev S1x11 : Shape := ⟨2, ![1, 11]⟩
abbrev S750x11 : Shape := ⟨2, ![750, 11]⟩
abbrev S_ : Shape := ⟨0, ![]⟩
abbrev S750x11x1 : Shape := ⟨3, ![750, 11, 1]⟩
abbrev S4096x750x11 : Shape := ⟨3, ![4096, 750, 11]⟩
abbrev S4096x750x1 : Shape := ⟨3, ![4096, 750, 1]⟩
abbrev S1x750x11 : Shape := ⟨3, ![1, 750, 11]⟩
abbrev S4096 : Shape := ⟨1, ![4096]⟩

abbrev nBuf : Space → Nat
  | .hbm => 80
  | .vmem => 0
  | .smem => 0
  | _ => 0

abbrev bufTy : (tb : Table) → Fin (tcTables nBuf tb) → BufTy
  | .hbm, ⟨0, _⟩ => ⟨S4096x750, .f32⟩
  | .hbm, ⟨1, _⟩ => ⟨S4096x750, .f32⟩
  | .hbm, ⟨2, _⟩ => ⟨S4096x1, .f32⟩
  | .hbm, ⟨3, _⟩ => ⟨S4096x1x6, .f32⟩
  | .hbm, ⟨4, _⟩ => ⟨S4096x6, .f32⟩
  | .hbm, ⟨5, _⟩ => ⟨S4096x1, .f32⟩
  | .hbm, ⟨6, _⟩ => ⟨S4096x1x5, .f32⟩
  | .hbm, ⟨7, _⟩ => ⟨S4096x5, .f32⟩
  | .hbm, ⟨8, _⟩ => ⟨S4096x761, .f32⟩
  | .hbm, ⟨9, _⟩ => ⟨S4096x1, .f32⟩
  | .hbm, ⟨10, _⟩ => ⟨S4096x1x6, .f32⟩
  | .hbm, ⟨11, _⟩ => ⟨S4096x6, .f32⟩
  | .hbm, ⟨12, _⟩ => ⟨S4096x1, .f32⟩
  | .hbm, ⟨13, _⟩ => ⟨S4096x1x5, .f32⟩
  | .hbm, ⟨14, _⟩ => ⟨S4096x5, .f32⟩
  | .hbm, ⟨15, _⟩ => ⟨S4096x761, .f32⟩
  | .hbm, ⟨16, _⟩ => ⟨S750, .i32⟩
  | .hbm, ⟨17, _⟩ => ⟨S750x1, .i32⟩
  | .hbm, ⟨18, _⟩ => ⟨S11, .i32⟩
  | .hbm, ⟨19, _⟩ => ⟨S1x11, .i32⟩
  | .hbm, ⟨20, _⟩ => ⟨S750x11, .i32⟩
  | .hbm, ⟨21, _⟩ => ⟨S750x11, .i32⟩
  | .hbm, ⟨22, _⟩ => ⟨S750x11, .i32⟩
  | .hbm, ⟨23, _⟩ => ⟨S_, .i32⟩
  | .hbm, ⟨24, _⟩ => ⟨S750x11, .i32⟩
  | .hbm, ⟨25, _⟩ => ⟨S750x11, .i1⟩
  | .hbm, ⟨26, _⟩ => ⟨S_, .i32⟩
  | .hbm, ⟨27, _⟩ => ⟨S750x11, .i32⟩
  | .hbm, ⟨28, _⟩ => ⟨S750x11, .i32⟩
  | .hbm, ⟨29, _⟩ => ⟨S750x11, .i32⟩
  | .hbm, ⟨30, _⟩ => ⟨S750x11x1, .i32⟩
  | .hbm, ⟨31, _⟩ => ⟨S4096x750x11, .f32⟩
  | .hbm, ⟨32, _⟩ => ⟨S_, .i32⟩
  | .hbm, ⟨33, _⟩ => ⟨S750x11, .i32⟩
  | .hbm, ⟨34, _⟩ => ⟨S750x11, .i1⟩
  | .hbm, ⟨35, _⟩ => ⟨S_, .i32⟩
  | .hbm, ⟨36, _⟩ => ⟨S750x11, .i32⟩
  | .hbm, ⟨37, _⟩ => ⟨S750x11, .i32⟩
  | .hbm, ⟨38, _⟩ => ⟨S750x11, .i32⟩
  | .hbm, ⟨39, _⟩ => ⟨S750x11x1, .i32⟩
  | .hbm, ⟨40, _⟩ => ⟨S4096x750x11, .f32⟩
  | .hbm, ⟨41, _⟩ => ⟨S4096x750x1, .f32⟩
  | .hbm, ⟨42, _⟩ => ⟨S4096x750x11, .f32⟩
  | .hbm, ⟨43, _⟩ => ⟨S4096x750x11, .f32⟩
  | .hbm, ⟨44, _⟩ => ⟨S4096x750x11, .f32⟩
  | .hbm, ⟨45, _⟩ => ⟨S_, .f32⟩
  | .hbm, ⟨46, _⟩ => ⟨S750x11, .f32⟩
  | .hbm, ⟨47, _⟩ => ⟨S750x11, .f32⟩
  | .hbm, ⟨48, _⟩ => ⟨S_, .f32⟩
  | .hbm, ⟨49, _⟩ => ⟨S750x11, .f32⟩
  | .hbm, ⟨50, _⟩ => ⟨S750x11, .f32⟩
  | .hbm, ⟨51, _⟩ => ⟨S750x11, .f32⟩
  | .hbm, ⟨52, _⟩ => ⟨S1x750x11, .f32⟩
  | .hbm, ⟨53, _⟩ => ⟨S4096x750x1, .f32⟩
  | .hbm, ⟨54, _⟩ => ⟨S4096x750x11, .f32⟩
  | .hbm, ⟨55, _⟩ => ⟨S4096x750x11, .f32⟩
  | .hbm, ⟨56, _⟩ => ⟨S4096x750x11, .f32⟩
  | .hbm, ⟨57, _⟩ => ⟨S4096x750x11, .f32⟩
  | .hbm, ⟨58, _⟩ => ⟨S4096x750x11, .f32⟩
  | .hbm, ⟨59, _⟩ => ⟨S_, .f32⟩
  | .hbm, ⟨60, _⟩ => ⟨S750x11, .f32⟩
  | .hbm, ⟨61, _⟩ => ⟨S_, .f32⟩
  | .hbm, ⟨62, _⟩ => ⟨S750x11, .f32⟩
  | .hbm, ⟨63, _⟩ => ⟨S750x11, .f32⟩
  | .hbm, ⟨64, _⟩ => ⟨S_, .f32⟩
  | .hbm, ⟨65, _⟩ => ⟨S_, .f32⟩
  | .hbm, ⟨66, _⟩ => ⟨S4096x750, .f32⟩
  | .hbm, ⟨67, _⟩ => ⟨S4096x750, .f32⟩
  | .hbm, ⟨68, _⟩ => ⟨S_, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S4096x750, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_c : Ref sig .tc := ⟨.hbm, 23, rfl⟩
abbrev main_v21 : Ref sig .tc := ⟨.hbm, 24, rfl⟩
abbrev main_v22 : Ref sig .tc := ⟨.hbm, 25, rfl⟩
abbrev main_c_0 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c_1 : Ref sig .tc := ⟨.hbm, 32, rfl⟩
abbrev main_v28 : Ref sig .tc := ⟨.hbm, 33, rfl⟩
abbrev main_v29 : Ref sig .tc := ⟨.hbm, 34, rfl⟩
abbrev main_c_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_4 : Ref sig .tc := ⟨.hbm, 59, rfl⟩
abbrev main_v51 : Ref sig .tc := ⟨.hbm, 60, rfl⟩
abbrev main_cst_5 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_7 : Ref sig .tc := ⟨.hbm, 68, rfl⟩
abbrev main_v57 : Ref sig .tc := ⟨.hbm, 69, rfl⟩
abbrev main_cst_8 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩

abbrev nD : Nat := 1
abbrev τ : Topo := Topo.v7x

variable {F : FTy → Type} [FloatOps F]

class Facts₀ : Prop where
  slices_S4096x750_S4096x1_0_0 : S4096x750.Slices ![0, 0] S4096x1
  bcast_S4096x1_S4096x1x6_0_1 : S4096x1.BroadcastsInDim S4096x1x6 (![0, 1] : Fin 2 → Fin S4096x1x6.rank)
  shapeCasts_S4096x1x6_S4096x6 : S4096x1x6.ShapeCasts S4096x6
  slices_S4096x750_S4096x1_0_749 : S4096x750.Slices ![0, 749] S4096x1
  bcast_S4096x1_S4096x1x5_0_1 : S4096x1.BroadcastsInDim S4096x1x5 (![0, 1] : Fin 2 → Fin S4096x1x5.rank)
  shapeCasts_S4096x1x5_S4096x5 : S4096x1x5.ShapeCasts S4096x5
  concatenates_S4096x6_S4096x750_S4096x5_S4096x761_d1 : Shape.Concatenates [S4096x6, S4096x750, S4096x5] S4096x761 1
  bcast_S750_S750x1_0 : S750.BroadcastsInDim S750x1 (![0] : Fin 1 → Fin S750x1.rank)
  bcast_S11_S1x11_1 : S11.BroadcastsInDim S1x11 (![1] : Fin 1 → Fin S1x11.rank)
  bcast_S750x1_S750x11_0_1 : S750x1.BroadcastsInDim S750x11 (![0, 1] : Fin 2 → Fin S750x11.rank)
  bcast_S1x11_S750x11_0_1 : S1x11.BroadcastsInDim S750x11 (![0, 1] : Fin 2 → Fin S750x11.rank)
  bcast_S_S750x11 : S_.BroadcastsInDim S750x11 (![] : Fin 0 → Fin S750x11.rank)
  bcast_S750x11_S750x11x1_0_1 : S750x11.BroadcastsInDim S750x11x1 (![0, 1] : Fin 2 → Fin S750x11x1.rank)
  bcast_S4096x750_S4096x750x1_0_1 : S4096x750.BroadcastsInDim S4096x750x1 (![0, 1] : Fin 2 → Fin S4096x750x1.rank)
  bcast_S4096x750x1_S4096x750x11_0_1_2 : S4096x750x1.BroadcastsInDim S4096x750x11 (![0, 1, 2] : Fin 3 → Fin S4096x750x11.rank)
  reducesTo_S4096x750x11_S750x11_d0 : S4096x750x11.ReducesTo [0] S750x11
  h_S_ : 0 < S_.numel
  bcast_S750x11_S1x750x11_1_2 : S750x11.BroadcastsInDim S1x750x11 (![1, 2] : Fin 2 → Fin S1x750x11.rank)
  bcast_S1x750x11_S4096x750x11_0_1_2 : S1x750x11.BroadcastsInDim S4096x750x11 (![0, 1, 2] : Fin 3 → Fin S4096x750x11.rank)
  reducesTo_S750x11_S_d0_1 : S750x11.ReducesTo [0, 1] S_
  reducesTo_S4096x750_S4096_d1 : S4096x750.ReducesTo [1] S4096
  bcast_S_S4096 : S_.BroadcastsInDim S4096 (![] : Fin 0 → Fin S4096.rank)
  reducesTo_S4096_S_d0 : S4096.ReducesTo [0] S_
  gather_S4096x761_S750x11x1_S4096x750x11_0_1_n_n_1_2_40961_wf : GatherDims.WF S4096x761 S750x11x1 S4096x750x11 [0] [1] [] [1] [] 2 ![4096, 1]

variable [Facts₀]

def gather_S4096x761_S750x11x1_S4096x750x11_0_1_n_n_1_2_40961 : GatherDims S4096x761 S750x11x1 S4096x750x11 where
  offsetDims := [0]
  collapsedSliceDims := [1]
  operandBatchingDims := []
  startIndicesBatchingDims := []
  startIndexMap := [1]
  indexVectorDim := 2
  sliceSizes := ![4096, 1]
  wf := gather_S4096x761_S750x11x1_S4096x750x11_0_1_n_n_1_2_40961_wf

class Facts : Prop extends Facts₀ where

variable [Facts]
-- ==== Proof.KBKit.lean ====
/-
  The pipelined region of the program between its two stretches of host operations: the buffer contents the region
  is entered with (after the fourteen padding operations), the continuation after it (the twenty-two operations that
  reduce the three outputs to the loss), the facts about that continuation the launch theorem asks for (it touches
  only unscoped buffers, allocates nothing and writes no array a window stages), each window's block at a grid
  point, and the condition of the body's one branch: the second grid coordinate is zero, which over the 2 x 2 grid
  holds at the even points.
-/
import proofs.«172264_j3959959847206_2_alg».proof.Proof.Gen.Kernel.Launch
import proofs.«172264_j3959959847206_2_alg».proof.Proof.Gen.Kernel.Skeleton
import proofs.«172264_j3959959847206_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- Core c's buffer contents when the region is entered: after the padding operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the padding operations, the region, then the reducing operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reducing operations touch unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array a window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No padding operation writes an argument array: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No reducing operation writes an argument array either, and no window stages one: both end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whenever the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From the region's run to the program's -/

/-- A run ending with every staged array at the proof data's final contents and every other unscoped buffer as the
    reducing operations leave it ends with the result buffer at those operations' value and both arguments as launched. -/
theorem post_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v27) = Pipeline.afterTail₀ cfgs dats 0 (V0 m) [hostOps1] c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v27 (Pipeline.mem_restRefs_of main_v27 (by decide) (by decide)),
     ((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's branch -/

/-- The body resets its three accumulators when the second grid coordinate is zero. -/
abbrev cond0_0 (i : grid0.Coords) : Prop := (Scalar.cmpi .ne (Scalar.extui (Scalar.cmpi .eq (BitVec.ofNat 32 (i 1).val) 0#32)) 0#32) = 1#1
/-- Over the grid that is at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-! ## The staging memrefs at a point -/

/-- One staging buffer of each output window, through which its contents are stated. -/
abbrev VO0_2 : View sig .tc .vmem S1x11x750 .f32 := (Memref.whole cc0_stg2_0 : Memref sig .tc .vmem S1x11x750 .f32).view
abbrev VO0_3 : View sig .tc .vmem S1x11x750 .f32 := (Memref.whole cc0_stg3_0 : Memref sig .tc .vmem S1x11x750 .f32).view
abbrev VO0_4 : View sig .tc .vmem S1x1x1 .f32 := (Memref.whole cc0_stg4_0 : Memref sig .tc .vmem S1x1x1 .f32).view
/-- Each window's current staging memref at point t, and its wholeness. -/
abbrev ms0_0 (t : Fin cfg0.N) : Memref sig .tc .vmem S1024x761 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x761 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x11x750 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x11x750 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)

end Cert.Kernel.Fr

end
-- ==== Proof.KBRunA.lean ====
/-
  The kernel body run once at a grid point where its branch is taken (the second grid coordinate is zero): the three
  accumulators are first overwritten with zeros, so what they held before does not matter, and each ends holding the
  pieces the body's stores wrote. The two input blocks are only read.
-/
import proofs.«172264_j3959959847206_2_alg».proof.Proof.KBKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each accumulator's buffer ends with when the branch is taken, with the proof that from whole staging
    buffers — the inputs at their contents, the accumulators at anything — the body runs to its end leaving the inputs
    as they were and each accumulator with those pieces written. -/
noncomputable def kernelRun0_A (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : cond0_0 i)
    (x0 : Vec F S1024x761 .f32) (x1 : Vec F S1024x761 .f32) :
    Σ' (L2 : List (View.Piece (Elt F) S1x11x750 .f32)), Σ' (L3 : List (View.Piece (Elt F) S1x11x750 .f32)), { L4 : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__fused_kernel_body i arg2 harg2 arg3 harg3 arg4 harg4 arg5 harg5 arg6 harg6) K } := by
  refine ⟨?_, ?_, ?_, fun E K => ?run⟩
  case run =>
    simp only [cc0__fused_kernel_body_eq_skeleton]; unfold cc0__fused_kernel_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.Kernel.Fr

end
-- ==== Proof.KBRunB.lean ====
/-
  The kernel body run once at a grid point where its branch is not taken (the second grid coordinate is not zero): each
  accumulator is read at what the point before left in it, and ends holding the pieces the body's stores wrote over
  that. The two input blocks are only read.
-/
import proofs.«172264_j3959959847206_2_alg».proof.Proof.KBRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each accumulator's buffer ends with when the branch is not taken, with the proof that from whole staging
    buffers — the inputs at their contents, the accumulators at their running contents — the body runs to its end
    leaving the inputs as they were and each accumulator with those pieces written. -/
noncomputable def kernelRun0_B (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : ¬cond0_0 i)
    (x0 : Vec F S1024x761 .f32) (x1 : Vec F S1024x761 .f32) (xo2 : Vec F S1x11x750 .f32) (xo3 : Vec F S1x11x750 .f32) (xo4 : Vec F S1x1x1 .f32) :
    Σ' (L2 : List (View.Piece (Elt F) S1x11x750 .f32)), Σ' (L3 : List (View.Piece (Elt F) S1x11x750 .f32)), { L4 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__fused_kernel_body i arg2 harg2 arg3 harg3 arg4 harg4 arg5 harg5 arg6 harg6) K } := by
  refine ⟨?_, ?_, ?_, fun E K => ?run⟩
  case run =>
    simp only [cc0__fused_kernel_body_eq_skeleton]; unfold cc0__fused_kernel_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.Kernel.Fr

end
-- ==== Proof.KBFrame.lean ====
/-
  The pipelined region run over its 2 x 2 grid. A core's two points share one block of each of the three outputs: at
  the even point the body overwrites the block with zeros and adds the tile's sums, at the odd point it adds the next
  tile's sums to what the even point left, and only then is the block written back. What the three staging buffers
  hold after each point is therefore defined by recursion on the point (outsAt0); with it as the proof data the body's
  run at every point is the run of the point's case, the launch theorem gives the region's run between the two
  stretches of host operations, and the program's run follows: it terminates, faults nowhere, leaves both arguments
  as launched, and its result buffer holds what the reducing operations compute from the three outputs' final arrays.
-/
import proofs.«172264_j3959959847206_2_alg».proof.Proof.KBRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three accumulators' contents. -/
abbrev Outs (F : FTy → Type) [FloatOps F] : Type := Vec F S1x11x750 .f32 × Vec F S1x11x750 .f32 × Vec F S1x1x1 .f32

/-- The pieces case A leaves in accumulator 2 tile its block, so they cover it. -/
theorem cover0_A_2 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : cond0_0 i)
    (x0 : Vec F S1024x761 .f32) (x1 : Vec F S1024x761 .f32) (y : S1x11x750.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S1x11x750.size (by sl_kernel_rfl) y

/-- What case A leaves in accumulator 2's staging buffer: its pieces read back. -/
def out0_A_2 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : cond0_0 i)
    (x0 : Vec F S1024x761 .f32) (x1 : Vec F S1024x761 .f32) : Vec F S1x11x750 .f32 :=
  VO0_2.read (Elt F) (VO0_2.writes (Elt F) VO0_2.junk (kernelRun0_A c i arg2 harg2 arg3 harg3 arg4 harg4 arg5 harg5 arg6 harg6 hc0 x0 x1).1)

/-- The pieces case A leaves in accumulator 3 tile its block, so they cover it. -/
theorem cover0_A_3 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : cond0_0 i)
    (x0 : Vec F S1024x761 .f32) (x1 : Vec F S1024x761 .f32) (y : S1x11x750.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x11x750.size (by sl_kernel_rfl) y

/-- What case A leaves in accumulator 3's staging buffer: its pieces read back. -/
def out0_A_3 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : cond0_0 i)
    (x0 : Vec F S1024x761 .f32) (x1 : Vec F S1024x761 .f32) : Vec F S1x11x750 .f32 :=
  VO0_3.read (Elt F) (VO0_3.writes (Elt F) VO0_3.junk (kernelRun0_A c i arg2 harg2 arg3 harg3 arg4 harg4 arg5 harg5 arg6 harg6 hc0 x0 x1).2.1)

/-- The pieces case A leaves in accumulator 4 tile its block, so they cover it. -/
theorem cover0_A_4 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : cond0_0 i)
    (x0 : Vec F S1024x761 .f32) (x1 : Vec F S1024x761 .f32) (y : S1x1x1.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S1x1x1.size (by sl_kernel_rfl) y

/-- What case A leaves in accumulator 4's staging buffer: its pieces read back. -/
def out0_A_4 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : cond0_0 i)
    (x0 : Vec F S1024x761 .f32) (x1 : Vec F S1024x761 .f32) : Vec F S1x1x1 .f32 :=
  VO0_4.read (Elt F) (VO0_4.writes (Elt F) VO0_4.junk (kernelRun0_A c i arg2 harg2 arg3 harg3 arg4 harg4 arg5 harg5 arg6 harg6 hc0 x0 x1).2.2.1)

/-- The pieces case B leaves in accumulator 2 tile its block, so they cover it. -/
theorem cover0_B_2 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : ¬cond0_0 i)
    (x0 : Vec F S1024x761 .f32) (x1 : Vec F S1024x761 .f32) (xo2 : Vec F S1x11x750 .f32) (xo3 : Vec F S1x11x750 .f32) (xo4 : Vec F S1x1x1 .f32) (y : S1x11x750.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S1x11x750.size (by sl_kernel_rfl) y

/-- What case B leaves in accumulator 2's staging buffer: its pieces read back. -/
def out0_B_2 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : ¬cond0_0 i)
    (x0 : Vec F S1024x761 .f32) (x1 : Vec F S1024x761 .f32) (xo2 : Vec F S1x11x750 .f32) (xo3 : Vec F S1x11x750 .f32) (xo4 : Vec F S1x1x1 .f32) : Vec F S1x11x750 .f32 :=
  VO0_2.read (Elt F) (VO0_2.writes (Elt F) VO0_2.junk (kernelRun0_B c i arg2 harg2 arg3 harg3 arg4 harg4 arg5 harg5 arg6 harg6 hc0 x0 x1 xo2 xo3 xo4).1)

/-- The pieces case B leaves in accumulator 3 tile its block, so they cover it. -/
theorem cover0_B_3 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : ¬cond0_0 i)
    (x0 : Vec F S1024x761 .f32) (x1 : Vec F S1024x761 .f32) (xo2 : Vec F S1x11x750 .f32) (xo3 : Vec F S1x11x750 .f32) (xo4 : Vec F S1x1x1 .f32) (y : S1x11x750.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S1x11x750.size (by sl_kernel_rfl) y

/-- What case B leaves in accumulator 3's staging buffer: its pieces read back. -/
def out0_B_3 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : ¬cond0_0 i)
    (x0 : Vec F S1024x761 .f32) (x1 : Vec F S1024x761 .f32) (xo2 : Vec F S1x11x750 .f32) (xo3 : Vec F S1x11x750 .f32) (xo4 : Vec F S1x1x1 .f32) : Vec F S1x11x750 .f32 :=
  VO0_3.read (Elt F) (VO0_3.writes (Elt F) VO0_3.junk (kernelRun0_B c i arg2 harg2 arg3 harg3 arg4 harg4 arg5 harg5 arg6 harg6 hc0 x0 x1 xo2 xo3 xo4).2.1)

/-- The pieces case B leaves in accumulator 4 tile its block, so they cover it. -/
theorem cover0_B_4 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : ¬cond0_0 i)
    (x0 : Vec F S1024x761 .f32) (x1 : Vec F S1024x761 .f32) (xo2 : Vec F S1x11x750 .f32) (xo3 : Vec F S1x11x750 .f32) (xo4 : Vec F S1x1x1 .f32) (y : S1x1x1.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S1x1x1.size (by sl_kernel_rfl) y

/-- What case B leaves in accumulator 4's staging buffer: its pieces read back. -/
def out0_B_4 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : ¬cond0_0 i)
    (x0 : Vec F S1024x761 .f32) (x1 : Vec F S1024x761 .f32) (xo2 : Vec F S1x11x750 .f32) (xo3 : Vec F S1x11x750 .f32) (xo4 : Vec F S1x1x1 .f32) : Vec F S1x1x1 .f32 :=
  VO0_4.read (Elt F) (VO0_4.writes (Elt F) VO0_4.junk (kernelRun0_B c i arg2 harg2 arg3 harg3 arg4 harg4 arg5 harg5 arg6 harg6 hc0 x0 x1 xo2 xo3 xo4).2.2.1)

/-! ## What the accumulators hold after each point -/

/-- After a point where the branch is taken. -/
def outA (c : Dev nD) (t : Fin cfg0.N) (hc : cond0_0 (grid0.coords t)) : Outs F :=
  (out0_A_2 c (grid0.coords t) (ms0_0 t) (hs0_0 t) (ms0_1 t) (hs0_1 t) (ms0_2 t) (hs0_2 t) (ms0_3 t) (hs0_3 t) (ms0_4 t) (hs0_4 t) hc (iblk m c 0 t) (iblk m c 1 t),
   out0_A_3 c (grid0.coords t) (ms0_0 t) (hs0_0 t) (ms0_1 t) (hs0_1 t) (ms0_2 t) (hs0_2 t) (ms0_3 t) (hs0_3 t) (ms0_4 t) (hs0_4 t) hc (iblk m c 0 t) (iblk m c 1 t),
   out0_A_4 c (grid0.coords t) (ms0_0 t) (hs0_0 t) (ms0_1 t) (hs0_1 t) (ms0_2 t) (hs0_2 t) (ms0_3 t) (hs0_3 t) (ms0_4 t) (hs0_4 t) hc (iblk m c 0 t) (iblk m c 1 t))

/-- After a point where it is not, over what the point before left. -/
def outB (c : Dev nD) (t : Fin cfg0.N) (hc : ¬cond0_0 (grid0.coords t)) (p : Outs F) : Outs F :=
  (out0_B_2 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) p.1 p.2.1 p.2.2,
   out0_B_3 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) p.1 p.2.1 p.2.2,
   out0_B_4 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) p.1 p.2.1 p.2.2)

/-- The accumulation, by recursion on the point's position. -/
def outsAt0 (c : Dev nD) : (n : ℕ) → n < cfg0.N → Outs F
  | 0, hn => outA m c ⟨0, hn⟩ ((hcond0_0 ⟨0, hn⟩).mpr (Nat.zero_mod _))
  | n + 1, hn =>
    if h0 : (n + 1) % 2 = 0 then outA m c ⟨n + 1, hn⟩ ((hcond0_0 ⟨n + 1, hn⟩).mpr h0)
    else outB m c ⟨n + 1, hn⟩ (fun h => h0 ((hcond0_0 ⟨n + 1, hn⟩).mp h)) (outsAt0 c n (Nat.lt_of_succ_lt hn))

theorem outsAt0_A (c : Dev nD) (t : Fin cfg0.N) (h0 : t.val % 2 = 0) :
    outsAt0 m c t.val t.isLt = outA m c t ((hcond0_0 t).mpr h0) := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = outB m c t (fun h => h0 ((hcond0_0 t).mp h)) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body at point t each input's buffer at its block and the three
    accumulators at outsAt0; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At an odd point each accumulator's buffer holds what the body left at the point before: it was not written back
    between. -/
theorem before0_2_B (c : Dev nD) (t : Fin cfg0.N) (h0 : ¬t.val % 2 = 0) (d) :
    (dats m 0 c).before 2 t d = (outsAt0 m c (t.val - 1) (Nat.lt_of_le_of_lt (Nat.sub_le _ _) t.isLt)).1 := by
  have hN : t.val < 4 := lt_of_lt_of_eq t.isLt (show cfg0.N = 4 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 2 = 0) (d) :
    (dats m 0 c).before 3 t d = (outsAt0 m c (t.val - 1) (Nat.lt_of_le_of_lt (Nat.sub_le _ _) t.isLt)).2.1 := by
  have hN : t.val < 4 := lt_of_lt_of_eq t.isLt (show cfg0.N = 4 from N_0)
  rw [Dat.before_out_kept _ 3 rfl t (by omega) (Bool.eq_false_iff.mpr fun h => by have := (flush0_3 _).mp h; dsimp only at this; omega)
    (fun _ => rfl) (fun _ _ => rfl)]
  dsimp only [dats]
theorem before0_4_B (c : Dev nD) (t : Fin cfg0.N) (h0 : ¬t.val % 2 = 0) (d) :
    (dats m 0 c).before 4 t d = (outsAt0 m c (t.val - 1) (Nat.lt_of_le_of_lt (Nat.sub_le _ _) t.isLt)).2.2 := by
  have hN : t.val < 4 := lt_of_lt_of_eq t.isLt (show cfg0.N = 4 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; the point's parity says which case it is in; at an
    odd point the accumulators hold what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 4 := lt_of_lt_of_eq t.isLt (show cfg0.N = 4 from N_0)
  by_cases h0 : t.val % 2 = 0
  · rw [outsAt0_A m c t h0]
    unfold outA out0_A_2 out0_A_3 out0_A_4
    dsimp only
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B m c t h0]
    simp only [before0_2_B m c t h0, before0_3_B m c t h0, before0_4_B m c t h0]
    unfold outB out0_B_2 out0_B_3 out0_B_4
    dsimp only
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The region's run and the program's -/

set_option backward.isDefEq.respectTransparency.types false in
/-- Every weakly fair execution of the program terminates, with every staged array at the proof data's final
    contents and every other unscoped buffer as the reducing operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program's run with its result named: the reducing operations' value over the outputs' final arrays; both
    arguments end as launched. -/
theorem run_value : θ_run defs (onTc (τ := τ) (main (F := F))) ⟨m, fun _ => 0, ρ⟩ (fun r => ∀ c : Dev nD,
      r.2.mem ((c.tc : Thread nD τ).loc main_v27) = Pipeline.afterTail₀ cfgs (dats m) 0 (V0 m) [hostOps1] c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  post_of m ρ (dats m) (run_main m ρ)

/-- The frame: the program runs to its end and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.Kernel.Fr

end
-- ==== Proof.KIKit.lean ====
/-
  The pipelined region of the program between its two stretches of host operations: the buffer contents the region
  is entered with (after the fourteen padding operations), the continuation after it (the twenty-two operations that
  reduce the three outputs to the loss), the facts about that continuation the launch theorem asks for (it touches
  only unscoped buffers, allocates nothing and writes no array a window stages), each window's block at a grid
  point, and the condition of the body's one branch: the second grid coordinate is zero, which over the 2 x 2 grid
  holds at the even points.
-/
import proofs.«172264_j3959959847206_2_alg».proof.Proof.Gen.KernelIdeal.Launch
import proofs.«172264_j3959959847206_2_alg».proof.Proof.Gen.KernelIdeal.Skeleton
import proofs.«172264_j3959959847206_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- Core c's buffer contents when the region is entered: after the padding operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the padding operations, the region, then the reducing operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reducing operations touch unscoped buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array a window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No padding operation writes an argument array: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No reducing operation writes an argument array either, and no window stages one: both end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whenever the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From the region's run to the program's -/

/-- A run ending with every staged array at the proof data's final contents and every other unscoped buffer as the
    reducing operations leave it ends with the result buffer at those operations' value and both arguments as launched. -/
theorem post_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v27) = Pipeline.afterTail₀ cfgs dats 0 (V0 m) [hostOps1] c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v27 (Pipeline.mem_restRefs_of main_v27 (by decide) (by decide)),
     ((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's branch -/

/-- The body resets its three accumulators when the second grid coordinate is zero. -/
abbrev cond0_0 (i : grid0.Coords) : Prop := (Scalar.cmpi .ne (Scalar.extui (Scalar.cmpi .eq (BitVec.ofNat 32 (i 1).val) 0#32)) 0#32) = 1#1
/-- Over the grid that is at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-! ## The staging memrefs at a point -/

/-- One staging buffer of each output window, through which its contents are stated. -/
abbrev VO0_2 : View sig .tc .vmem S1x11x750 .f32 := (Memref.whole cc0_stg2_0 : Memref sig .tc .vmem S1x11x750 .f32).view
abbrev VO0_3 : View sig .tc .vmem S1x11x750 .f32 := (Memref.whole cc0_stg3_0 : Memref sig .tc .vmem S1x11x750 .f32).view
abbrev VO0_4 : View sig .tc .vmem S1x1x1 .f32 := (Memref.whole cc0_stg4_0 : Memref sig .tc .vmem S1x1x1 .f32).view
/-- Each window's current staging memref at point t, and its wholeness. -/
abbrev ms0_0 (t : Fin cfg0.N) : Memref sig .tc .vmem S1024x761 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x761 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x11x750 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x11x750 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)

end Cert.KernelIdeal.Fr

end
-- ==== Proof.KIRunA.lean ====
/-
  The kernel body run once at a grid point where its branch is taken (the second grid coordinate is zero): the three
  accumulators are first overwritten with zeros, so what they held before does not matter, and each ends holding the
  pieces the body's stores wrote. The two input blocks are only read.
-/
import proofs.«172264_j3959959847206_2_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each accumulator's buffer ends with when the branch is taken, with the proof that from whole staging
    buffers — the inputs at their contents, the accumulators at anything — the body runs to its end leaving the inputs
    as they were and each accumulator with those pieces written. -/
noncomputable def kernelRun0_A (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : cond0_0 i)
    (x0 : Vec F S1024x761 .f32) (x1 : Vec F S1024x761 .f32) :
    Σ' (L2 : List (View.Piece (Elt F) S1x11x750 .f32)), Σ' (L3 : List (View.Piece (Elt F) S1x11x750 .f32)), { L4 : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__fused_kernel_body i arg2 harg2 arg3 harg3 arg4 harg4 arg5 harg5 arg6 harg6) K } := by
  refine ⟨?_, ?_, ?_, fun E K => ?run⟩
  case run =>
    simp only [cc0__fused_kernel_body_eq_skeleton]; unfold cc0__fused_kernel_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.KernelIdeal.Fr

end
-- ==== Proof.KIRunB.lean ====
/-
  The kernel body run once at a grid point where its branch is not taken (the second grid coordinate is not zero): each
  accumulator is read at what the point before left in it, and ends holding the pieces the body's stores wrote over
  that. The two input blocks are only read.
-/
import proofs.«172264_j3959959847206_2_alg».proof.Proof.KIRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces each accumulator's buffer ends with when the branch is not taken, with the proof that from whole staging
    buffers — the inputs at their contents, the accumulators at their running contents — the body runs to its end
    leaving the inputs as they were and each accumulator with those pieces written. -/
noncomputable def kernelRun0_B (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : ¬cond0_0 i)
    (x0 : Vec F S1024x761 .f32) (x1 : Vec F S1024x761 .f32) (xo2 : Vec F S1x11x750 .f32) (xo3 : Vec F S1x11x750 .f32) (xo4 : Vec F S1x1x1 .f32) :
    Σ' (L2 : List (View.Piece (Elt F) S1x11x750 .f32)), Σ' (L3 : List (View.Piece (Elt F) S1x11x750 .f32)), { L4 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3 ∗ owns (c : Thread nD τ) arg6 fullShare xo4
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__fused_kernel_body i arg2 harg2 arg3 harg3 arg4 harg4 arg5 harg5 arg6 harg6) K } := by
  refine ⟨?_, ?_, ?_, fun E K => ?run⟩
  case run =>
    simp only [cc0__fused_kernel_body_eq_skeleton]; unfold cc0__fused_kernel_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact H4

end Cert.KernelIdeal.Fr

end
-- ==== Proof.KIFrame.lean ====
/-
  The pipelined region run over its 2 x 2 grid. A core's two points share one block of each of the three outputs: at
  the even point the body overwrites the block with zeros and adds the tile's sums, at the odd point it adds the next
  tile's sums to what the even point left, and only then is the block written back. What the three staging buffers
  hold after each point is therefore defined by recursion on the point (outsAt0); with it as the proof data the body's
  run at every point is the run of the point's case, the launch theorem gives the region's run between the two
  stretches of host operations, and the program's run follows: it terminates, faults nowhere, leaves both arguments
  as launched, and its result buffer holds what the reducing operations compute from the three outputs' final arrays.
-/
import proofs.«172264_j3959959847206_2_alg».proof.Proof.KIRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three accumulators' contents. -/
abbrev Outs (F : FTy → Type) [FloatOps F] : Type := Vec F S1x11x750 .f32 × Vec F S1x11x750 .f32 × Vec F S1x1x1 .f32

/-- The pieces case A leaves in accumulator 2 tile its block, so they cover it. -/
theorem cover0_A_2 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : cond0_0 i)
    (x0 : Vec F S1024x761 .f32) (x1 : Vec F S1024x761 .f32) (y : S1x11x750.Idx) :
    ∃ pc ∈ (kernelRun0_A c i arg2 harg2 arg3 harg3 arg4 harg4 arg5 harg5 arg6 harg6 hc0 x0 x1).1, y ∈ pc.1.set :=
  View.cover_of_tiledL (kernelRun0_A c i arg2 harg2 arg3 harg3 arg4 harg4 arg5 harg5 arg6 harg6 hc0 x0 x1).1 S1x11x750.size (by sl_kernel_rfl) y

/-- What case A leaves in accumulator 2's staging buffer: its pieces read back. -/
def out0_A_2 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : cond0_0 i)
    (x0 : Vec F S1024x761 .f32) (x1 : Vec F S1024x761 .f32) : Vec F S1x11x750 .f32 :=
  VO0_2.read (Elt F) (VO0_2.writes (Elt F) VO0_2.junk (kernelRun0_A c i arg2 harg2 arg3 harg3 arg4 harg4 arg5 harg5 arg6 harg6 hc0 x0 x1).1)

/-- The pieces case A leaves in accumulator 3 tile its block, so they cover it. -/
theorem cover0_A_3 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : cond0_0 i)
    (x0 : Vec F S1024x761 .f32) (x1 : Vec F S1024x761 .f32) (y : S1x11x750.Idx) :
    ∃ pc ∈ (kernelRun0_A c i arg2 harg2 arg3 harg3 arg4 harg4 arg5 harg5 arg6 harg6 hc0 x0 x1).2.1, y ∈ pc.1.set :=
  View.cover_of_tiledL (kernelRun0_A c i arg2 harg2 arg3 harg3 arg4 harg4 arg5 harg5 arg6 harg6 hc0 x0 x1).2.1 S1x11x750.size (by sl_kernel_rfl) y

/-- What case A leaves in accumulator 3's staging buffer: its pieces read back. -/
def out0_A_3 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : cond0_0 i)
    (x0 : Vec F S1024x761 .f32) (x1 : Vec F S1024x761 .f32) : Vec F S1x11x750 .f32 :=
  VO0_3.read (Elt F) (VO0_3.writes (Elt F) VO0_3.junk (kernelRun0_A c i arg2 harg2 arg3 harg3 arg4 harg4 arg5 harg5 arg6 harg6 hc0 x0 x1).2.1)

/-- The pieces case A leaves in accumulator 4 tile its block, so they cover it. -/
theorem cover0_A_4 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : cond0_0 i)
    (x0 : Vec F S1024x761 .f32) (x1 : Vec F S1024x761 .f32) (y : S1x1x1.Idx) :
    ∃ pc ∈ (kernelRun0_A c i arg2 harg2 arg3 harg3 arg4 harg4 arg5 harg5 arg6 harg6 hc0 x0 x1).2.2.1, y ∈ pc.1.set :=
  View.cover_of_tiledL (kernelRun0_A c i arg2 harg2 arg3 harg3 arg4 harg4 arg5 harg5 arg6 harg6 hc0 x0 x1).2.2.1 S1x1x1.size (by sl_kernel_rfl) y

/-- What case A leaves in accumulator 4's staging buffer: its pieces read back. -/
def out0_A_4 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : cond0_0 i)
    (x0 : Vec F S1024x761 .f32) (x1 : Vec F S1024x761 .f32) : Vec F S1x1x1 .f32 :=
  VO0_4.read (Elt F) (VO0_4.writes (Elt F) VO0_4.junk (kernelRun0_A c i arg2 harg2 arg3 harg3 arg4 harg4 arg5 harg5 arg6 harg6 hc0 x0 x1).2.2.1)

/-- The pieces case B leaves in accumulator 2 tile its block, so they cover it. -/
theorem cover0_B_2 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : ¬cond0_0 i)
    (x0 : Vec F S1024x761 .f32) (x1 : Vec F S1024x761 .f32) (xo2 : Vec F S1x11x750 .f32) (xo3 : Vec F S1x11x750 .f32) (xo4 : Vec F S1x1x1 .f32) (y : S1x11x750.Idx) :
    ∃ pc ∈ (kernelRun0_B c i arg2 harg2 arg3 harg3 arg4 harg4 arg5 harg5 arg6 harg6 hc0 x0 x1 xo2 xo3 xo4).1, y ∈ pc.1.set :=
  View.cover_of_tiledL (kernelRun0_B c i arg2 harg2 arg3 harg3 arg4 harg4 arg5 harg5 arg6 harg6 hc0 x0 x1 xo2 xo3 xo4).1 S1x11x750.size (by sl_kernel_rfl) y

/-- What case B leaves in accumulator 2's staging buffer: its pieces read back. -/
def out0_B_2 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : ¬cond0_0 i)
    (x0 : Vec F S1024x761 .f32) (x1 : Vec F S1024x761 .f32) (xo2 : Vec F S1x11x750 .f32) (xo3 : Vec F S1x11x750 .f32) (xo4 : Vec F S1x1x1 .f32) : Vec F S1x11x750 .f32 :=
  VO0_2.read (Elt F) (VO0_2.writes (Elt F) VO0_2.junk (kernelRun0_B c i arg2 harg2 arg3 harg3 arg4 harg4 arg5 harg5 arg6 harg6 hc0 x0 x1 xo2 xo3 xo4).1)

/-- The pieces case B leaves in accumulator 3 tile its block, so they cover it. -/
theorem cover0_B_3 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : ¬cond0_0 i)
    (x0 : Vec F S1024x761 .f32) (x1 : Vec F S1024x761 .f32) (xo2 : Vec F S1x11x750 .f32) (xo3 : Vec F S1x11x750 .f32) (xo4 : Vec F S1x1x1 .f32) (y : S1x11x750.Idx) :
    ∃ pc ∈ (kernelRun0_B c i arg2 harg2 arg3 harg3 arg4 harg4 arg5 harg5 arg6 harg6 hc0 x0 x1 xo2 xo3 xo4).2.1, y ∈ pc.1.set :=
  View.cover_of_tiledL (kernelRun0_B c i arg2 harg2 arg3 harg3 arg4 harg4 arg5 harg5 arg6 harg6 hc0 x0 x1 xo2 xo3 xo4).2.1 S1x11x750.size (by sl_kernel_rfl) y

/-- What case B leaves in accumulator 3's staging buffer: its pieces read back. -/
def out0_B_3 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : ¬cond0_0 i)
    (x0 : Vec F S1024x761 .f32) (x1 : Vec F S1024x761 .f32) (xo2 : Vec F S1x11x750 .f32) (xo3 : Vec F S1x11x750 .f32) (xo4 : Vec F S1x1x1 .f32) : Vec F S1x11x750 .f32 :=
  VO0_3.read (Elt F) (VO0_3.writes (Elt F) VO0_3.junk (kernelRun0_B c i arg2 harg2 arg3 harg3 arg4 harg4 arg5 harg5 arg6 harg6 hc0 x0 x1 xo2 xo3 xo4).2.1)

/-- The pieces case B leaves in accumulator 4 tile its block, so they cover it. -/
theorem cover0_B_4 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : ¬cond0_0 i)
    (x0 : Vec F S1024x761 .f32) (x1 : Vec F S1024x761 .f32) (xo2 : Vec F S1x11x750 .f32) (xo3 : Vec F S1x11x750 .f32) (xo4 : Vec F S1x1x1 .f32) (y : S1x1x1.Idx) :
    ∃ pc ∈ (kernelRun0_B c i arg2 harg2 arg3 harg3 arg4 harg4 arg5 harg5 arg6 harg6 hc0 x0 x1 xo2 xo3 xo4).2.2.1, y ∈ pc.1.set :=
  View.cover_of_tiledL (kernelRun0_B c i arg2 harg2 arg3 harg3 arg4 harg4 arg5 harg5 arg6 harg6 hc0 x0 x1 xo2 xo3 xo4).2.2.1 S1x1x1.size (by sl_kernel_rfl) y

/-- What case B leaves in accumulator 4's staging buffer: its pieces read back. -/
def out0_B_4 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc0 : ¬cond0_0 i)
    (x0 : Vec F S1024x761 .f32) (x1 : Vec F S1024x761 .f32) (xo2 : Vec F S1x11x750 .f32) (xo3 : Vec F S1x11x750 .f32) (xo4 : Vec F S1x1x1 .f32) : Vec F S1x1x1 .f32 :=
  VO0_4.read (Elt F) (VO0_4.writes (Elt F) VO0_4.junk (kernelRun0_B c i arg2 harg2 arg3 harg3 arg4 harg4 arg5 harg5 arg6 harg6 hc0 x0 x1 xo2 xo3 xo4).2.2.1)

/-! ## What the accumulators hold after each point -/

/-- After a point where the branch is taken. -/
def outA (c : Dev nD) (t : Fin cfg0.N) (hc : cond0_0 (grid0.coords t)) : Outs F :=
  (out0_A_2 c (grid0.coords t) (ms0_0 t) (hs0_0 t) (ms0_1 t) (hs0_1 t) (ms0_2 t) (hs0_2 t) (ms0_3 t) (hs0_3 t) (ms0_4 t) (hs0_4 t) hc (iblk m c 0 t) (iblk m c 1 t),
   out0_A_3 c (grid0.coords t) (ms0_0 t) (hs0_0 t) (ms0_1 t) (hs0_1 t) (ms0_2 t) (hs0_2 t) (ms0_3 t) (hs0_3 t) (ms0_4 t) (hs0_4 t) hc (iblk m c 0 t) (iblk m c 1 t),
   out0_A_4 c (grid0.coords t) (ms0_0 t) (hs0_0 t) (ms0_1 t) (hs0_1 t) (ms0_2 t) (hs0_2 t) (ms0_3 t) (hs0_3 t) (ms0_4 t) (hs0_4 t) hc (iblk m c 0 t) (iblk m c 1 t))

/-- After a point where it is not, over what the point before left. -/
def outB (c : Dev nD) (t : Fin cfg0.N) (hc : ¬cond0_0 (grid0.coords t)) (p : Outs F) : Outs F :=
  (out0_B_2 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) p.1 p.2.1 p.2.2,
   out0_B_3 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) p.1 p.2.1 p.2.2,
   out0_B_4 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) p.1 p.2.1 p.2.2)

/-- The accumulation, by recursion on the point's position. -/
def outsAt0 (c : Dev nD) : (n : ℕ) → n < cfg0.N → Outs F
  | 0, hn => outA m c ⟨0, hn⟩ ((hcond0_0 ⟨0, hn⟩).mpr (Nat.zero_mod _))
  | n + 1, hn =>
    if h0 : (n + 1) % 2 = 0 then outA m c ⟨n + 1, hn⟩ ((hcond0_0 ⟨n + 1, hn⟩).mpr h0)
    else outB m c ⟨n + 1, hn⟩ (fun h => h0 ((hcond0_0 ⟨n + 1, hn⟩).mp h)) (outsAt0 c n (Nat.lt_of_succ_lt hn))

theorem outsAt0_A (c : Dev nD) (t : Fin cfg0.N) (h0 : t.val % 2 = 0) :
    outsAt0 m c t.val t.isLt = outA m c t ((hcond0_0 t).mpr h0) := by
  obtain ⟨n, hn⟩ := t
  cases n with
  | zero => exact rfl
  | succ n => exact (dif_pos h0).trans rfl

theorem outsAt0_B (c : Dev nD) (t : Fin cfg0.N) (h0 : ¬t.val % 2 = 0) :
    outsAt0 m c t.val t.isLt = outB m c t (fun h => h0 ((hcond0_0 t).mp h)) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body at point t each input's buffer at its block and the three
    accumulators at outsAt0; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At an odd point each accumulator's buffer holds what the body left at the point before: it was not written back
    between. -/
theorem before0_2_B (c : Dev nD) (t : Fin cfg0.N) (h0 : ¬t.val % 2 = 0) (d) :
    (dats m 0 c).before 2 t d = (outsAt0 m c (t.val - 1) (Nat.lt_of_le_of_lt (Nat.sub_le _ _) t.isLt)).1 := by
  have hN : t.val < 4 := lt_of_lt_of_eq t.isLt (show cfg0.N = 4 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 2 = 0) (d) :
    (dats m 0 c).before 3 t d = (outsAt0 m c (t.val - 1) (Nat.lt_of_le_of_lt (Nat.sub_le _ _) t.isLt)).2.1 := by
  have hN : t.val < 4 := lt_of_lt_of_eq t.isLt (show cfg0.N = 4 from N_0)
  rw [Dat.before_out_kept _ 3 rfl t (by omega) (Bool.eq_false_iff.mpr fun h => by have := (flush0_3 _).mp h; dsimp only at this; omega)
    (fun _ => rfl) (fun _ _ => rfl)]
  dsimp only [dats]
theorem before0_4_B (c : Dev nD) (t : Fin cfg0.N) (h0 : ¬t.val % 2 = 0) (d) :
    (dats m 0 c).before 4 t d = (outsAt0 m c (t.val - 1) (Nat.lt_of_le_of_lt (Nat.sub_le _ _) t.isLt)).2.2 := by
  have hN : t.val < 4 := lt_of_lt_of_eq t.isLt (show cfg0.N = 4 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; the point's parity says which case it is in; at an
    odd point the accumulators hold what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 4 := lt_of_lt_of_eq t.isLt (show cfg0.N = 4 from N_0)
  by_cases h0 : t.val % 2 = 0
  · rw [outsAt0_A m c t h0]
    unfold outA out0_A_2 out0_A_3 out0_A_4
    dsimp only
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B m c t h0]
    simp only [before0_2_B m c t h0, before0_3_B m c t h0, before0_4_B m c t h0]
    unfold outB out0_B_2 out0_B_3 out0_B_4
    dsimp only
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) _ _ _).2.2.2 Set.univ _)
    isplitl [H0]; · iexact H0
    isplitl [H1]; · iexact H1
    isplitl [H2]; · iexact H2
    isplitl [H3]; · iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The region's run and the program's -/

set_option backward.isDefEq.respectTransparency.types false in
/-- Every weakly fair execution of the program terminates, with every staged array at the proof data's final
    contents and every other unscoped buffer as the reducing operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program's run with its result named: the reducing operations' value over the outputs' final arrays; both
    arguments end as launched. -/
theorem run_value : θ_run defs (onTc (τ := τ) (main (F := F))) ⟨m, fun _ => 0, ρ⟩ (fun r => ∀ c : Dev nD,
      r.2.mem ((c.tc : Thread nD τ).loc main_v27) = Pipeline.afterTail₀ cfgs (dats m) 0 (V0 m) [hostOps1] c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  post_of m ρ (dats m) (run_main m ρ)

/-- The frame: the program runs to its end and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.KernelIdeal.Fr

end
-- ==== Proof.Spec.lean ====
/-
  The loss both programs compute, as two functions of the argument arrays on the extended reals.

  Both programs pad each row of a [4096, 750] array by repeating its first entry six times on the left and its
  last entry five times on the right (column k of the padded row is column min (k - 6) 749 of the row), and for
  every window offset j < 11 and every column i < 750 compare column i with padded column i + j:
    sq(i, j)  = sum over the rows b of (x0 b i - pad x0 b (i + j))^2,
    ab(i, j)  = sum over the rows b of |x1 b i - pad x1 b (i + j)|,
    res       = sum over the rows b and the columns i of (x0 b i - x1 b i)^2,
    loss      = ((sum over i, j of exp (- sq(i, j) / 2) * ab(i, j)) / 4096 + (0.1 * res) / 4096) * 1.
  The kernel forms the row sums tile by tile (four tiles of 1024 rows, two per core), adds the two cores, scales
  the squared sums by -1/2 before the exponential, multiplies the weight with the whole absolute sum and divides
  once (kernelLoss); the reference multiplies the weight into every row's term before the row sum, divides each
  (i, j) entry by 4096 before the outer sum, and scales each row's residual by 0.1 before the row sum (refLoss).
  The f32 word of 0.1 is the same word in both programs and is kept as a word (tenth).
-/
import Idealize.ShloMosaic.PureOps.Ideal
import Idealize.ShloMosaic.Lib.ValueIdx

noncomputable section

namespace Cert.WindowLoss

open Idealize.ShloMosaic Idealize.ShloMosaic.ValueIdx

/-- A [4096, 750] array of extended reals by row and column. -/
abbrev Arr := Fin 4096 → Fin 750 → EReal

/-- A printed [4096, 750] array read by row and column. -/
def arr2 (a : (⟨2, ![4096, 750]⟩ : Shape).Idx → EReal) : Arr := fun b i => a (ix2 b i)

/-- The f32 word both programs print for 0.1, read at the extended reals. -/
abbrev tenth : EReal := Ideal.ofBits .f32 0x3DCCCCCD#32

/-- The column of a row that column k of its edge-padded copy repeats. -/
def padcol (k : ℕ) : Fin 750 := ⟨min (k - 6) 749, by omega⟩

/-- Row r of batch tile t. -/
def row (t : Fin 4) (r : Fin 1024) : Fin 4096 := ⟨1024 * t.val + r.val, by omega⟩

/-- Tile s of core c. -/
def tile (c : Fin 2) (s : Fin 2) : Fin 4 := ⟨2 * c.val + s.val, by omega⟩

/-- The absolute value as both programs take it on the extended reals. -/
def absE (a : EReal) : EReal := max a (-a)

/-! ## The kernel's arrangement -/

/-- One tile's sum of squared differences at window offset j and column i. -/
def tileSq (x : Arr) (t : Fin 4) (j : Fin 11) (i : Fin 750) : EReal :=
  ∑ r : Fin 1024, (x (row t r) i - x (row t r) (padcol (i.val + j.val))) * (x (row t r) i - x (row t r) (padcol (i.val + j.val)))

/-- One tile's sum of absolute differences at window offset j and column i. -/
def tileAbs (x : Arr) (t : Fin 4) (j : Fin 11) (i : Fin 750) : EReal :=
  ∑ r : Fin 1024, absE (x (row t r) i - x (row t r) (padcol (i.val + j.val)))

/-- One tile's residual: its rows' sums over the columns of the squared difference of the two arrays, summed. -/
def tileRes (x0 x1 : Arr) (t : Fin 4) : EReal :=
  ∑ r : Fin 1024, ∑ i : Fin 750, (x0 (row t r) i - x1 (row t r) i) * (x0 (row t r) i - x1 (row t r) i)

/-- What a core accumulates over its two tiles. -/
def coreSq (x : Arr) (c : Fin 2) (j : Fin 11) (i : Fin 750) : EReal := tileSq x (tile c 0) j i + tileSq x (tile c 1) j i
def coreAbs (x : Arr) (c : Fin 2) (j : Fin 11) (i : Fin 750) : EReal := tileAbs x (tile c 0) j i + tileAbs x (tile c 1) j i
def coreRes (x0 x1 : Arr) (c : Fin 2) : EReal := tileRes x0 x1 (tile c 0) + tileRes x0 x1 (tile c 1)

/-- The kernel's result. -/
def kernelLoss (x0 x1 : Arr) : EReal :=
  (Ideal.div (∑ j : Fin 11, ∑ i : Fin 750,
        Ideal.exp ((∑ c : Fin 2, coreSq x0 c j i) * ((-0.5 : ℝ) : EReal)) * (∑ c : Fin 2, coreAbs x1 c j i)) ((4096 : ℝ) : EReal)
    + Ideal.div (tenth * (∑ c : Fin 2, coreRes x0 x1 c)) ((4096 : ℝ) : EReal)) * ((1 : ℝ) : EReal)

/-! ## The reference's arrangement -/

/-- The sum over all rows of the squared differences at column i and window offset j. -/
def refSq (x : Arr) (i : Fin 750) (j : Fin 11) : EReal :=
  ∑ b : Fin 4096, (x b i - x b (padcol (i.val + j.val))) * (x b i - x b (padcol (i.val + j.val)))

/-- The reference's result. -/
def refLoss (x0 x1 : Arr) : EReal :=
  ((∑ i : Fin 750, ∑ j : Fin 11,
        Ideal.div (∑ b : Fin 4096, Ideal.exp (Ideal.div (-(refSq x0 i j)) ((2 : ℝ) : EReal)) * absE (x1 b i - x1 b (padcol (i.val + j.val))))
          ((4096 : ℝ) : EReal))
    + Ideal.div (∑ b : Fin 4096, tenth * ∑ i : Fin 750, (x0 b i - x1 b i) * (x0 b i - x1 b i)) ((4096 : ℝ) : EReal)) * ((1 : ℝ) : EReal)

end Cert.WindowLoss

end
-- ==== Proof.KIPieces.lean ====
/-
  The arithmetic of one grid point, read at an entry on the extended reals. For a column block v (the block's columns
  6 … 755, the unpadded tile) and a compared block b (the columns k … k + 749), one row of the kernel's [11,750] update
  is the sum over the tile's 1024 rows of (v - b)^2, or of |v - b|; the eleven rows are joined along the first axis and
  added to what the accumulator held. The residual update is the accumulator's one entry plus the sum over the rows of
  the sums over the columns of the squared difference of the two tiles.
-/
import proofs.«172264_j3959959847206_2_alg».proof.Proof.Gen.KernelIdeal.Skeleton
import proofs.«172264_j3959959847206_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.ValueIdx Idealize.ShloMosaic.TcCoe Idealize.SL.Sem
open Cert.WindowLoss

variable {F : FTy → Type} [FloatOps F]

/-- One row of the squared sums: over the tile's rows, of the squared difference of the two column blocks. -/
def sqPiece (v : FVec F S1024x750 .f32) (b : Vec F S1024x750 .f32) : FVec F S1x750 .f32 :=
  shapeCast S1x750 (multiReduction .add [0] S750
    (mulf (subf v (shapeCast S1024x750 b shapeCasts_S1024x750_S1024x750)) (subf v (shapeCast S1024x750 b shapeCasts_S1024x750_S1024x750)))
    0x00000000#32 reduces_S1024x750_S750 (.inl rfl) rfl) shapeCasts_S750_S1x750

/-- One row of the absolute sums. -/
def absPiece (v : FVec F S1024x750 .f32) (b : Vec F S1024x750 .f32) : FVec F S1x750 .f32 :=
  shapeCast S1x750 (multiReduction .add [0] S750
    (absf (subf v (shapeCast S1024x750 b shapeCasts_S1024x750_S1024x750)))
    0x00000000#32 reduces_S1024x750_S750 (.inl rfl) rfl) shapeCasts_S750_S1x750

/-- A vector cast to a column reads at (i, u) the vector at i. -/
theorem cast_column {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A sum over the rows of a [1024,750] array from the zero word, at column q. -/
theorem sumRows (y : FVec Ideal S1024x750 .f32) (q : Fin 750) :
    multiReduction (F := Ideal) .add [0] S750 y 0x00000000#32 reduces_S1024x750_S750 (.inl rfl) rfl (ix1 q)
      = ∑ r : Fin 1024, y (ix2 r q) := by
  refine (Ideal.multiReduction_add_single y 0x00000000#32 reduces_S1024x750_S750 (.inl rfl) rfl (ix1 q)).trans ?_
  refine Finset.sum_congr rfl fun r _ => ?_
  exact congrArg y (funext fun a => Fin.ext (by match a with | ⟨0, _⟩ => rfl | ⟨1, _⟩ => rfl))

theorem sqPiece_apply (v : FVec Ideal S1024x750 .f32) (b : Vec Ideal S1024x750 .f32) (u : Fin 1) (q : Fin 750) :
    sqPiece (F := Ideal) v b (ix2 u q) = ∑ r : Fin 1024, (v (ix2 r q) - b (ix2 r q)) * (v (ix2 r q) - b (ix2 r q)) := by
  unfold sqPiece
  refine (shapeCast_a_1a_apply _ _ u q).trans ?_
  rw [shapeCast_self]
  exact sumRows _ q

theorem absPiece_apply (v : FVec Ideal S1024x750 .f32) (b : Vec Ideal S1024x750 .f32) (u : Fin 1) (q : Fin 750) :
    absPiece (F := Ideal) v b (ix2 u q) = ∑ r : Fin 1024, absE (v (ix2 r q) - b (ix2 r q)) := by
  unfold absPiece
  refine (shapeCast_a_1a_apply _ _ u q).trans ?_
  rw [shapeCast_self]
  exact sumRows _ q

/-- The squared-sum accumulator's stored value at (0, j, q): what it held plus row j's sum. -/
theorem pay28_apply (v : FVec Ideal S1024x750 .f32) (b : Fin 11 → Vec Ideal S1024x750 .f32) (acc : Vec Ideal S1x11x750 .f32)
    (j : Fin 11) (q : Fin 750) :
    k0_pay28 (F := Ideal) v (sqPiece v (b 0)) (sqPiece v (b 1)) (sqPiece v (b 2)) (sqPiece v (b 3)) (sqPiece v (b 4)) (sqPiece v (b 5)) (sqPiece v (b 6)) (sqPiece v (b 7)) (sqPiece v (b 8)) (b 9) (b 10) acc (ix3 (0 : Fin 1) j q)
      = acc (ix3 (0 : Fin 1) j q) + ∑ r : Fin 1024, (v (ix2 r q) - b j (ix2 r q)) * (v (ix2 r q) - b j (ix2 r q)) := by
  unfold k0_pay28
  refine (shapeCast_ab_1ab_apply _ _ (0 : Fin 1) j q).trans ?_
  show shapeCast S11x750 acc _ (ix2 j q) + concatenate S11x750 0 (List.ofFn fun n : Fin 11 => (⟨S1x750, sqPiece v (b n)⟩ : (s : Shape) × (s.Idx → EReal))) _ (ix2 j q) = _
  rw [shapeCast_1ab_ab_apply]
  refine congrArg (_ + ·) ?_
  refine (concatenate_ofFn_unit_apply (t := S11x750) (s₁ := S1x750) (0 : Fin 2) (fun n : Fin 11 => sqPiece v (b n)) _ rfl rfl (ix2 j q) j rfl (ix2 (0 : Fin 1) q)
    (fun a ha => by match a with | ⟨0, _⟩ => exact absurd rfl ha | ⟨1, _⟩ => rfl)).trans ?_
  exact sqPiece_apply v (b j) 0 q

/-- The absolute-sum accumulator's stored value at (0, j, q). -/
theorem pay29_apply (v : FVec Ideal S1024x750 .f32) (b : Fin 11 → Vec Ideal S1024x750 .f32) (acc : Vec Ideal S1x11x750 .f32)
    (j : Fin 11) (q : Fin 750) :
    k0_pay1 (F := Ideal) (k0_pay29 (F := Ideal) v (absPiece v (b 0)) (absPiece v (b 1)) (absPiece v (b 2)) (absPiece v (b 3)) (absPiece v (b 4)) (absPiece v (b 5)) (absPiece v (b 6)) (absPiece v (b 7)) (absPiece v (b 8)) (b 9) (b 10) acc) (ix3 (0 : Fin 1) j q)
      = acc (ix3 (0 : Fin 1) j q) + ∑ r : Fin 1024, absE (v (ix2 r q) - b j (ix2 r q)) := by
  unfold k0_pay1 k0_pay29
  refine (shapeCast_ab_1ab_apply _ _ (0 : Fin 1) j q).trans ?_
  show shapeCast S11x750 acc _ (ix2 j q) + concatenate S11x750 0 (List.ofFn fun n : Fin 11 => (⟨S1x750, absPiece v (b n)⟩ : (s : Shape) × (s.Idx → EReal))) _ (ix2 j q) = _
  rw [shapeCast_1ab_ab_apply]
  refine congrArg (_ + ·) ?_
  refine (concatenate_ofFn_unit_apply (t := S11x750) (s₁ := S1x750) (0 : Fin 2) (fun n : Fin 11 => absPiece v (b n)) _ rfl rfl (ix2 j q) j rfl (ix2 (0 : Fin 1) q)
    (fun a ha => by match a with | ⟨0, _⟩ => exact absurd rfl ha | ⟨1, _⟩ => rfl)).trans ?_
  exact absPiece_apply v (b j) 0 q

/-- The residual accumulator's stored value at its one entry. -/
theorem pay2_apply (v w : FVec Ideal S1024x750 .f32) (acc : Vec Ideal S1x1x1 .f32) :
    k0_pay2 (F := Ideal) v w acc (ix3 (0 : Fin 1) (0 : Fin 1) (0 : Fin 1))
      = acc (ix3 (0 : Fin 1) (0 : Fin 1) (0 : Fin 1))
        + ∑ r : Fin 1024, ∑ q : Fin 750, (v (ix2 r q) - w (ix2 r q)) * (v (ix2 r q) - w (ix2 r q)) := by
  unfold k0_pay2
  refine (shapeCast_ab_1ab_apply _ _ (0 : Fin 1) (0 : Fin 1) (0 : Fin 1)).trans ?_
  show shapeCast S1x1 acc _ (ix2 (0 : Fin 1) (0 : Fin 1)) + shapeCast S1x1 _ _ (ix2 (0 : Fin 1) (0 : Fin 1)) = _
  rw [shapeCast_1ab_ab_apply]
  refine congrArg (_ + ·) ?_
  refine (shapeCast_a_1a_apply _ _ (0 : Fin 1) (0 : Fin 1)).trans ?_
  refine (Ideal.multiReduction_add_single _ 0x00000000#32 reduces_S1024x1_S1 (.inl rfl) rfl (ix1 (0 : Fin 1))).trans ?_
  refine Finset.sum_congr rfl fun r _ => ?_
  have e : reduces_S1024x1_S1.lift (ix1 (0 : Fin 1)) r = ix2 (⟨r.val, r.isLt⟩ : Fin 1024) (0 : Fin 1) :=
    funext fun a => Fin.ext (by match a with | ⟨0, _⟩ => rfl | ⟨1, _⟩ => rfl)
  rw [e]
  refine (cast_column _ _ _ _).trans ?_
  refine (Ideal.multiReduction_add_single _ 0x00000000#32 reduces_S1024x750_S1024 (.inl rfl) rfl (ix1 (⟨r.val, r.isLt⟩ : Fin 1024))).trans ?_
  refine Finset.sum_congr rfl fun q _ => ?_
  have e2 : reduces_S1024x750_S1024.lift (ix1 (⟨r.val, r.isLt⟩ : Fin 1024)) q = ix2 (⟨r.val, r.isLt⟩ : Fin 1024) (⟨q.val, q.isLt⟩ : Fin 750) :=
    funext fun a => Fin.ext (by match a with | ⟨0, _⟩ => rfl | ⟨1, _⟩ => rfl)
  rw [e2]
  rfl

end Cert.KernelIdeal.Val

end
-- ==== Proof.KIOuts.lean ====
/-
  What one run of the body leaves in each accumulator, as the stored payload over the block's column loads. Every
  column block the body compares is a load of 750 consecutive columns of the [1024,761] input block starting at column
  k = 0 … 10; the block's own columns are the load starting at column 6. When the branch is taken the accumulator is
  read back after the zero store, so the update is added to zeros; otherwise it is added to what the buffer held.
-/
import proofs.«172264_j3959959847206_2_alg».proof.Proof.KIFrame
import proofs.«172264_j3959959847206_2_alg».proof.Proof.KIPieces
import Idealize.ShloMosaic.Lib.Pipeline.Value
import Idealize.ShloMosaic.Lib.Tactic

noncomputable section

namespace Cert.KernelIdeal.Val

open Cert.KernelIdeal Cert.KernelIdeal.Gen
open Idealize.ShloMosaic Idealize.ShloMosaic.ValueIdx Idealize.ShloMosaic.TcCoe Idealize.SL.Sem
open Cert.WindowLoss

open Cert.KernelIdeal.Fr Idealize.ShloMosaic.Tactic

set_option maxRecDepth 16384

variable {F : FTy → Type} [FloatOps F]

theorem hz3 : (![0, 0, 0] : Fin 3 → Nat) = fun _ => 0 := funext fun a => by fin_cases a <;> rfl

/-- Columns k … k + 749 of an input block, as the body loads them. -/
abbrev cols (x : Vec F S1024x761 .f32) (k : ℕ) (h : ∀ a, (![0, k] : Fin 2 → Nat) a + S1024x750.size a ≤ S1024x761.size a) :
    Vec F S1024x750 .f32 :=
  View.ld x (Rect.unit (s := S1024x761) ![0, k] S1024x750.size h)

/-- The eleven compared column blocks. -/
abbrev bks (x : Vec F S1024x761 .f32) : Fin 11 → Vec F S1024x750 .f32 :=
  ![cols x 0 inb_S1024x761_S1024x750_0_0, cols x 1 inb_S1024x761_S1024x750_0_1, cols x 2 inb_S1024x761_S1024x750_0_2, cols x 3 inb_S1024x761_S1024x750_0_3, cols x 4 inb_S1024x761_S1024x750_0_4, cols x 5 inb_S1024x761_S1024x750_0_5, cols x 6 inb_S1024x761_S1024x750_0_6, cols x 7 inb_S1024x761_S1024x750_0_7, cols x 8 inb_S1024x761_S1024x750_0_8, cols x 9 inb_S1024x761_S1024x750_0_9, cols x 10 inb_S1024x761_S1024x750_0_10]

/-- The block's own columns (the unpadded tile). -/
abbrev mid (x : Vec F S1024x761 .f32) : FVec F S1024x750 .f32 := k0_pay6 (cols x 6 inb_S1024x761_S1024x750_0_6)

theorem out_B_2 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc : ¬cond0_0 i)
    (x0 x1 : Vec F S1024x761 .f32) (xo2 xo3 : Vec F S1x11x750 .f32) (xo4 : Vec F S1x1x1 .f32) :
    out0_B_2 c i arg2 harg2 arg3 harg3 arg4 harg4 arg5 harg5 arg6 harg6 hc x0 x1 xo2 xo3 xo4 = k0_pay28 (mid x0) (sqPiece (mid x0) (bks x0 0)) (sqPiece (mid x0) (bks x0 1)) (sqPiece (mid x0) (bks x0 2)) (sqPiece (mid x0) (bks x0 3)) (sqPiece (mid x0) (bks x0 4)) (sqPiece (mid x0) (bks x0 5)) (sqPiece (mid x0) (bks x0 6)) (sqPiece (mid x0) (bks x0 7)) (sqPiece (mid x0) (bks x0 8)) (bks x0 9) (bks x0 10) xo2 := by
  unfold out0_B_2
  rw [View.read_writes_eq_canon _ _ _ (cover0_B_2 c i arg2 harg2 arg3 harg3 arg4 harg4 arg5 harg5 arg6 harg6 hc x0 x1 xo2 xo3 xo4)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S1x11x750) hz3]
  rfl

theorem out_B_3 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc : ¬cond0_0 i)
    (x0 x1 : Vec F S1024x761 .f32) (xo2 xo3 : Vec F S1x11x750 .f32) (xo4 : Vec F S1x1x1 .f32) :
    out0_B_3 c i arg2 harg2 arg3 harg3 arg4 harg4 arg5 harg5 arg6 harg6 hc x0 x1 xo2 xo3 xo4 = k0_pay1 (k0_pay29 (mid x1) (absPiece (mid x1) (bks x1 0)) (absPiece (mid x1) (bks x1 1)) (absPiece (mid x1) (bks x1 2)) (absPiece (mid x1) (bks x1 3)) (absPiece (mid x1) (bks x1 4)) (absPiece (mid x1) (bks x1 5)) (absPiece (mid x1) (bks x1 6)) (absPiece (mid x1) (bks x1 7)) (absPiece (mid x1) (bks x1 8)) (bks x1 9) (bks x1 10) xo3) := by
  unfold out0_B_3
  rw [View.read_writes_eq_canon _ _ _ (cover0_B_3 c i arg2 harg2 arg3 harg3 arg4 harg4 arg5 harg5 arg6 harg6 hc x0 x1 xo2 xo3 xo4)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S1x11x750) hz3]
  rfl

theorem out_B_4 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc : ¬cond0_0 i)
    (x0 x1 : Vec F S1024x761 .f32) (xo2 xo3 : Vec F S1x11x750 .f32) (xo4 : Vec F S1x1x1 .f32) :
    out0_B_4 c i arg2 harg2 arg3 harg3 arg4 harg4 arg5 harg5 arg6 harg6 hc x0 x1 xo2 xo3 xo4 = k0_pay2 (mid x0) (mid x1) xo4 := by
  unfold out0_B_4
  rw [View.read_writes_eq_canon _ _ _ (cover0_B_4 c i arg2 harg2 arg3 harg3 arg4 harg4 arg5 harg5 arg6 harg6 hc x0 x1 xo2 xo3 xo4)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S1x1x1) hz3]
  rfl

theorem out_A_2 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc : cond0_0 i)
    (x0 x1 : Vec F S1024x761 .f32) :
    out0_A_2 c i arg2 harg2 arg3 harg3 arg4 harg4 arg5 harg5 arg6 harg6 hc x0 x1 = k0_pay28 (mid x0) (sqPiece (mid x0) (bks x0 0)) (sqPiece (mid x0) (bks x0 1)) (sqPiece (mid x0) (bks x0 2)) (sqPiece (mid x0) (bks x0 3)) (sqPiece (mid x0) (bks x0 4)) (sqPiece (mid x0) (bks x0 5)) (sqPiece (mid x0) (bks x0 6)) (sqPiece (mid x0) (bks x0 7)) (sqPiece (mid x0) (bks x0 8)) (bks x0 9) (bks x0 10) (k0_pay3 (F := F)) := by
  unfold out0_A_2
  rw [View.read_writes_eq_canon _ _ _ (cover0_A_2 c i arg2 harg2 arg3 harg3 arg4 harg4 arg5 harg5 arg6 harg6 hc x0 x1)]
  unfold kernelRun0_A
  dsimp only
  sl_unfold_words
  rw [View.canon_cons_unit_zero (S := S1x11x750) hz3, View.readCov_unit_zero (S := S1x11x750) _ hz3]
  simp only [View.readAt_eq_ld, harg2.read_unread, harg3.read_unread, harg4.read_unread, harg5.read_unread, harg6.read_unread]
  rfl

theorem out_A_3 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc : cond0_0 i)
    (x0 x1 : Vec F S1024x761 .f32) :
    out0_A_3 c i arg2 harg2 arg3 harg3 arg4 harg4 arg5 harg5 arg6 harg6 hc x0 x1 = k0_pay1 (k0_pay29 (mid x1) (absPiece (mid x1) (bks x1 0)) (absPiece (mid x1) (bks x1 1)) (absPiece (mid x1) (bks x1 2)) (absPiece (mid x1) (bks x1 3)) (absPiece (mid x1) (bks x1 4)) (absPiece (mid x1) (bks x1 5)) (absPiece (mid x1) (bks x1 6)) (absPiece (mid x1) (bks x1 7)) (absPiece (mid x1) (bks x1 8)) (bks x1 9) (bks x1 10) (k0_pay4 (F := F))) := by
  unfold out0_A_3
  rw [View.read_writes_eq_canon _ _ _ (cover0_A_3 c i arg2 harg2 arg3 harg3 arg4 harg4 arg5 harg5 arg6 harg6 hc x0 x1)]
  unfold kernelRun0_A
  dsimp only
  sl_unfold_words
  rw [View.canon_cons_unit_zero (S := S1x11x750) hz3, View.readCov_unit_zero (S := S1x11x750) _ hz3]
  simp only [View.readAt_eq_ld, harg2.read_unread, harg3.read_unread, harg4.read_unread, harg5.read_unread, harg6.read_unread]
  rfl

theorem out_A_4 (c : Dev nD) (i : grid0.Coords) (arg2 : Memref sig .tc .vmem S1024x761 .f32) (harg2 : arg2.IsWhole) (arg3 : Memref sig .tc .vmem S1024x761 .f32) (harg3 : arg3.IsWhole) (arg4 : Memref sig .tc .vmem S1x11x750 .f32) (harg4 : arg4.IsWhole) (arg5 : Memref sig .tc .vmem S1x11x750 .f32) (harg5 : arg5.IsWhole) (arg6 : Memref sig .tc .vmem S1x1x1 .f32) (harg6 : arg6.IsWhole) (hc : cond0_0 i)
    (x0 x1 : Vec F S1024x761 .f32) :
    out0_A_4 c i arg2 harg2 arg3 harg3 arg4 harg4 arg5 harg5 arg6 harg6 hc x0 x1 = k0_pay2 (mid x0) (mid x1) (k0_pay5 (F := F)) := by
  unfold out0_A_4
  rw [View.read_writes_eq_canon _ _ _ (cover0_A_4 c i arg2 harg2 arg3 harg3 arg4 harg4 arg5 harg5 arg6 harg6 hc x0 x1)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, harg6.read_unread]
  rfl

end Cert.KernelIdeal.Val

end
-- ==== Proof.LibRectLoad.lean ====
/-
  A load through a rectangle of a matrix.

  A unit-stride rectangle of an `[n0, n1]` array with offsets `(o0, o1)` and extents `[b0, b1]` names the entries
  `(o0 + k, o1 + q)` for `k < b0`, `q < b1`. Loading the array through it gives the `[b0, b1]` array whose entry at
  `(k, q)` is the array's entry at `(o0 + k, o1 + q)`: a slice of a weight matrix read off its buffer.
-/
import Idealize.ShloMosaic.Lib.Pipeline.FrameBody
import Idealize.ShloMosaic.Lib.ValueIdx

namespace Cert.LibRectLoad

open Idealize.ShloMosaic Idealize.ShloMosaic.ValueIdx

/-- A load through a unit-stride rectangle of a rank-two array reads, at `(k, q)`, the array at the rectangle's offsets
    plus `(k, q)`. -/
theorem ld2_apply {F : FTy → Type} {n0 n1 b0 b1 : ℕ} {e : EltTy} (X : Vec F ⟨2, ![n0, n1]⟩ e) (o0 o1 : ℕ)
    (inb : ∀ a, ![o0, o1] a + (⟨2, ![b0, b1]⟩ : Shape).size a ≤ (⟨2, ![n0, n1]⟩ : Shape).size a)
    (k : Fin b0) (q : Fin b1) (h0 : o0 + k.val < n0) (h1 : o1 + q.val < n1) :
    View.ld X (Rect.unit (s := ⟨2, ![n0, n1]⟩) ![o0, o1] (⟨2, ![b0, b1]⟩ : Shape).size inb) (ix2 k q)
      = X (ix2 ⟨o0 + k.val, h0⟩ ⟨o1 + q.val, h1⟩) := by
  show X ((Rect.unit (s := ⟨2, ![n0, n1]⟩) ![o0, o1] (⟨2, ![b0, b1]⟩ : Shape).size inb).idx (ix2 k q)) = _
  refine congrArg X (funext fun a => Fin.ext ?_)
  match a with
  | ⟨0, _⟩ => show o0 + 1 * k.val = o0 + k.val; omega
  | ⟨1, _⟩ => show o1 + 1 * q.val = o1 + q.val; omega

end Cert.LibRectLoad
-- ==== Proof.KIPoint.lean ====
/-
  The three accumulators after an odd grid point, read at an entry on the extended reals in terms of the entries of the
  two input blocks of the core's two points. An input block's load of the columns k … k + 749 reads, at (r, q), the block
  at (r, k + q); so row j of the squared update at column q is the sum over the block's rows r of
  (x (r, 6 + q) - x (r, j + q))^2, likewise the absolute update, and the residual update is the sum over r and q of
  (x0 (r, 6 + q) - x1 (r, 6 + q))^2. The even point stores zeros first, so it leaves 0 + its update; the odd point adds
  its own update to that.
-/
import proofs.«172264_j3959959847206_2_alg».proof.Proof.KIOuts
import proofs.«172264_j3959959847206_2_alg».proof.Proof.LibRectLoad

noncomputable section

namespace Cert.KernelIdeal.Val

open Cert.KernelIdeal Cert.KernelIdeal.Gen
open Idealize.ShloMosaic Idealize.ShloMosaic.ValueIdx Idealize.ShloMosaic.TcCoe Idealize.SL.Sem
open Cert.WindowLoss

open Cert.KernelIdeal.Fr

set_option maxRecDepth 16384

/-- A load of the columns k … k + 749 of an input block, at (r, q). -/
theorem cols_apply (x : Vec Ideal S1024x761 .f32) (k : ℕ) (h : ∀ a, (![0, k] : Fin 2 → Nat) a + S1024x750.size a ≤ S1024x761.size a)
    (hk : k + 750 ≤ 761) (r : Fin 1024) (q : Fin 750) :
    cols x k h (ix2 r q) = x (ix2 r (⟨k + q.val, by omega⟩ : Fin 761)) :=
  (Cert.LibRectLoad.ld2_apply (n0 := 1024) (n1 := 761) (b0 := 1024) (b1 := 750) x 0 k h r q (by omega) (by omega)).trans
    (congrArg x (congrArg (fun a : Fin 1024 => ix2 a (⟨k + q.val, by omega⟩ : Fin 761)) (Fin.ext (Nat.zero_add _))))

theorem mid_apply (x : Vec Ideal S1024x761 .f32) (r : Fin 1024) (q : Fin 750) :
    mid x (ix2 r q) = x (ix2 r (⟨6 + q.val, by omega⟩ : Fin 761)) := by
  show shapeCast S1024x750 (cols x 6 inb_S1024x761_S1024x750_0_6) shapeCasts_S1024x750_S1024x750 (ix2 r q) = _
  rw [shapeCast_self]
  exact cols_apply x 6 _ (by omega) r q

theorem bks_apply (x : Vec Ideal S1024x761 .f32) (j : Fin 11) (r : Fin 1024) (q : Fin 750) :
    bks x j (ix2 r q) = x (ix2 r (⟨j.val + q.val, by omega⟩ : Fin 761)) := by
  fin_cases j
  · exact cols_apply x 0 _ (by omega) r q
  · exact cols_apply x 1 _ (by omega) r q
  · exact cols_apply x 2 _ (by omega) r q
  · exact cols_apply x 3 _ (by omega) r q
  · exact cols_apply x 4 _ (by omega) r q
  · exact cols_apply x 5 _ (by omega) r q
  · exact cols_apply x 6 _ (by omega) r q
  · exact cols_apply x 7 _ (by omega) r q
  · exact cols_apply x 8 _ (by omega) r q
  · exact cols_apply x 9 _ (by omega) r q
  · exact cols_apply x 10 _ (by omega) r q

/-- Row j of a block's squared update at column q. -/
def blockSq (x : Vec Ideal S1024x761 .f32) (j : Fin 11) (q : Fin 750) : EReal :=
  ∑ r : Fin 1024, (x (ix2 r (⟨6 + q.val, by omega⟩ : Fin 761)) - x (ix2 r (⟨j.val + q.val, by omega⟩ : Fin 761)))
    * (x (ix2 r (⟨6 + q.val, by omega⟩ : Fin 761)) - x (ix2 r (⟨j.val + q.val, by omega⟩ : Fin 761)))
/-- Row j of a block's absolute update at column q. -/
def blockAbs (x : Vec Ideal S1024x761 .f32) (j : Fin 11) (q : Fin 750) : EReal :=
  ∑ r : Fin 1024, absE (x (ix2 r (⟨6 + q.val, by omega⟩ : Fin 761)) - x (ix2 r (⟨j.val + q.val, by omega⟩ : Fin 761)))
/-- A pair of blocks' residual update. -/
def blockRes (x0 x1 : Vec Ideal S1024x761 .f32) : EReal :=
  ∑ r : Fin 1024, ∑ q : Fin 750, (x0 (ix2 r (⟨6 + q.val, by omega⟩ : Fin 761)) - x1 (ix2 r (⟨6 + q.val, by omega⟩ : Fin 761)))
    * (x0 (ix2 r (⟨6 + q.val, by omega⟩ : Fin 761)) - x1 (ix2 r (⟨6 + q.val, by omega⟩ : Fin 761)))

theorem upd2 (x : Vec Ideal S1024x761 .f32) (acc : Vec Ideal S1x11x750 .f32) (j : Fin 11) (q : Fin 750) :
    k0_pay28 (F := Ideal) (mid x) (sqPiece (mid x) (bks x 0)) (sqPiece (mid x) (bks x 1)) (sqPiece (mid x) (bks x 2)) (sqPiece (mid x) (bks x 3)) (sqPiece (mid x) (bks x 4)) (sqPiece (mid x) (bks x 5)) (sqPiece (mid x) (bks x 6)) (sqPiece (mid x) (bks x 7)) (sqPiece (mid x) (bks x 8)) (bks x 9) (bks x 10) acc (ix3 (0 : Fin 1) j q)
      = acc (ix3 (0 : Fin 1) j q) + blockSq x j q := by
  refine (pay28_apply (mid x) (bks x) acc j q).trans ?_
  unfold blockSq
  simp only [mid_apply, bks_apply]

theorem upd3 (x : Vec Ideal S1024x761 .f32) (acc : Vec Ideal S1x11x750 .f32) (j : Fin 11) (q : Fin 750) :
    k0_pay1 (F := Ideal) (k0_pay29 (F := Ideal) (mid x) (absPiece (mid x) (bks x 0)) (absPiece (mid x) (bks x 1)) (absPiece (mid x) (bks x 2)) (absPiece (mid x) (bks x 3)) (absPiece (mid x) (bks x 4)) (absPiece (mid x) (bks x 5)) (absPiece (mid x) (bks x 6)) (absPiece (mid x) (bks x 7)) (absPiece (mid x) (bks x 8)) (bks x 9) (bks x 10) acc) (ix3 (0 : Fin 1) j q)
      = acc (ix3 (0 : Fin 1) j q) + blockAbs x j q := by
  refine (pay29_apply (mid x) (bks x) acc j q).trans ?_
  unfold blockAbs
  simp only [mid_apply, bks_apply]

theorem upd4 (x0 x1 : Vec Ideal S1024x761 .f32) (acc : Vec Ideal S1x1x1 .f32) :
    k0_pay2 (F := Ideal) (mid x0) (mid x1) acc (ix3 (0 : Fin 1) (0 : Fin 1) (0 : Fin 1))
      = acc (ix3 (0 : Fin 1) (0 : Fin 1) (0 : Fin 1)) + blockRes x0 x1 := by
  refine (pay2_apply (mid x0) (mid x1) acc).trans ?_
  unfold blockRes
  simp only [mid_apply]

/-- The zero blocks the branch stores. -/
theorem pay3_apply (y : S1x11x750.Idx) : k0_pay3 (F := Ideal) y = 0 := by
  unfold k0_pay3
  show shapeCast S1x11x750 (broadcast S11x750 (Scalar.ofBits (F := Ideal) .f32 0x00000000#32)) _ y = 0
  unfold shapeCast broadcast
  exact Ideal.ofBits_zero_f32
theorem pay4_apply (y : S1x11x750.Idx) : k0_pay4 (F := Ideal) y = 0 := by
  unfold k0_pay4
  show shapeCast S1x11x750 (broadcast S11x750 (Scalar.ofBits (F := Ideal) .f32 0x00000000#32)) _ y = 0
  unfold shapeCast broadcast
  exact Ideal.ofBits_zero_f32
theorem pay5_apply (y : S1x1x1.Idx) : k0_pay5 (F := Ideal) y = 0 := by
  unfold k0_pay5
  show shapeCast S1x1x1 (broadcast S1x1 (Scalar.ofBits (F := Ideal) .f32 0x00000000#32)) _ y = 0
  unfold shapeCast broadcast
  exact Ideal.ofBits_zero_f32

variable (m : (ℓ : Loc nD τ sig) → Buf (Elt Ideal) ℓ)

/-- The point before an odd point. -/
abbrev prev (t : Fin cfg0.N) : Fin cfg0.N := ⟨t.val - 1, Nat.lt_of_le_of_lt (Nat.sub_le _ _) t.isLt⟩

theorem acc2_at (c : Dev nD) (t : Fin cfg0.N) (ht : t.val % 2 = 1) (j : Fin 11) (q : Fin 750) :
    (outsAt0 m c t.val t.isLt).1 (ix3 (0 : Fin 1) j q)
      = blockSq (iblk m c 0 (prev t)) j q + blockSq (iblk m c 0 t) j q := by
  have hB : ¬t.val % 2 = 0 := by omega
  have hA : (prev t).val % 2 = 0 := by show (t.val - 1) % 2 = 0; omega
  rw [outsAt0_B m c t hB]
  unfold outB
  dsimp only
  refine (congrFun (out_B_2 c (grid0.coords t) _ _ _ _ _ _ _ _ _ _ _ (iblk m c 0 t) (iblk m c 1 t) _ _ _) (ix3 (0 : Fin 1) j q)).trans ?_
  refine (upd2 (iblk m c 0 t) _ j q).trans ?_
  refine congrArg (· + _) ?_
  show (outsAt0 m c (prev t).val (prev t).isLt).1 (ix3 (0 : Fin 1) j q) = _
  rw [outsAt0_A m c (prev t) hA]
  unfold outA
  dsimp only
  refine (congrFun (out_A_2 c (grid0.coords (prev t)) _ _ _ _ _ _ _ _ _ _ _ (iblk m c 0 (prev t)) (iblk m c 1 (prev t))) (ix3 (0 : Fin 1) j q)).trans ?_
  refine (upd2 (iblk m c 0 (prev t)) _ j q).trans ?_
  rw [pay3_apply, zero_add]

theorem acc3_at (c : Dev nD) (t : Fin cfg0.N) (ht : t.val % 2 = 1) (j : Fin 11) (q : Fin 750) :
    (outsAt0 m c t.val t.isLt).2.1 (ix3 (0 : Fin 1) j q)
      = blockAbs (iblk m c 1 (prev t)) j q + blockAbs (iblk m c 1 t) j q := by
  have hB : ¬t.val % 2 = 0 := by omega
  have hA : (prev t).val % 2 = 0 := by show (t.val - 1) % 2 = 0; omega
  rw [outsAt0_B m c t hB]
  unfold outB
  dsimp only
  refine (congrFun (out_B_3 c (grid0.coords t) _ _ _ _ _ _ _ _ _ _ _ (iblk m c 0 t) (iblk m c 1 t) _ _ _) (ix3 (0 : Fin 1) j q)).trans ?_
  refine (upd3 (iblk m c 1 t) _ j q).trans ?_
  refine congrArg (· + _) ?_
  show (outsAt0 m c (prev t).val (prev t).isLt).2.1 (ix3 (0 : Fin 1) j q) = _
  rw [outsAt0_A m c (prev t) hA]
  unfold outA
  dsimp only
  refine (congrFun (out_A_3 c (grid0.coords (prev t)) _ _ _ _ _ _ _ _ _ _ _ (iblk m c 0 (prev t)) (iblk m c 1 (prev t))) (ix3 (0 : Fin 1) j q)).trans ?_
  refine (upd3 (iblk m c 1 (prev t)) _ j q).trans ?_
  rw [pay4_apply, zero_add]

theorem acc4_at (c : Dev nD) (t : Fin cfg0.N) (ht : t.val % 2 = 1) :
    (outsAt0 m c t.val t.isLt).2.2 (ix3 (0 : Fin 1) (0 : Fin 1) (0 : Fin 1))
      = blockRes (iblk m c 0 (prev t)) (iblk m c 1 (prev t)) + blockRes (iblk m c 0 t) (iblk m c 1 t) := by
  have hB : ¬t.val % 2 = 0 := by omega
  have hA : (prev t).val % 2 = 0 := by show (t.val - 1) % 2 = 0; omega
  rw [outsAt0_B m c t hB]
  unfold outB
  dsimp only
  refine (congrFun (out_B_4 c (grid0.coords t) _ _ _ _ _ _ _ _ _ _ _ (iblk m c 0 t) (iblk m c 1 t) _ _ _) (ix3 (0 : Fin 1) (0 : Fin 1) (0 : Fin 1))).trans ?_
  refine (upd4 (iblk m c 0 t) (iblk m c 1 t) _).trans ?_
  refine congrArg (· + _) ?_
  show (outsAt0 m c (prev t).val (prev t).isLt).2.2 (ix3 (0 : Fin 1) (0 : Fin 1) (0 : Fin 1)) = _
  rw [outsAt0_A m c (prev t) hA]
  unfold outA
  dsimp only
  refine (congrFun (out_A_4 c (grid0.coords (prev t)) _ _ _ _ _ _ _ _ _ _ _ (iblk m c 0 (prev t)) (iblk m c 1 (prev t))) (ix3 (0 : Fin 1) (0 : Fin 1) (0 : Fin 1))).trans ?_
  refine (upd4 (iblk m c 0 (prev t)) (iblk m c 1 (prev t)) _).trans ?_
  rw [pay5_apply, zero_add]

end Cert.KernelIdeal.Val

end
-- ==== Proof.PadRead.lean ====
/-
  The edge-padded copy of a [4096, 750] array, read at an index.

  Both programs build the padded [4096, 761] array from six layout operations: the slice of column 0 broadcast to
  six copies and reshaped to [4096, 6], the array itself, and the slice of column 749 broadcast to five copies and
  reshaped to [4096, 5], joined along axis 1. Column k of the result is column 0 for k < 6, column k - 6 for
  6 ≤ k < 756 and column 749 from there on: column min (k - 6) 749 in every case (padcol k).
  Everything is stated over the literal shapes and for any proofs of the operations' side conditions, so the lemma
  applies to the term either program leaves.
-/
import Idealize.ShloMosaic.Lib.Pipeline.Value
import proofs.«172264_j3959959847206_2_alg».proof.Proof.Spec

noncomputable section

namespace Cert.WindowLoss

open Idealize.ShloMosaic Idealize.ShloMosaic.ValueIdx

section PadRead
variable {α : Type}

/-- A column slice [4096, 1] at offset c, broadcast to n copies along a new last axis and reshaped to [4096, n],
    read at (b, q), is the array at (b, c). -/
theorem padPiece_apply (n c : Nat) (hc750 : c < 750) (x : (⟨2, ![4096, 750]⟩ : Shape).Idx → α)
    (hs : (⟨2, ![4096, 750]⟩ : Shape).Slices ![0, c] ⟨2, ![4096, 1]⟩)
    (hb : (⟨2, ![4096, 1]⟩ : Shape).BroadcastsInDim ⟨3, ![4096, 1, n]⟩ (![0, 1] : Fin 2 → Fin 3))
    (hc : (⟨3, ![4096, 1, n]⟩ : Shape).ShapeCasts ⟨2, ![4096, n]⟩) (b : Fin 4096) (q : Fin n) :
    shapeCast ⟨2, ![4096, n]⟩ (broadcastInDim ⟨3, ![4096, 1, n]⟩ ![0, 1] hb (extractStridedSlice ⟨2, ![4096, 1]⟩ ![0, c] x hs)) hc
        (ix2 b q)
      = x (ix2 b ⟨c, hc750⟩) := by
  refine (shapeCast_apply _ hc (ix2 b q) (ix3 b ⟨0, Nat.one_pos⟩ q) ?_).trans ?_
  · rw [Shape.rowMajor_val_three, Shape.rowMajor_val_two]
    show (b.val * 1 + 0) * n + q.val = b.val * n + q.val
    rw [Nat.mul_one, Nat.add_zero]
  refine (broadcastInDim_apply _ hb _ (ix3 b ⟨0, Nat.one_pos⟩ q) (ix2 b ⟨0, Nat.one_pos⟩) (fun a => match a with
    | ⟨0, _⟩ => by show b.val = if (4096 : Nat) = 1 then 0 else b.val; rw [if_neg (by decide)]
    | ⟨1, _⟩ => by show 0 = if (1 : Nat) = 1 then 0 else _; rw [if_pos rfl])).trans ?_
  exact extractStridedSlice_apply ![0, c] x hs (ix2 b ⟨0, Nat.one_pos⟩) (ix2 b ⟨c, hc750⟩) (fun a => match a with
    | ⟨0, _⟩ => by show b.val = 0 + b.val; omega
    | ⟨1, _⟩ => by show c = c + 0; omega)

/-- THE PADDED ARRAY READ AT (b, k): the array at (b, padcol k). -/
theorem pad_read (x : (⟨2, ![4096, 750]⟩ : Shape).Idx → α)
    (hs0 : (⟨2, ![4096, 750]⟩ : Shape).Slices ![0, 0] ⟨2, ![4096, 1]⟩)
    (hb6 : (⟨2, ![4096, 1]⟩ : Shape).BroadcastsInDim ⟨3, ![4096, 1, 6]⟩ (![0, 1] : Fin 2 → Fin 3))
    (hc6 : (⟨3, ![4096, 1, 6]⟩ : Shape).ShapeCasts ⟨2, ![4096, 6]⟩)
    (hs749 : (⟨2, ![4096, 750]⟩ : Shape).Slices ![0, 749] ⟨2, ![4096, 1]⟩)
    (hb5 : (⟨2, ![4096, 1]⟩ : Shape).BroadcastsInDim ⟨3, ![4096, 1, 5]⟩ (![0, 1] : Fin 2 → Fin 3))
    (hc5 : (⟨3, ![4096, 1, 5]⟩ : Shape).ShapeCasts ⟨2, ![4096, 5]⟩)
    (hcat : Shape.Concatenates [(⟨2, ![4096, 6]⟩ : Shape), ⟨2, ![4096, 750]⟩, ⟨2, ![4096, 5]⟩] ⟨2, ![4096, 761]⟩ 1)
    (b : Fin 4096) (k : Fin 761) :
    concatenate ⟨2, ![4096, 761]⟩ 1
        [⟨⟨2, ![4096, 6]⟩, shapeCast ⟨2, ![4096, 6]⟩ (broadcastInDim ⟨3, ![4096, 1, 6]⟩ ![0, 1] hb6
            (extractStridedSlice ⟨2, ![4096, 1]⟩ ![0, 0] x hs0)) hc6⟩,
         ⟨⟨2, ![4096, 750]⟩, x⟩,
         ⟨⟨2, ![4096, 5]⟩, shapeCast ⟨2, ![4096, 5]⟩ (broadcastInDim ⟨3, ![4096, 1, 5]⟩ ![0, 1] hb5
            (extractStridedSlice ⟨2, ![4096, 1]⟩ ![0, 749] x hs749)) hc5⟩] hcat (ix2 b k)
      = x (ix2 b (padcol k.val)) := by
  have hk := k.isLt
  by_cases h6 : k.val < 6
  · refine (concatenate_apply_piece (t := ⟨2, ![4096, 761]⟩) 1 [⟨⟨2, ![4096, 6]⟩, _⟩, ⟨⟨2, ![4096, 750]⟩, _⟩, ⟨⟨2, ![4096, 5]⟩, _⟩] hcat (ix2 b k) 0 (by show (0 : Nat) < 3; omega) _ _ rfl rfl 0 rfl (ix2 b ⟨k.val, h6⟩)
      (fun a => match a with
        | ⟨0, _⟩ => fun _ => rfl
        | ⟨1, _⟩ => fun h => absurd rfl h) (by show 0 + k.val = k.val; omega)).trans ?_
    refine (padPiece_apply 6 0 (by omega) x hs0 hb6 hc6 b ⟨k.val, h6⟩).trans ?_
    exact congrArg x (congrArg (ix2 b) (Fin.ext (by show 0 = min (k.val - 6) 749; omega)))
  by_cases h756 : k.val < 756
  · refine (concatenate_apply_piece (t := ⟨2, ![4096, 761]⟩) 1 [⟨⟨2, ![4096, 6]⟩, _⟩, ⟨⟨2, ![4096, 750]⟩, _⟩, ⟨⟨2, ![4096, 5]⟩, _⟩] hcat (ix2 b k) 1 (by show (1 : Nat) < 3; omega) _ _ rfl rfl 6 rfl (ix2 b ⟨k.val - 6, by omega⟩)
      (fun a => match a with
        | ⟨0, _⟩ => fun _ => rfl
        | ⟨1, _⟩ => fun h => absurd rfl h) (by show 6 + (k.val - 6) = k.val; omega)).trans ?_
    exact congrArg x (congrArg (ix2 b) (Fin.ext (by show k.val - 6 = min (k.val - 6) 749; omega)))
  · refine (concatenate_apply_piece (t := ⟨2, ![4096, 761]⟩) 1 [⟨⟨2, ![4096, 6]⟩, _⟩, ⟨⟨2, ![4096, 750]⟩, _⟩, ⟨⟨2, ![4096, 5]⟩, _⟩] hcat (ix2 b k) 2 (by show (2 : Nat) < 3; omega) _ _ rfl rfl 756 rfl (ix2 b ⟨k.val - 756, by omega⟩)
      (fun a => match a with
        | ⟨0, _⟩ => fun _ => rfl
        | ⟨1, _⟩ => fun h => absurd rfl h) (by show 756 + (k.val - 756) = k.val; omega)).trans ?_
    refine (padPiece_apply 5 749 (by omega) x hs749 hb5 hc5 b ⟨k.val - 756, by omega⟩).trans ?_
    exact congrArg x (congrArg (ix2 b) (Fin.ext (by show 749 = min (k.val - 6) 749; omega)))

end PadRead

end Cert.WindowLoss

end
-- ==== Proof.KIBlocks.lean ====
/-
  The two input windows' blocks, read at an index.

  Window 0 stages the edge-padded copy of the first argument array (a [4096, 761] array the padding operations
  compute before the region: columns 0 .. 5 repeat column 0 of the argument, columns 6 .. 755 are the argument, columns
  756 .. 760 repeat column 749), window 1 the padded copy of the second.  Both windows' block at grid point t has block
  index (2 * (first coordinate of t) + second coordinate of t, 0) = (t, 0) and block size [1024, 761], so element
  (r, k) of the block is the padded array at (1024 t + r, k): the argument array at row r of tile t, column padcol k.
-/
import proofs.«172264_j3959959847206_2_alg».proof.Proof.KIKit
import proofs.«172264_j3959959847206_2_alg».proof.Proof.PadRead
import proofs.«172264_j3959959847206_2_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem Cert.WindowLoss

variable (m : (ℓ : Loc nD τ sig) → Buf (Elt Ideal) ℓ)

/-- A three-operand operation's result, with each operand's contents at its own reference. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-! ## The padded arrays the region is entered with -/

/-- The first window's array as the region finds it, at (b, k): the first argument at (b, padcol k). -/
theorem v6_apply (c : Dev nD) (b : Fin 4096) (k : Fin 761) :
    (Fr.V m c main_v6 : S4096x761.Idx → EReal) (ix2 b k) = arr2 (m ((c : Thread nD τ).loc main_arg0)) b (padcol k.val) := by
  show StableHlo.after hostOps0 (fun b => m (c, b)) (Proc.devRef .tc main_v6) (ix2 b k) = _
  simp only [StableHlo.after_cons, StableHlo.after_nil]
  repeat (first
    | rw [nary3_result] | rw [StableHlo.unary_result] | rw [StableHlo.reshape_result]
    | (rw [StableHlo.unary_result_ne]; rotate_left; decide)
    | (rw [StableHlo.reshape_result_ne]; rotate_left; decide)
    | (rw [StableHlo.nary_result_ne]; rotate_left; decide))
  exact pad_read (α := EReal) (m (c, Proc.devRef .tc main_arg0) : S4096x750.Idx → EReal) Gen.slices_S4096x750_S4096x1_0_0 Gen.bcast_S4096x1_S4096x1x6_0_1
    Gen.shapeCasts_S4096x1x6_S4096x6 Gen.slices_S4096x750_S4096x1_0_749 Gen.bcast_S4096x1_S4096x1x5_0_1 Gen.shapeCasts_S4096x1x5_S4096x5
    Gen.concatenates_S4096x6_S4096x750_S4096x5_S4096x761_d1 b k

/-- The second window's array as the region finds it, at (b, k): the second argument at (b, padcol k). -/
theorem v13_apply (c : Dev nD) (b : Fin 4096) (k : Fin 761) :
    (Fr.V m c main_v13 : S4096x761.Idx → EReal) (ix2 b k) = arr2 (m ((c : Thread nD τ).loc main_arg1)) b (padcol k.val) := by
  show StableHlo.after hostOps0 (fun b => m (c, b)) (Proc.devRef .tc main_v13) (ix2 b k) = _
  simp only [StableHlo.after_cons, StableHlo.after_nil]
  repeat (first
    | rw [nary3_result] | rw [StableHlo.unary_result] | rw [StableHlo.reshape_result]
    | (rw [StableHlo.unary_result_ne]; rotate_left; decide)
    | (rw [StableHlo.reshape_result_ne]; rotate_left; decide)
    | (rw [StableHlo.nary_result_ne]; rotate_left; decide))
  exact pad_read (α := EReal) (m (c, Proc.devRef .tc main_arg1) : S4096x750.Idx → EReal) Gen.slices_S4096x750_S4096x1_0_0 Gen.bcast_S4096x1_S4096x1x6_0_1
    Gen.shapeCasts_S4096x1x6_S4096x6 Gen.slices_S4096x750_S4096x1_0_749 Gen.bcast_S4096x1_S4096x1x5_0_1 Gen.shapeCasts_S4096x1x5_S4096x5
    Gen.concatenates_S4096x6_S4096x750_S4096x5_S4096x761_d1 b k

/-! ## The blocks -/

/-- Both input windows' block index at point t is (t, 0). -/
theorem idx_facts0 : ∀ t : Fin cfg0.N, win0_0.index t (0 : Fin 2) = t.val ∧ win0_0.index t (1 : Fin 2) = 0 :=
  (by decide +kernel : ∀ t : Fin grid0.N, _)
theorem idx_facts1 : ∀ t : Fin cfg0.N, win0_1.index t (0 : Fin 2) = t.val ∧ win0_1.index t (1 : Fin 2) = 0 :=
  (by decide +kernel : ∀ t : Fin grid0.N, _)

/-- Element (r, k) of window 0's block at point t: the first argument at row r of tile t, column padcol k. -/
theorem iblk0_apply (c : Dev nD) (t : Fin cfg0.N) (r : Fin 1024) (k : Fin 761) :
    (Fr.iblk m c 0 t : Vec Ideal S1024x761 .f32) (ix2 r k)
      = arr2 (m ((c : Thread nD τ).loc main_arg0)) (row ⟨t.val, lt_of_lt_of_eq t.isLt N_0⟩ r) (padcol k.val) := by
  obtain ⟨e0, e1⟩ := idx_facts0 t
  unfold Fr.iblk
  rw [View.read_apply]
  show (Fr.V m c main_v6 : S4096x761.Idx → EReal) (((cfg0.win 0).blk t).view.emb (ix2 r k)) = _
  have hemb : (((cfg0.win 0).blk t).view.emb (ix2 r k) : S4096x761.Idx) = ix2 (row ⟨t.val, lt_of_lt_of_eq t.isLt N_0⟩ r) k := by
    funext a; apply Fin.ext
    match a with
    | ⟨0, _⟩ => show win0_0.index t (0 : Fin 2) * 1024 + 1 * r.val = 1024 * t.val + r.val; omega
    | ⟨1, _⟩ => show win0_0.index t (1 : Fin 2) * 761 + 1 * k.val = k.val; omega
  exact (congrArg (Fr.V m c main_v6 : S4096x761.Idx → EReal) hemb).trans (v6_apply m c _ k)

/-- Element (r, k) of window 1's block at point t: the second argument at row r of tile t, column padcol k. -/
theorem iblk1_apply (c : Dev nD) (t : Fin cfg0.N) (r : Fin 1024) (k : Fin 761) :
    (Fr.iblk m c 1 t : Vec Ideal S1024x761 .f32) (ix2 r k)
      = arr2 (m ((c : Thread nD τ).loc main_arg1)) (row ⟨t.val, lt_of_lt_of_eq t.isLt N_0⟩ r) (padcol k.val) := by
  obtain ⟨e0, e1⟩ := idx_facts1 t
  unfold Fr.iblk
  rw [View.read_apply]
  show (Fr.V m c main_v13 : S4096x761.Idx → EReal) (((cfg0.win 1).blk t).view.emb (ix2 r k)) = _
  have hemb : (((cfg0.win 1).blk t).view.emb (ix2 r k) : S4096x761.Idx) = ix2 (row ⟨t.val, lt_of_lt_of_eq t.isLt N_0⟩ r) k := by
    funext a; apply Fin.ext
    match a with
    | ⟨0, _⟩ => show win0_1.index t (0 : Fin 2) * 1024 + 1 * r.val = 1024 * t.val + r.val; omega
    | ⟨1, _⟩ => show win0_1.index t (1 : Fin 2) * 761 + 1 * k.val = k.val; omega
  exact (congrArg (Fr.V m c main_v13 : S4096x761.Idx → EReal) hemb).trans (v13_apply m c _ k)

end Cert.KernelIdeal.Val

end
-- ==== Proof.Consts.lean ====
/-
  The float constants the two programs spell, as the extended reals their words denote: -1/2, 2, 4096 and 1 are
  the reals of those names, and the word of 0.1 denotes some real (the nearest f32 to one tenth; its value is
  never needed, only that it is finite).
-/
import Idealize.ShloMosaic.PureOps.Ideal
import Idealize.ShloMosaic.PureOps.Ideal.Laws

noncomputable section

namespace Cert.WindowLoss

open Idealize.ShloMosaic

/-- The word of `-0.5` denotes the real -1/2. -/
theorem ofBits_neg_half : Ideal.ofBits .f32 0xBF000000#32 = ((-0.5 : ℝ) : EReal) := by
  simp [Ideal.ofBits, Ideal.ieee, -EReal.coe_mul, -EReal.coe_neg]; norm_num

/-- The word of `2.0` denotes the real 2. -/
theorem ofBits_two : Ideal.ofBits .f32 0x40000000#32 = ((2 : ℝ) : EReal) := by
  simp [Ideal.ofBits, Ideal.ieee, -EReal.coe_mul]; norm_num

/-- The word of `4096.0` denotes the real 4096. -/
theorem ofBits_4096 : Ideal.ofBits .f32 0x45800000#32 = ((4096 : ℝ) : EReal) := by
  simp [Ideal.ofBits, Ideal.ieee, -EReal.coe_mul]; norm_num

/-- The word of `1.0` denotes the real 1. -/
theorem ofBits_one : Ideal.ofBits .f32 0x3F800000#32 = ((1 : ℝ) : EReal) := by
  simp [Ideal.ofBits, Ideal.ieee, -EReal.coe_mul]; norm_num

/-- The word of `0.1` (exponent field 123, neither zero nor all ones) denotes a real number. -/
theorem tenth_real : ∃ r : ℝ, Ideal.ofBits .f32 0x3DCCCCCD#32 = (r : EReal) := by
  refine ⟨((1 : ℝ) * ((2 ^ 23 + 5033165 : ℕ) : ℝ) * (2 : ℝ) ^ ((123 : ℤ) - (2 ^ (8 - 1) - 1) - (23 : ℕ))), ?_⟩
  simp [Ideal.ofBits, Ideal.ieee, -EReal.coe_mul]

end Cert.WindowLoss

end
-- ==== Proof.LibSumIdx3.lean ====
/-
  A sum over a rank-3 index set, in any commutative monoid, is the iterated sum over its three coordinates
  (the rank-3 companion of the library's rank-2 `sum_idx2`), and with a middle axis of extent one the middle
  sum disappears.
-/
import Idealize.ShloMosaic.Lib.ValueIdx

noncomputable section

open scoped BigOperators

namespace Cert.SumIdx3

open Idealize.ShloMosaic Idealize.ShloMosaic.ValueIdx

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With a middle axis of extent one (a kept, "keepdims" axis) the sum runs over the outer and inner coordinates only. -/
theorem sum_idx3_unit {M : Type*} [AddCommMonoid M] {n0 n2 : Nat} (f : (⟨3, ![n0, 1, n2]⟩ : Shape).Idx → M) :
    ∑ i, f i = ∑ a : Fin n0, ∑ c : Fin n2, f (ix3 a 0 c) := by
  rw [sum_idx3]
  refine Finset.sum_congr rfl fun a _ => ?_
  rw [Fin.sum_univ_one]

end Cert.SumIdx3

end
-- ==== Proof.KITail.lean ====
/-
  The twenty-two host operations after the region, as one function of the three outputs' arrays, and that function
  read on the extended reals: the two [2,11,750] outputs are summed over their leading axis (the two cores), the
  squared sums are scaled by -1/2 and exponentiated, multiplied entry by entry with the absolute sums and summed over
  all (j, i), divided by 4096; the [2,1,1] output is summed, scaled by the word of 0.1 and divided by 4096; the two are
  added and multiplied by 1. Every zero initial value of a sum is the real 0 and drops out.
-/
import proofs.«172264_j3959959847206_2_alg».proof.Proof.Gen.KernelIdeal
import proofs.«172264_j3959959847206_2_alg».proof.Proof.Spec
import proofs.«172264_j3959959847206_2_alg».proof.Proof.Consts
import proofs.«172264_j3959959847206_2_alg».proof.Proof.LibSumIdx3
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen
open Idealize.ShloMosaic Idealize.ShloMosaic.ValueIdx Idealize.ShloMosaic.TcCoe Idealize.SL.Sem
open Cert.WindowLoss

/-- The reducing operations composed. -/
def tail {F : FTy → Type} [FloatOps F] (A2 A3 : FVec F S2x11x750 .f32) (A4 : FVec F S2x1x1 .f32) : FVec F S_ .f32 :=
  mulf (addf
      (Host.divf
        (Host.reduceAdd
          (mulf
            (Host.exp (mulf (Host.reduceAdd A2 (constant S_ .f32 0x00000000#32) reducesTo_S2x11x750_S11x750_d0 h_S_)
              (broadcastInDim S11x750 ![] bcast_S_S11x750 (constant S_ .f32 0xBF000000#32))))
            (Host.reduceAdd A3 (constant S_ .f32 0x00000000#32) reducesTo_S2x11x750_S11x750_d0 h_S_))
          (constant S_ .f32 0x00000000#32) reducesTo_S11x750_S_d0_1 h_S_)
        (constant S_ .f32 0x45800000#32))
      (Host.divf
        (mulf (constant S_ .f32 0x3DCCCCCD#32) (Host.reduceAdd A4 (constant S_ .f32 0x00000000#32) reducesTo_S2x1x1_S_d0_1_2 h_S_))
        (constant S_ .f32 0x45800000#32)))
    (constant S_ .f32 0x3F800000#32)

/-- A sum over the leading (core) axis of a [2,11,750] array from the zero word. -/
theorem sumCores (A : FVec Ideal S2x11x750 .f32) (j : Fin 11) (q : Fin 750) :
    Host.reduceAdd (F := Ideal) A (constant S_ .f32 0x00000000#32) reducesTo_S2x11x750_S11x750_d0 h_S_ (ix2 j q)
      = ∑ c : Fin 2, A (ix3 c j q) := by
  simp only [Host.reduceAdd, Ideal.hostReduceAdd_def]
  rw [Ideal.hostReduceAdd_single reducesTo_S2x11x750_S11x750_d0 (by decide)]
  show Ideal.ofBits .f32 0x00000000#32 + _ = _
  rw [Ideal.ofBits_zero_f32, zero_add]
  refine Finset.sum_congr rfl fun k _ => ?_
  exact congrArg A (funext fun a => Fin.ext (by match a with | ⟨0, _⟩ => rfl | ⟨1, _⟩ => rfl | ⟨2, _⟩ => rfl))

/-- A sum over every entry of an [11,750] array from the zero word. -/
theorem sumAll (B : FVec Ideal S11x750 .f32) (i : S_.Idx) :
    Host.reduceAdd (F := Ideal) B (constant S_ .f32 0x00000000#32) reducesTo_S11x750_S_d0_1 h_S_ i
      = ∑ j : Fin 11, ∑ q : Fin 750, B (ix2 j q) := by
  simp only [Host.reduceAdd, Ideal.hostReduceAdd_def]
  rw [Ideal.hostReduceAdd_total reducesTo_S11x750_S_d0_1 (fun b => b.elim0) B _ i]
  show Ideal.ofBits .f32 0x00000000#32 + _ = _
  rw [Ideal.ofBits_zero_f32, zero_add, sum_idx2]

/-- A sum over every entry of a [2,1,1] array from the zero word. -/
theorem sumRes (A : FVec Ideal S2x1x1 .f32) (i : S_.Idx) :
    Host.reduceAdd (F := Ideal) A (constant S_ .f32 0x00000000#32) reducesTo_S2x1x1_S_d0_1_2 h_S_ i
      = ∑ c : Fin 2, A (ix3 c 0 0) := by
  simp only [Host.reduceAdd, Ideal.hostReduceAdd_def]
  rw [Ideal.hostReduceAdd_total reducesTo_S2x1x1_S_d0_1_2 (fun b => b.elim0) A _ i]
  show Ideal.ofBits .f32 0x00000000#32 + _ = _
  rw [Ideal.ofBits_zero_f32, zero_add, Cert.SumIdx3.sum_idx3]
  refine Finset.sum_congr rfl fun c _ => ?_
  rw [Fin.sum_univ_one, Fin.sum_univ_one]

/-- The composed operations on the extended reals. -/
theorem tail_apply (A2 A3 : FVec Ideal S2x11x750 .f32) (A4 : FVec Ideal S2x1x1 .f32) (i : S_.Idx) :
    tail (F := Ideal) A2 A3 A4 i
      = (Ideal.div (∑ j : Fin 11, ∑ q : Fin 750,
            Ideal.exp ((∑ c : Fin 2, A2 (ix3 c j q)) * ((-0.5 : ℝ) : EReal)) * (∑ c : Fin 2, A3 (ix3 c j q))) ((4096 : ℝ) : EReal)
          + Ideal.div (tenth * ∑ c : Fin 2, A4 (ix3 c 0 0)) ((4096 : ℝ) : EReal)) * ((1 : ℝ) : EReal) := by
  unfold tail
  show FloatOps.mulf (FloatOps.addf (FloatOps.hostDivf (Host.reduceAdd (F := Ideal) _ _ reducesTo_S11x750_S_d0_1 h_S_ i) (Ideal.ofBits .f32 0x45800000#32))
      (FloatOps.hostDivf (FloatOps.mulf (Ideal.ofBits .f32 0x3DCCCCCD#32) (Host.reduceAdd (F := Ideal) A4 _ reducesTo_S2x1x1_S_d0_1_2 h_S_ i)) (Ideal.ofBits .f32 0x45800000#32)))
    (Ideal.ofBits .f32 0x3F800000#32) = _
  rw [sumAll, sumRes]
  simp only [Ideal.mulf_def, Ideal.addf_def, Ideal.hostDivf_def, ofBits_4096, ofBits_one]
  refine congrArg (· * _) (congrArg (· + _) (congrArg (Ideal.div · _) ?_))
  refine Finset.sum_congr rfl fun j _ => Finset.sum_congr rfl fun q _ => ?_
  show FloatOps.mulf (FloatOps.hostUnary .exp (FloatOps.mulf (Host.reduceAdd (F := Ideal) A2 _ reducesTo_S2x11x750_S11x750_d0 h_S_ (ix2 j q)) (Ideal.ofBits .f32 0xBF000000#32)))
      (Host.reduceAdd (F := Ideal) A3 _ reducesTo_S2x11x750_S11x750_d0 h_S_ (ix2 j q)) = _
  rw [sumCores, sumCores]
  simp only [Ideal.mulf_def, Ideal.hostUnary_exp_def, ofBits_neg_half]

end Cert.KernelIdeal.Val

end
-- ==== Proof.KIFinal.lean ====
/-
  The three output arrays after the region, and the loss the program returns. A core's block of an output is written
  back once, after the core's odd point, holding the sum of the core's two tiles' updates; the two blocks tile the
  array, so the array after the run is, entry by entry, the core sum of the specification (coreSq, coreAbs, coreRes) of
  the two argument arrays: an input block's entry (r, k) at point t is the edge-padded argument's entry in row
  1024 t + r, that is the argument's entry at column min (k - 6) 749. The twenty-two operations after the region then
  compute kernelLoss of the two arguments.
-/
import proofs.«172264_j3959959847206_2_alg».proof.Proof.KIPoint
import proofs.«172264_j3959959847206_2_alg».proof.Proof.KIBlocks
import proofs.«172264_j3959959847206_2_alg».proof.Proof.KITail
import Idealize.ShloMosaic.Lib.StableHlo.Run

noncomputable section

namespace Cert.KernelIdeal.Val

open Cert.KernelIdeal Cert.KernelIdeal.Gen
open Idealize.ShloMosaic Idealize.ShloMosaic.ValueIdx Idealize.ShloMosaic.TcCoe Idealize.SL.Sem
open Cert.WindowLoss

open Cert.KernelIdeal.Fr
open Idealize.ShloMosaic.Pipeline (Dat)

set_option maxRecDepth 16384

variable (m : (ℓ : Loc nD τ sig) → Buf (Elt Ideal) ℓ)

/-- The two argument arrays by row and column. -/
abbrev X0 (c : Dev nD) : Arr := arr2 (m ((c : Thread nD τ).loc main_arg0))
abbrev X1 (c : Dev nD) : Arr := arr2 (m ((c : Thread nD τ).loc main_arg1))

/-- A grid point as a tile number. -/
abbrev tl (t : Fin cfg0.N) : Fin 4 := ⟨t.val, lt_of_lt_of_eq t.isLt N_0⟩

theorem padcol_mid (q : Fin 750) : padcol (6 + q.val) = q :=
  Fin.ext (by show min (6 + q.val - 6) 749 = q.val; have := q.isLt; omega)

theorem blockSq_eq (c : Dev nD) (t : Fin cfg0.N) (j : Fin 11) (q : Fin 750) :
    blockSq (iblk m c 0 t) j q = tileSq (X0 m c) (tl t) j q := by
  unfold blockSq tileSq
  refine Finset.sum_congr rfl fun r _ => ?_
  rw [iblk0_apply m c t r ⟨6 + q.val, by omega⟩, iblk0_apply m c t r ⟨j.val + q.val, by omega⟩]
  have e6 : padcol (6 + q.val) = q := padcol_mid q
  have ej : padcol (j.val + q.val) = padcol (q.val + j.val) := congrArg padcol (Nat.add_comm _ _)
  show (X0 m c (row (tl t) r) (padcol (6 + q.val)) - X0 m c (row (tl t) r) (padcol (j.val + q.val)))
      * (X0 m c (row (tl t) r) (padcol (6 + q.val)) - X0 m c (row (tl t) r) (padcol (j.val + q.val)))
    = (X0 m c (row (tl t) r) q - X0 m c (row (tl t) r) (padcol (q.val + j.val)))
      * (X0 m c (row (tl t) r) q - X0 m c (row (tl t) r) (padcol (q.val + j.val)))
  rw [e6, ej]

theorem blockAbs_eq (c : Dev nD) (t : Fin cfg0.N) (j : Fin 11) (q : Fin 750) :
    blockAbs (iblk m c 1 t) j q = tileAbs (X1 m c) (tl t) j q := by
  unfold blockAbs tileAbs
  refine Finset.sum_congr rfl fun r _ => ?_
  rw [iblk1_apply m c t r ⟨6 + q.val, by omega⟩, iblk1_apply m c t r ⟨j.val + q.val, by omega⟩]
  have e6 : padcol (6 + q.val) = q := padcol_mid q
  have ej : padcol (j.val + q.val) = padcol (q.val + j.val) := congrArg padcol (Nat.add_comm _ _)
  show absE (X1 m c (row (tl t) r) (padcol (6 + q.val)) - X1 m c (row (tl t) r) (padcol (j.val + q.val)))
    = absE (X1 m c (row (tl t) r) q - X1 m c (row (tl t) r) (padcol (q.val + j.val)))
  rw [e6, ej]

theorem blockRes_eq (c : Dev nD) (t : Fin cfg0.N) :
    blockRes (iblk m c 0 t) (iblk m c 1 t) = tileRes (X0 m c) (X1 m c) (tl t) := by
  unfold blockRes tileRes
  refine Finset.sum_congr rfl fun r _ => Finset.sum_congr rfl fun q _ => ?_
  rw [iblk0_apply m c t r ⟨6 + q.val, by omega⟩, iblk1_apply m c t r ⟨6 + q.val, by omega⟩]
  have e6 : padcol (6 + q.val) = q := padcol_mid q
  show (X0 m c (row (tl t) r) (padcol (6 + q.val)) - X1 m c (row (tl t) r) (padcol (6 + q.val)))
      * (X0 m c (row (tl t) r) (padcol (6 + q.val)) - X1 m c (row (tl t) r) (padcol (6 + q.val)))
    = (X0 m c (row (tl t) r) q - X1 m c (row (tl t) r) q) * (X0 m c (row (tl t) r) q - X1 m c (row (tl t) r) q)
  rw [e6]

theorem tl_prev (t : Fin cfg0.N) (ht : t.val % 2 = 1) (h2 : t.val / 2 < 2) : tl (prev t) = tile ⟨t.val / 2, h2⟩ 0 :=
  Fin.ext (by show t.val - 1 = 2 * (t.val / 2) + 0; omega)
theorem tl_self (t : Fin cfg0.N) (ht : t.val % 2 = 1) (h2 : t.val / 2 < 2) : tl t = tile ⟨t.val / 2, h2⟩ 1 :=
  Fin.ext (by show t.val = 2 * (t.val / 2) + 1; omega)

theorem half_lt (t : Fin cfg0.N) : t.val / 2 < 2 := by
  have : t.val < 4 := lt_of_lt_of_eq t.isLt N_0
  omega

/-- After an odd point the accumulators hold the core sums. -/
theorem core2_at (c : Dev nD) (t : Fin cfg0.N) (ht : t.val % 2 = 1) (j : Fin 11) (q : Fin 750) :
    (outsAt0 m c t.val t.isLt).1 (ix3 (0 : Fin 1) j q) = coreSq (X0 m c) ⟨t.val / 2, half_lt t⟩ j q := by
  rw [acc2_at m c t ht j q, blockSq_eq, blockSq_eq, tl_prev t ht (half_lt t), tl_self t ht (half_lt t)]
  rfl
theorem core3_at (c : Dev nD) (t : Fin cfg0.N) (ht : t.val % 2 = 1) (j : Fin 11) (q : Fin 750) :
    (outsAt0 m c t.val t.isLt).2.1 (ix3 (0 : Fin 1) j q) = coreAbs (X1 m c) ⟨t.val / 2, half_lt t⟩ j q := by
  rw [acc3_at m c t ht j q, blockAbs_eq, blockAbs_eq, tl_prev t ht (half_lt t), tl_self t ht (half_lt t)]
  rfl
theorem core4_at (c : Dev nD) (t : Fin cfg0.N) (ht : t.val % 2 = 1) :
    (outsAt0 m c t.val t.isLt).2.2 (ix3 (0 : Fin 1) (0 : Fin 1) (0 : Fin 1)) = coreRes (X0 m c) (X1 m c) ⟨t.val / 2, half_lt t⟩ := by
  rw [acc4_at m c t ht, blockRes_eq, blockRes_eq, tl_prev t ht (half_lt t), tl_self t ht (half_lt t)]
  rfl

/-- The final arrays as functions of the arguments. -/
def G2 (X : Arr) : S2x11x750.Idx → EReal := fun y => coreSq X ⟨(y 0).val, (y 0).isLt⟩ ⟨(y 1).val, (y 1).isLt⟩ ⟨(y 2).val, (y 2).isLt⟩
def G3 (X : Arr) : S2x11x750.Idx → EReal := fun y => coreAbs X ⟨(y 0).val, (y 0).isLt⟩ ⟨(y 1).val, (y 1).isLt⟩ ⟨(y 2).val, (y 2).isLt⟩
def G4 (X Y : Arr) : S2x1x1.Idx → EReal := fun y => coreRes X Y ⟨(y 0).val, (y 0).isLt⟩

theorem idx_facts2 : ∀ t : Fin cfg0.N, win0_2.index t (0 : Fin 3) = t.val / 2 ∧ win0_2.index t (1 : Fin 3) = 0 ∧ win0_2.index t (2 : Fin 3) = 0 :=
  (by decide +kernel : ∀ t : Fin grid0.N, _)

/-- What an odd point writes back is its core's block of the final array. -/
theorem flushed2_eq (c : Dev nD) (t : Fin cfg0.N) (hf : (cfg0.win 2).flush t = true) :
    (dats m 0 c).flushed 2 t = ((cfg0.win 2).blk t).view.read (Elt Ideal) (G2 (X0 m c)) := by
  have ht : t.val % 2 = 1 := (flush0_2 t).mp hf
  have hN : t.val < 4 := lt_of_lt_of_eq t.isLt N_0
  obtain ⟨e0, e1, e2⟩ := idx_facts2 t
  show (cfg0.win 2).cut (grid0.coords t) ((dats m 0 c).after 2 t) = _
  rw [after0_2]
  funext y
  obtain ⟨u, j, q, rfl⟩ : ∃ (u : Fin 1) (j : Fin 11) (q : Fin 750), y = ix3 u j q := ⟨y 0, y 1, y 2, eq_ix3 y⟩
  obtain rfl : u = 0 := Subsingleton.elim _ _
  show (outsAt0 m c t.val t.isLt).1 (ix3 (0 : Fin 1) j q) = G2 (X0 m c) (((cfg0.win 2).blk t).view.emb (ix3 (0 : Fin 1) j q))
  rw [core2_at m c t ht j q]
  unfold G2
  have k0 : (⟨t.val / 2, by omega⟩ : Fin 2) = ⟨(((cfg0.win 2).blk t).view.emb (ix3 (0 : Fin 1) j q) 0).val, (((cfg0.win 2).blk t).view.emb (ix3 (0 : Fin 1) j q) 0).isLt⟩ :=
    Fin.ext (by show t.val / 2 = win0_2.index t (0 : Fin 3) * 1 + 1 * 0; rw [e0]; omega)
  have k1 : j = ⟨(((cfg0.win 2).blk t).view.emb (ix3 (0 : Fin 1) j q) 1).val, (((cfg0.win 2).blk t).view.emb (ix3 (0 : Fin 1) j q) 1).isLt⟩ :=
    Fin.ext (by show j.val = win0_2.index t (1 : Fin 3) * 11 + 1 * j.val; rw [e1]; omega)
  have k2 : q = ⟨(((cfg0.win 2).blk t).view.emb (ix3 (0 : Fin 1) j q) 2).val, (((cfg0.win 2).blk t).view.emb (ix3 (0 : Fin 1) j q) 2).isLt⟩ :=
    Fin.ext (by show q.val = win0_2.index t (2 : Fin 3) * 750 + 1 * q.val; rw [e2]; omega)
  exact (congrArg (fun a => coreSq _ a j q) k0).trans ((congrArg (fun a => coreSq _ _ a q) k1).trans (congrArg (fun a => coreSq _ _ _ a) k2))

theorem mem_blk2 (t : Fin cfg0.N) (i : S2x11x750.Idx) :
    i ∈ ((cfg0.win 2).blk t).view.set ↔ ∀ a : Fin 3, win0_2.index t a * S1x11x750.size a ≤ (i a).val ∧ (i a).val < win0_2.index t a * S1x11x750.size a + S1x11x750.size a := by
  show i ∈ ((View.whole main_v14_0).slice (win0_2.rect t)).set ↔ _
  rw [View.set_slice_whole, Rect.mem_set_unit]
  exact Iff.rfl

/-- Every entry of the array lies in the block its core's odd point writes back. -/
theorem cover2 (i : S2x11x750.Idx) : ∃ t : Fin cfg0.N, (cfg0.win 2).flush t = true ∧ i ∈ ((cfg0.win 2).blk t).view.set := by
  have h0 : (i 0).val < 2 := (i 0).isLt
  have h1 : (i 1).val < 11 := (i 1).isLt
  have h2 : (i 2).val < 750 := (i 2).isLt
  have hlt : 2 * (i 0).val + 1 < cfg0.N := by rw [show cfg0.N = 4 from N_0]; omega
  obtain ⟨e0, e1, e2⟩ := idx_facts2 ⟨2 * (i 0).val + 1, hlt⟩
  refine ⟨⟨2 * (i 0).val + 1, hlt⟩, (flush0_2 _).mpr (by show (2 * (i 0).val + 1) % 2 = 1; omega), ?_⟩
  rw [mem_blk2]
  intro a
  match a with
  | ⟨0, _⟩ => show win0_2.index ⟨2 * (i 0).val + 1, hlt⟩ (0 : Fin 3) * 1 ≤ (i 0).val ∧ (i 0).val < win0_2.index ⟨2 * (i 0).val + 1, hlt⟩ (0 : Fin 3) * 1 + 1; rw [e0]; show (2 * (i 0).val + 1) / 2 * 1 ≤ (i 0).val ∧ (i 0).val < (2 * (i 0).val + 1) / 2 * 1 + 1; omega
  | ⟨1, _⟩ => show win0_2.index ⟨2 * (i 0).val + 1, hlt⟩ (1 : Fin 3) * 11 ≤ (i 1).val ∧ (i 1).val < win0_2.index ⟨2 * (i 0).val + 1, hlt⟩ (1 : Fin 3) * 11 + 11; rw [e1]; omega
  | ⟨2, _⟩ => show win0_2.index ⟨2 * (i 0).val + 1, hlt⟩ (2 : Fin 3) * 750 ≤ (i 2).val ∧ (i 2).val < win0_2.index ⟨2 * (i 0).val + 1, hlt⟩ (2 : Fin 3) * 750 + 750; rw [e2]; omega

/-- The array after the run. -/
theorem final2 (c : Dev nD) : (dats m 0 c).arrAt 2 cfg0.N = G2 (X0 m c) :=
  (dats m 0 c).arrAt_eq_of_cover 2 (G2 (X0 m c)) (flushed2_eq m c) cover2

theorem idx_facts3 : ∀ t : Fin cfg0.N, win0_3.index t (0 : Fin 3) = t.val / 2 ∧ win0_3.index t (1 : Fin 3) = 0 ∧ win0_3.index t (2 : Fin 3) = 0 :=
  (by decide +kernel : ∀ t : Fin grid0.N, _)

/-- What an odd point writes back is its core's block of the final array. -/
theorem flushed3_eq (c : Dev nD) (t : Fin cfg0.N) (hf : (cfg0.win 3).flush t = true) :
    (dats m 0 c).flushed 3 t = ((cfg0.win 3).blk t).view.read (Elt Ideal) (G3 (X1 m c)) := by
  have ht : t.val % 2 = 1 := (flush0_3 t).mp hf
  have hN : t.val < 4 := lt_of_lt_of_eq t.isLt N_0
  obtain ⟨e0, e1, e2⟩ := idx_facts3 t
  show (cfg0.win 3).cut (grid0.coords t) ((dats m 0 c).after 3 t) = _
  rw [after0_3]
  funext y
  obtain ⟨u, j, q, rfl⟩ : ∃ (u : Fin 1) (j : Fin 11) (q : Fin 750), y = ix3 u j q := ⟨y 0, y 1, y 2, eq_ix3 y⟩
  obtain rfl : u = 0 := Subsingleton.elim _ _
  show (outsAt0 m c t.val t.isLt).2.1 (ix3 (0 : Fin 1) j q) = G3 (X1 m c) (((cfg0.win 3).blk t).view.emb (ix3 (0 : Fin 1) j q))
  rw [core3_at m c t ht j q]
  unfold G3
  have k0 : (⟨t.val / 2, by omega⟩ : Fin 2) = ⟨(((cfg0.win 3).blk t).view.emb (ix3 (0 : Fin 1) j q) 0).val, (((cfg0.win 3).blk t).view.emb (ix3 (0 : Fin 1) j q) 0).isLt⟩ :=
    Fin.ext (by show t.val / 2 = win0_3.index t (0 : Fin 3) * 1 + 1 * 0; rw [e0]; omega)
  have k1 : j = ⟨(((cfg0.win 3).blk t).view.emb (ix3 (0 : Fin 1) j q) 1).val, (((cfg0.win 3).blk t).view.emb (ix3 (0 : Fin 1) j q) 1).isLt⟩ :=
    Fin.ext (by show j.val = win0_3.index t (1 : Fin 3) * 11 + 1 * j.val; rw [e1]; omega)
  have k2 : q = ⟨(((cfg0.win 3).blk t).view.emb (ix3 (0 : Fin 1) j q) 2).val, (((cfg0.win 3).blk t).view.emb (ix3 (0 : Fin 1) j q) 2).isLt⟩ :=
    Fin.ext (by show q.val = win0_3.index t (2 : Fin 3) * 750 + 1 * q.val; rw [e2]; omega)
  exact (congrArg (fun a => coreAbs _ a j q) k0).trans ((congrArg (fun a => coreAbs _ _ a q) k1).trans (congrArg (fun a => coreAbs _ _ _ a) k2))

theorem mem_blk3 (t : Fin cfg0.N) (i : S2x11x750.Idx) :
    i ∈ ((cfg0.win 3).blk t).view.set ↔ ∀ a : Fin 3, win0_3.index t a * S1x11x750.size a ≤ (i a).val ∧ (i a).val < win0_3.index t a * S1x11x750.size a + S1x11x750.size a := by
  show i ∈ ((View.whole main_v14_1).slice (win0_3.rect t)).set ↔ _
  rw [View.set_slice_whole, Rect.mem_set_unit]
  exact Iff.rfl

/-- Every entry of the array lies in the block its core's odd point writes back. -/
theorem cover3 (i : S2x11x750.Idx) : ∃ t : Fin cfg0.N, (cfg0.win 3).flush t = true ∧ i ∈ ((cfg0.win 3).blk t).view.set := by
  have h0 : (i 0).val < 2 := (i 0).isLt
  have h1 : (i 1).val < 11 := (i 1).isLt
  have h2 : (i 2).val < 750 := (i 2).isLt
  have hlt : 2 * (i 0).val + 1 < cfg0.N := by rw [show cfg0.N = 4 from N_0]; omega
  obtain ⟨e0, e1, e2⟩ := idx_facts3 ⟨2 * (i 0).val + 1, hlt⟩
  refine ⟨⟨2 * (i 0).val + 1, hlt⟩, (flush0_3 _).mpr (by show (2 * (i 0).val + 1) % 2 = 1; omega), ?_⟩
  rw [mem_blk3]
  intro a
  match a with
  | ⟨0, _⟩ => show win0_3.index ⟨2 * (i 0).val + 1, hlt⟩ (0 : Fin 3) * 1 ≤ (i 0).val ∧ (i 0).val < win0_3.index ⟨2 * (i 0).val + 1, hlt⟩ (0 : Fin 3) * 1 + 1; rw [e0]; show (2 * (i 0).val + 1) / 2 * 1 ≤ (i 0).val ∧ (i 0).val < (2 * (i 0).val + 1) / 2 * 1 + 1; omega
  | ⟨1, _⟩ => show win0_3.index ⟨2 * (i 0).val + 1, hlt⟩ (1 : Fin 3) * 11 ≤ (i 1).val ∧ (i 1).val < win0_3.index ⟨2 * (i 0).val + 1, hlt⟩ (1 : Fin 3) * 11 + 11; rw [e1]; omega
  | ⟨2, _⟩ => show win0_3.index ⟨2 * (i 0).val + 1, hlt⟩ (2 : Fin 3) * 750 ≤ (i 2).val ∧ (i 2).val < win0_3.index ⟨2 * (i 0).val + 1, hlt⟩ (2 : Fin 3) * 750 + 750; rw [e2]; omega

/-- The array after the run. -/
theorem final3 (c : Dev nD) : (dats m 0 c).arrAt 3 cfg0.N = G3 (X1 m c) :=
  (dats m 0 c).arrAt_eq_of_cover 3 (G3 (X1 m c)) (flushed3_eq m c) cover3

theorem idx_facts4 : ∀ t : Fin cfg0.N, win0_4.index t (0 : Fin 3) = t.val / 2 ∧ win0_4.index t (1 : Fin 3) = 0 ∧ win0_4.index t (2 : Fin 3) = 0 :=
  (by decide +kernel : ∀ t : Fin grid0.N, _)

/-- What an odd point writes back is its core's block of the final array. -/
theorem flushed4_eq (c : Dev nD) (t : Fin cfg0.N) (hf : (cfg0.win 4).flush t = true) :
    (dats m 0 c).flushed 4 t = ((cfg0.win 4).blk t).view.read (Elt Ideal) (G4 (X0 m c) (X1 m c)) := by
  have ht : t.val % 2 = 1 := (flush0_4 t).mp hf
  have hN : t.val < 4 := lt_of_lt_of_eq t.isLt N_0
  obtain ⟨e0, e1, e2⟩ := idx_facts4 t
  show (cfg0.win 4).cut (grid0.coords t) ((dats m 0 c).after 4 t) = _
  rw [after0_4]
  funext y
  obtain ⟨u, j, q, rfl⟩ : ∃ (u : Fin 1) (j : Fin 1) (q : Fin 1), y = ix3 u j q := ⟨y 0, y 1, y 2, eq_ix3 y⟩
  obtain rfl : u = 0 := Subsingleton.elim _ _
  show (outsAt0 m c t.val t.isLt).2.2 (ix3 (0 : Fin 1) j q) = G4 (X0 m c) (X1 m c) (((cfg0.win 4).blk t).view.emb (ix3 (0 : Fin 1) j q))
  obtain rfl : j = 0 := Subsingleton.elim _ _
  obtain rfl : q = 0 := Subsingleton.elim _ _
  rw [core4_at m c t ht]
  unfold G4
  refine congrArg (coreRes _ _) (Fin.ext ?_)
  show t.val / 2 = win0_4.index t (0 : Fin 3) * 1 + 1 * 0
  rw [e0]; omega

theorem mem_blk4 (t : Fin cfg0.N) (i : S2x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v14_2).slice (win0_4.rect t)).set ↔ _
  rw [View.set_slice_whole, Rect.mem_set_unit]
  exact Iff.rfl

/-- Every entry of the array lies in the block its core's odd point writes back. -/
theorem cover4 (i : S2x1x1.Idx) : ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 1 := (i 2).isLt
  have hlt : 2 * (i 0).val + 1 < cfg0.N := by rw [show cfg0.N = 4 from N_0]; omega
  obtain ⟨e0, e1, e2⟩ := idx_facts4 ⟨2 * (i 0).val + 1, hlt⟩
  refine ⟨⟨2 * (i 0).val + 1, hlt⟩, (flush0_4 _).mpr (by show (2 * (i 0).val + 1) % 2 = 1; omega), ?_⟩
  rw [mem_blk4]
  intro a
  match a with
  | ⟨0, _⟩ => show win0_4.index ⟨2 * (i 0).val + 1, hlt⟩ (0 : Fin 3) * 1 ≤ (i 0).val ∧ (i 0).val < win0_4.index ⟨2 * (i 0).val + 1, hlt⟩ (0 : Fin 3) * 1 + 1; rw [e0]; show (2 * (i 0).val + 1) / 2 * 1 ≤ (i 0).val ∧ (i 0).val < (2 * (i 0).val + 1) / 2 * 1 + 1; omega
  | ⟨1, _⟩ => show win0_4.index ⟨2 * (i 0).val + 1, hlt⟩ (1 : Fin 3) * 1 ≤ (i 1).val ∧ (i 1).val < win0_4.index ⟨2 * (i 0).val + 1, hlt⟩ (1 : Fin 3) * 1 + 1; rw [e1]; omega
  | ⟨2, _⟩ => show win0_4.index ⟨2 * (i 0).val + 1, hlt⟩ (2 : Fin 3) * 1 ≤ (i 2).val ∧ (i 2).val < win0_4.index ⟨2 * (i 0).val + 1, hlt⟩ (2 : Fin 3) * 1 + 1; rw [e2]; omega

/-- The array after the run. -/
theorem final4 (c : Dev nD) : (dats m 0 c).arrAt 4 cfg0.N = G4 (X0 m c) (X1 m c) :=
  (dats m 0 c).arrAt_eq_of_cover 4 (G4 (X0 m c) (X1 m c)) (flushed4_eq m c) cover4

/-! ## The loss -/

set_option maxHeartbeats 4000000 in
/-- The reducing operations run over the final arrays. -/
theorem tail_eq (c : Dev nD) :
    Pipeline.afterTail₀ cfgs (dats m) 0 (V0 m) [hostOps1] c main_v27
      = tail (F := Ideal) ((dats m 0 c).arrAt 2 cfg0.N) ((dats m 0 c).arrAt 3 cfg0.N) ((dats m 0 c).arrAt 4 cfg0.N) := by
  unfold Pipeline.afterTail₀
  show StableHlo.after hostOps1 _ (Proc.devRef .tc main_v27) = _
  after_results
  rw [Pipeline.withArrays_arr spec0 launch0.win.arr_inj c _ _ 2, Pipeline.withArrays_arr spec0 launch0.win.arr_inj c _ _ 3,
    Pipeline.withArrays_arr spec0 launch0.win.arr_inj c _ _ 4]
  rfl

/-- The program's result is kernelLoss of its two arguments. -/
theorem kernel_value (c : Dev nD) :
    Pipeline.afterTail₀ cfgs (dats m) 0 (V0 m) [hostOps1] c main_v27 = fun _ => kernelLoss (X0 m c) (X1 m c) := by
  rw [tail_eq, final2, final3, final4]
  funext i
  rw [tail_apply]
  rfl

/-- The run of the idealized kernel's program: the result buffer ends at kernelLoss of the arguments, which end as launched. -/
theorem run (ρ : Dev nD → PrngReg) : θ_run defs (onTc (τ := τ) (main (F := Ideal))) ⟨m, fun _ => 0, ρ⟩ (fun r => ∀ c : Dev nD,
      r.2.mem ((c.tc : Thread nD τ).loc main_v27) = (fun _ => kernelLoss (X0 m c) (X1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (kernel_value m c), (h c).2⟩) (run_value m ρ)

end Cert.KernelIdeal.Val

end
-- ==== Proof.RefGather.lean ====
/-
  A gather of COLUMNS read at an index.

  The operand is a [4096, 761] array, the start indices a [750, 11, 1] integer array, the result [4096, 750, 11]:
  axis 0 of the result is the operand's whole axis 0 (the one offset axis, slice size 4096), axis 1 of the operand is
  collapsed (slice size 1) and is the one axis the start index names. Result element (b, i, j) is the operand at row b
  and at the column the start index at (i, j, 0) holds, read as a signed integer and clamped into [0, 760].
-/
import Idealize.ShloMosaic.Lib.ValueIdx

noncomputable section

namespace Cert.WindowLoss

open Idealize.ShloMosaic Idealize.ShloMosaic.ValueIdx

section GatherCols
variable {α : Type}

/-- The dimension numbers of the column gather, for any proof of their conditions. -/
abbrev colsDims (wf : GatherDims.WF ⟨2, ![4096, 761]⟩ ⟨3, ![750, 11, 1]⟩ ⟨3, ![4096, 750, 11]⟩ [0] [1] [] [1] [] 2 ![4096, 1]) :
    GatherDims ⟨2, ![4096, 761]⟩ ⟨3, ![750, 11, 1]⟩ ⟨3, ![4096, 750, 11]⟩ where
  offsetDims := [0]
  collapsedSliceDims := [1]
  operandBatchingDims := []
  startIndicesBatchingDims := []
  startIndexMap := [1]
  indexVectorDim := 2
  sliceSizes := ![4096, 1]
  wf := wf

/-- THE COLUMN GATHER READ AT (b, i, j): row b of the operand at the column the start index at (i, j, 0) names, read
    signed and clamped into [0, 760]. -/
theorem gather_cols_apply {w : Nat}
    (wf : GatherDims.WF ⟨2, ![4096, 761]⟩ ⟨3, ![750, 11, 1]⟩ ⟨3, ![4096, 750, 11]⟩ [0] [1] [] [1] [] 2 ![4096, 1])
    (x : (⟨2, ![4096, 761]⟩ : Shape).Idx → α) (idx : IVec ⟨3, ![750, 11, 1]⟩ w) (b : Fin 4096) (i : Fin 750) (j : Fin 11) :
    Host.gather (colsDims wf) x idx (ix3 b i j)
      = x (ix2 b ⟨min (idx (ix3 i j ⟨0, Nat.one_pos⟩)).toInt.toNat 760, by omega⟩) := by
  unfold Host.gather
  refine congrArg x (funext fun a => Fin.ext ?_)
  match a with
  | ⟨0, _⟩ =>
    show (colsDims wf).start (ix3 b i j) idx 0 + (colsDims wf).batchCoord (ix3 b i j) 0 + (colsDims wf).offCoord (ix3 b i j) 0 = b.val
    rw [GatherDims.batchCoord_eq_zero _ _ _ List.not_mem_nil]
    have hs : (colsDims wf).start (ix3 b i j) idx 0 = 0 := by
      unfold GatherDims.start
      rw [dif_neg (show (0 : Fin 2) ∉ ([1] : List (Fin 2)) by decide)]
    have ho : (colsDims wf).offCoord (ix3 b i j) 0 = b.val := by
      unfold GatherDims.offCoord
      rw [dif_pos ((GatherDims.mem_sKept _ _).mpr ⟨(show (0 : Fin 2) ∉ ([1] : List (Fin 2)) by decide), List.not_mem_nil⟩)]
      rfl
    rw [hs, ho]
    omega
  | ⟨1, _⟩ =>
    show (colsDims wf).start (ix3 b i j) idx 1 + (colsDims wf).batchCoord (ix3 b i j) 1 + (colsDims wf).offCoord (ix3 b i j) 1
      = min (idx (ix3 i j ⟨0, Nat.one_pos⟩)).toInt.toNat 760
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims wf).startIndexMap from List.mem_singleton.mpr rfl)]
    have hsi : (colsDims wf).siIdx (ix3 b i j) ⟨List.idxOf (1 : Fin 2) (colsDims wf).startIndexMap,
        List.idxOf_lt_length_iff.2 (List.mem_singleton.mpr rfl)⟩ = ix3 i j ⟨0, Nat.one_pos⟩ := by
      funext c; refine Fin.ext ?_
      match c with
      | ⟨0, _⟩ => rfl
      | ⟨1, _⟩ => rfl
      | ⟨2, _⟩ => rfl
    rw [hsi]
    rfl

end GatherCols

end Cert.WindowLoss

end
-- ==== Proof.RefWindow.lean ====
/-
  The reference's two window arrays, read at an index.

  The start indices of both gathers are the [750, 11] array i + j (two iotas broadcast and added), never negative
  and below 761, so the reference's wrap of a negative index ('select (idx < 0) (idx + 761) idx') keeps it and the
  gather's clamp into [0, 760] is the identity: the window array of x, read at (b, i, j), is the padded copy of x at
  (b, i + j), which is x at (b, padcol (i + j)).
-/
import proofs.«172264_j3959959847206_2_alg».proof.Proof.Gen.ReferenceIdeal.Read
import proofs.«172264_j3959959847206_2_alg».proof.Proof.Spec
import proofs.«172264_j3959959847206_2_alg».proof.Proof.PadRead
import proofs.«172264_j3959959847206_2_alg».proof.Proof.RefGather

noncomputable section

namespace Cert.WindowLoss.Ref

open Cert.ReferenceIdeal Cert.ReferenceIdeal.Gen Cert.ReferenceIdeal.Read Idealize.ShloMosaic Idealize.ShloMosaic.ValueIdx
open Cert.WindowLoss

variable {F : FTy → Type} [FloatOps F]

/-! ## Words -/

/-- A natural number below 761 printed as a 32-bit word is, read signed, itself. -/
theorem word_toInt (n : Nat) (h : n < 761) : (BitVec.ofNat 32 n).toInt = (n : Int) := by
  have hn : (BitVec.ofNat 32 n).toNat = n := by
    rw [BitVec.toNat_ofNat]
    exact Nat.mod_eq_of_lt (by show n < 4294967296; omega)
  rw [BitVec.toInt_eq_toNat_of_lt (by rw [hn]; show 2 * n < 4294967296; omega), hn]

theorem word_toNat (n : Nat) (h : n < 761) : (BitVec.ofNat 32 n).toInt.toNat = n := by
  rw [word_toInt n h]
  exact Int.toNat_natCast n

/-- Such a word is not negative, so the wrap of a negative index keeps it. -/
theorem word_select (n : Nat) (h : n < 761) :
    Scalar.select (IntOp.cmpi .slt (BitVec.ofNat 32 n) 0#32) (IntOp.addi (BitVec.ofNat 32 n) 761#32) (BitVec.ofNat 32 n)
      = BitVec.ofNat 32 n := by
  have hlt : (BitVec.ofNat 32 n).slt 0#32 = false := by
    unfold BitVec.slt
    rw [word_toInt n h, BitVec.toInt_zero]
    exact decide_eq_false (by omega)
  show Scalar.select (BitVec.ofBool ((BitVec.ofNat 32 n).slt 0#32)) _ _ = _
  rw [hlt]
  exact select_zero _ _

/-! ## The start indices -/

/-- The index array i + j. -/
theorem v20_apply (i : Fin 750) (j : Fin 11) : val_main_v20 (F := F) (ix2 i j) = BitVec.ofNat 32 (i.val + j.val) := by
  rw [val_main_v20_apply, val_main_v18_apply, val_main_v15_apply, val_main_v14_apply, val_main_v19_apply, val_main_v17_apply,
    val_main_v16_apply]
  show BitVec.ofNat 32 i.val + BitVec.ofNat 32 j.val = BitVec.ofNat 32 (i.val + j.val)
  exact (BitVec.ofNat_add i.val j.val).symm

/-- The first gather's start index at (i, j): the wrap keeps i + j. -/
theorem v25_apply (i : Fin 750) (j : Fin 11) : val_main_v25 (F := F) (ix2 i j) = BitVec.ofNat 32 (i.val + j.val) := by
  rw [val_main_v25_apply, val_main_v22_apply, val_main_v24_apply, v20_apply, val_main_v21_apply, val_main_c_apply,
    val_main_v23_apply, val_main_c_0_apply]
  exact word_select _ (by omega)

/-- The second gather's start index at (i, j). -/
theorem v32_apply (i : Fin 750) (j : Fin 11) : val_main_v32 (F := F) (ix2 i j) = BitVec.ofNat 32 (i.val + j.val) := by
  rw [val_main_v32_apply, val_main_v29_apply, val_main_v31_apply, v20_apply, val_main_v28_apply, val_main_c_1_apply,
    val_main_v30_apply, val_main_c_2_apply]
  exact word_select _ (by omega)

theorem v26_toNat (i : Fin 750) (j : Fin 11) :
    (val_main_v26 (F := F) (ix3 i j ⟨0, Nat.one_pos⟩)).toInt.toNat = i.val + j.val := by
  have hidx : idx_main_v26 (ix3 i j ⟨0, Nat.one_pos⟩) = ix2 i j :=
    funext fun a => match a with | ⟨0, _⟩ => rfl | ⟨1, _⟩ => rfl
  rw [val_main_v26_apply, hidx, v25_apply]
  exact word_toNat _ (by omega)

theorem v33_toNat (i : Fin 750) (j : Fin 11) :
    (val_main_v33 (F := F) (ix3 i j ⟨0, Nat.one_pos⟩)).toInt.toNat = i.val + j.val := by
  have hidx : idx_main_v33 (ix3 i j ⟨0, Nat.one_pos⟩) = ix2 i j :=
    funext fun a => match a with | ⟨0, _⟩ => rfl | ⟨1, _⟩ => rfl
  rw [val_main_v33_apply, hidx, v32_apply]
  exact word_toNat _ (by omega)

/-! ## The padded arrays -/

/-- The padded copy of the first argument at (b, k). -/
theorem v13_apply (x0 : (⟨S4096x750, .f32⟩ : BufTy).Contents (Elt F)) (b : Fin 4096) (k : Fin 761) :
    val_main_v13 (F := F) x0 (ix2 b k) = x0 (ix2 b (padcol k.val)) := by
  unfold val_main_v13 val_main_v9 val_main_v8 val_main_v7 val_main_v12 val_main_v11 val_main_v10
  exact pad_read x0 _ _ _ _ _ _ _ b k

/-- The padded copy of the second argument at (b, k). -/
theorem v6_apply (x1 : (⟨S4096x750, .f32⟩ : BufTy).Contents (Elt F)) (b : Fin 4096) (k : Fin 761) :
    val_main_v6 (F := F) x1 (ix2 b k) = x1 (ix2 b (padcol k.val)) := by
  unfold val_main_v6 val_main_v2 val_main_v1 val_main_v0 val_main_v5 val_main_v4 val_main_v3
  exact pad_read x1 _ _ _ _ _ _ _ b k

/-! ## The window arrays -/

/-- The first argument's window array at (b, i, j). -/
theorem v27_apply (x0 : (⟨S4096x750, .f32⟩ : BufTy).Contents (Elt F)) (b : Fin 4096) (i : Fin 750) (j : Fin 11) :
    val_main_v27 (F := F) x0 (ix3 b i j) = x0 (ix2 b (padcol (i.val + j.val))) := by
  unfold val_main_v27
  refine (gather_cols_apply _ (val_main_v13 (F := F) x0) (val_main_v26 (F := F)) b i j).trans ?_
  have hlt : i.val + j.val < 761 := by omega
  refine (congrArg (fun k => val_main_v13 (F := F) x0 (ix2 b k))
    (Fin.ext (show min (val_main_v26 (F := F) (ix3 i j ⟨0, Nat.one_pos⟩)).toInt.toNat 760 = i.val + j.val by
      rw [v26_toNat]; omega) : _ = (⟨i.val + j.val, hlt⟩ : Fin 761))).trans ?_
  exact v13_apply x0 b ⟨i.val + j.val, hlt⟩

/-- The second argument's window array at (b, i, j). -/
theorem v34_apply (x1 : (⟨S4096x750, .f32⟩ : BufTy).Contents (Elt F)) (b : Fin 4096) (i : Fin 750) (j : Fin 11) :
    val_main_v34 (F := F) x1 (ix3 b i j) = x1 (ix2 b (padcol (i.val + j.val))) := by
  unfold val_main_v34
  refine (gather_cols_apply _ (val_main_v6 (F := F) x1) (val_main_v33 (F := F)) b i j).trans ?_
  have hlt : i.val + j.val < 761 := by omega
  refine (congrArg (fun k => val_main_v6 (F := F) x1 (ix2 b k))
    (Fin.ext (show min (val_main_v33 (F := F) (ix3 i j ⟨0, Nat.one_pos⟩)).toInt.toNat 760 = i.val + j.val by
      rw [v33_toNat]; omega) : _ = (⟨i.val + j.val, hlt⟩ : Fin 761))).trans ?_
  exact v6_apply x1 b ⟨i.val + j.val, hlt⟩

end Cert.WindowLoss.Ref

end
-- ==== Proof.RefSums.lean ====
/-
  The reference's result, stage by stage, on the extended reals.

  With the two window arrays read (the padded copies at column i + j), every later stage of the reference is an
  elementwise operation or a sum read at an index: the squared differences summed over the rows and scaled
  (exp (-(sum) / 2)), the weighted absolute differences summed over the rows and divided by 4096, their sum over all
  (i, j); the rows' residuals scaled by the word of 0.1, summed and divided by 4096; the two added and multiplied by 1.
  A host sum is its initial value, the zero word, plus the sum, and the zero word is 0.
-/
import proofs.«172264_j3959959847206_2_alg».proof.Proof.RefWindow
import proofs.«172264_j3959959847206_2_alg».proof.Proof.Consts

noncomputable section

namespace Cert.WindowLoss.Ref

open Cert.ReferenceIdeal Cert.ReferenceIdeal.Gen Cert.ReferenceIdeal.Read Idealize.ShloMosaic Idealize.ShloMosaic.ValueIdx
open Cert.WindowLoss

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

abbrev X := (⟨S4096x750, .f32⟩ : BufTy).Contents (Elt Ideal)

/-! ## The weights -/

/-- The squared difference of column i and padded column i + j in row b. -/
theorem v38_apply (x0 : X) (b : Fin 4096) (i : Fin 750) (j : Fin 11) :
    val_main_v38 (F := Ideal) x0 (ix3 b i j)
      = (x0 (ix2 b i) - x0 (ix2 b (padcol (i.val + j.val)))) * (x0 (ix2 b i) - x0 (ix2 b (padcol (i.val + j.val)))) := by
  have hidx : idx_main_v35 (idx_main_v36 (ix3 b i j)) = ix2 b i :=
    funext fun a => match a with | ⟨0, _⟩ => rfl | ⟨1, _⟩ => rfl
  rw [val_main_v38_apply, val_main_v37_apply, val_main_v36_apply, val_main_v35_apply, v27_apply, hidx]
  rfl

/-- Their sum over the rows. -/
theorem v39_apply (x0 : X) (i : Fin 750) (j : Fin 11) :
    val_main_v39 (F := Ideal) x0 (ix2 i j) = refSq (arr2 x0) i j := by
  rw [val_main_v39_apply, val_main_cst_apply]
  show Ideal.ofBits .f32 0x00000000#32 + _ = _
  rw [Ideal.ofBits_zero_f32, zero_add]
  unfold refSq arr2
  refine Finset.sum_congr rfl fun k _ => ?_
  have hidx : idx_main_v39 (ix2 i j) k = ix3 k i j :=
    funext fun a => match a with | ⟨0, _⟩ => rfl | ⟨1, _⟩ => rfl | ⟨2, _⟩ => rfl
  rw [hidx, v38_apply]

/-- The weight of (i, j). -/
theorem v43_apply (x0 : X) (i : Fin 750) (j : Fin 11) :
    val_main_v43 (F := Ideal) x0 (ix2 i j) = Ideal.exp (Ideal.div (-(refSq (arr2 x0) i j)) ((2 : ℝ) : EReal)) := by
  rw [val_main_v43_apply, val_main_v42_apply, val_main_v40_apply, v39_apply, val_main_v41_apply, val_main_cst_3_apply]
  show Ideal.exp (Ideal.div (-(refSq (arr2 x0) i j)) (Ideal.ofBits .f32 0x40000000#32)) = _
  rw [ofBits_two]

/-! ## The weighted absolute differences -/

/-- One row's term. -/
theorem v50_apply (x0 x1 : X) (b : Fin 4096) (i : Fin 750) (j : Fin 11) :
    val_main_v50 (F := Ideal) x0 x1 (ix3 b i j)
      = Ideal.exp (Ideal.div (-(refSq (arr2 x0) i j)) ((2 : ℝ) : EReal))
          * absE (x1 (ix2 b i) - x1 (ix2 b (padcol (i.val + j.val)))) := by
  have h49 : idx_main_v44 (idx_main_v49 (ix3 b i j)) = ix2 i j :=
    funext fun a => match a with | ⟨0, _⟩ => rfl | ⟨1, _⟩ => rfl
  have h46 : idx_main_v45 (idx_main_v46 (ix3 b i j)) = ix2 b i :=
    funext fun a => match a with | ⟨0, _⟩ => rfl | ⟨1, _⟩ => rfl
  rw [val_main_v50_apply, val_main_v49_apply, val_main_v44_apply, h49, v43_apply, val_main_v48_apply, val_main_v47_apply,
    val_main_v46_apply, val_main_v45_apply, h46, v34_apply]
  rfl

/-- The rows' sum, divided by 4096. -/
theorem v53_apply (x0 x1 : X) (i : Fin 750) (j : Fin 11) :
    val_main_v53 (F := Ideal) x0 x1 (ix2 i j)
      = Ideal.div (∑ b : Fin 4096, Ideal.exp (Ideal.div (-(refSq (arr2 x0) i j)) ((2 : ℝ) : EReal))
          * absE (arr2 x1 b i - arr2 x1 b (padcol (i.val + j.val)))) ((4096 : ℝ) : EReal) := by
  rw [val_main_v53_apply, val_main_v51_apply, val_main_cst_4_apply, val_main_v52_apply, val_main_cst_5_apply]
  show Ideal.div (Ideal.ofBits .f32 0x00000000#32 + _) (Ideal.ofBits .f32 0x45800000#32) = _
  rw [Ideal.ofBits_zero_f32, zero_add, ofBits_4096]
  refine congrArg (Ideal.div · _) (Finset.sum_congr rfl fun k _ => ?_)
  have hidx : idx_main_v51 (ix2 i j) k = ix3 k i j :=
    funext fun a => match a with | ⟨0, _⟩ => rfl | ⟨1, _⟩ => rfl | ⟨2, _⟩ => rfl
  rw [hidx, v50_apply]
  rfl

/-- The sum over all (i, j). -/
theorem v54_apply (x0 x1 : X) (q : S_.Idx) :
    val_main_v54 (F := Ideal) x0 x1 q
      = ∑ i : Fin 750, ∑ j : Fin 11,
          Ideal.div (∑ b : Fin 4096, Ideal.exp (Ideal.div (-(refSq (arr2 x0) i j)) ((2 : ℝ) : EReal))
            * absE (arr2 x1 b i - arr2 x1 b (padcol (i.val + j.val)))) ((4096 : ℝ) : EReal) := by
  rw [val_main_v54_apply, val_main_cst_6_apply]
  show Ideal.ofBits .f32 0x00000000#32 + _ = _
  rw [Ideal.ofBits_zero_f32, zero_add]
  refine (sum_idx2 _).trans ?_
  exact Finset.sum_congr rfl fun i _ => Finset.sum_congr rfl fun j _ => v53_apply x0 x1 i j

/-! ## The residual -/

/-- One row's residual, scaled by the word of 0.1. -/
theorem v59_apply (x0 x1 : X) (b : Fin 4096) :
    val_main_v59 (F := Ideal) x0 x1 (ix1 b)
      = tenth * ∑ i : Fin 750, (arr2 x0 b i - arr2 x1 b i) * (arr2 x0 b i - arr2 x1 b i) := by
  rw [val_main_v59_apply, val_main_v58_apply, val_main_cst_8_apply, val_main_v57_apply, val_main_cst_7_apply]
  show Ideal.ofBits .f32 0x3DCCCCCD#32 * (Ideal.ofBits .f32 0x00000000#32 + _) = _
  rw [Ideal.ofBits_zero_f32, zero_add]
  refine congrArg (tenth * ·) (Finset.sum_congr rfl fun k _ => ?_)
  have hidx : idx_main_v57 (ix1 b) k = ix2 b k :=
    funext fun a => match a with | ⟨0, _⟩ => rfl | ⟨1, _⟩ => rfl
  rw [hidx, val_main_v56_apply, val_main_v55_apply]
  rfl

/-- The rows' sum, divided by 4096. -/
theorem v61_apply (x0 x1 : X) (q : S_.Idx) :
    val_main_v61 (F := Ideal) x0 x1 q
      = Ideal.div (∑ b : Fin 4096, tenth * ∑ i : Fin 750, (arr2 x0 b i - arr2 x1 b i) * (arr2 x0 b i - arr2 x1 b i))
          ((4096 : ℝ) : EReal) := by
  rw [val_main_v61_apply, val_main_v60_apply, val_main_cst_9_apply, val_main_cst_10_apply]
  show Ideal.div (Ideal.ofBits .f32 0x00000000#32 + _) (Ideal.ofBits .f32 0x45800000#32) = _
  rw [Ideal.ofBits_zero_f32, zero_add, ofBits_4096]
  refine congrArg (Ideal.div · _) ((sum_idx1 _).trans ?_)
  exact Finset.sum_congr rfl fun b _ => v59_apply x0 x1 b

/-! ## The result -/

/-- THE REFERENCE'S RESULT TERM is refLoss of the two argument arrays. -/
theorem result_eq (x0 x1 : X) : val_main_v63 (F := Ideal) x0 x1 = fun _ => refLoss (arr2 x0) (arr2 x1) := by
  funext q
  rw [val_main_v63_apply, val_main_v62_apply, v54_apply, v61_apply, val_main_cst_11_apply]
  show (_ + _) * Ideal.ofBits .f32 0x3F800000#32 = _
  rw [ofBits_one]
  rfl

end Cert.WindowLoss.Ref

end
-- ==== Proof.RefValue.lean ====
/-
  The reference's run ends with its result at refLoss of the two argument arrays.

  The run of the reference's host operations (generated) ends with the result buffer at the operations' composed term
  of the arguments; that term, read stage by stage on the extended reals, is refLoss.
-/
import proofs.«172264_j3959959847206_2_alg».proof.Proof.Gen.ReferenceIdeal.Run
import proofs.«172264_j3959959847206_2_alg».proof.Proof.Gen.ReferenceIdeal.Read
import proofs.«172264_j3959959847206_2_alg».proof.Proof.Spec
import proofs.«172264_j3959959847206_2_alg».proof.Proof.RefSums

noncomputable section

namespace Cert.WindowLoss.Ref

open Idealize.ShloMosaic Idealize.ShloMosaic.TcCoe Idealize.SL.Sem
open Cert.WindowLoss

/-- Every weakly fair execution of the reference terminates with its result buffer at refLoss of the argument arrays
    and the arguments unchanged. -/
theorem run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v63)
            = (fun _ => refLoss
                (arr2 (m' ((c.tc : Thread Cert.ReferenceIdeal.nD Cert.ReferenceIdeal.τ).loc Cert.ReferenceIdeal.main_arg0)))
                (arr2 (m' ((c.tc : Thread Cert.ReferenceIdeal.nD Cert.ReferenceIdeal.τ).loc Cert.ReferenceIdeal.main_arg1))))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans ((Cert.ReferenceIdeal.Read.val_main_v63_eq (F := Ideal) m' c).trans (result_eq _ _)), (h c).2⟩)
    (Cert.ReferenceIdeal.Value.run (F := Ideal) m' g')

end Cert.WindowLoss.Ref

end
-- ==== Proof.LibSumFinMul.lean ====
/-
  A sum over the positions of a row-major flattening of an m×n grid is the double sum over rows and columns.

  Position k of `Fin (m * n)` is `q + n * p` for exactly one row p and column q (Mathlib's `finProdFinEquiv`), so in any
  commutative additive monoid the sum over the positions is the iterated sum over p and q of the term at that position.
-/
import Mathlib.Algebra.BigOperators.Fin
import Mathlib.Logic.Equiv.Fin.Basic

open scoped BigOperators

namespace SumFinMul

/-- `∑ k : Fin (m * n), f k = ∑ p, ∑ q, f (q + n * p)`. -/
theorem sum_fin_mul {M : Type*} [AddCommMonoid M] (m n : ℕ) (f : Fin (m * n) → M) :
    ∑ k, f k = ∑ p : Fin m, ∑ q : Fin n, f (finProdFinEquiv (p, q)) := by
  rw [← Equiv.sum_comp finProdFinEquiv f, Fintype.sum_prod_type]

/-- The position of row p, column q. -/
theorem finProdFinEquiv_val {m n : ℕ} (p : Fin m) (q : Fin n) : (finProdFinEquiv (p, q)).val = q.val + n * p.val := rfl

end SumFinMul
-- ==== Proof.Rows.lean ====
/-
  The 4096 rows, cut into two cores of two tiles of 1024 rows.

  Row r of tile t is row 1024 t + r and tile s of core c is tile 2 c + s, so each of the 4096 rows is row r of tile s
  of core c for exactly one (c, s, r): a sum over all rows is the sum over the cores of the two tile sums.
-/
import Mathlib.Algebra.BigOperators.Fin
import proofs.«172264_j3959959847206_2_alg».proof.Proof.Spec
import proofs.«172264_j3959959847206_2_alg».proof.Proof.LibSumFinMul

noncomputable section

namespace Cert.WindowLoss

/-- Position r + 1024 t of the flattened 4 × 1024 grid is row r of tile t. -/
theorem finProd_eq_row (t : Fin 4) (r : Fin 1024) : (finProdFinEquiv (t, r) : Fin (4 * 1024)) = row t r :=
  Fin.ext (by rw [SumFinMul.finProdFinEquiv_val]; simp only [row]; omega)

/-- A sum over the 4096 rows is the sum over the four tiles of the sum over a tile's 1024 rows. -/
theorem sum_tiles {M : Type*} [AddCommMonoid M] (f : Fin 4096 → M) :
    ∑ b : Fin 4096, f b = ∑ t : Fin 4, ∑ r : Fin 1024, f (row t r) := by
  rw [SumFinMul.sum_fin_mul 4 1024 f]
  exact Finset.sum_congr rfl fun t _ => Finset.sum_congr rfl fun r _ => congrArg f (finProd_eq_row t r)

/-- The two cores' two tile sums add up to the sum over all 4096 rows. -/
theorem sum_rows {M : Type*} [AddCommMonoid M] (f : Fin 4096 → M) :
    ∑ c : Fin 2, (∑ r : Fin 1024, f (row (tile c 0) r) + ∑ r : Fin 1024, f (row (tile c 1) r)) = ∑ b : Fin 4096, f b := by
  rw [sum_tiles f, Fin.sum_univ_two, Fin.sum_univ_four]
  have h00 : tile 0 0 = 0 := rfl
  have h01 : tile 0 1 = 1 := rfl
  have h10 : tile 1 0 = 2 := rfl
  have h11 : tile 1 1 = 3 := rfl
  rw [h00, h01, h10, h11]
  exact (add_assoc _ _ _).symm

end Cert.WindowLoss

end
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.Coe.lean ====
/-
  Both arrangements of the loss on arrays of real numbers.

  The kernel's sums over cores and tiles are sums over all 4096 rows (for any entries, real or not).  When every entry
  of both arrays is a real number, every quantity in either arrangement is a real number, computed by the same formula
  over the reals: differences, products, absolute values and finite sums of reals are reals, the exponential of a real
  is the real exponential, and dividing by the real 2 or 4096 is multiplying by the real 1/2 or 1/4096.  So each loss
  is the coercion of a real expression (kernelLoss_coe, refLoss_coe).
-/
import proofs.«172264_j3959959847206_2_alg».proof.Proof.Spec
import proofs.«172264_j3959959847206_2_alg».proof.Proof.Rows
import proofs.«172264_j3959959847206_2_alg».proof.Proof.LibERealFinite

noncomputable section

namespace Cert.WindowLoss

open Idealize.ShloMosaic Cert.LibERealFinite

/-! ## The kernel's core and tile sums are sums over all rows -/

theorem sum_coreSq (x : Arr) (j : Fin 11) (i : Fin 750) : ∑ c : Fin 2, coreSq x c j i = refSq x i j :=
  sum_rows (fun b => (x b i - x b (padcol (i.val + j.val))) * (x b i - x b (padcol (i.val + j.val))))

theorem sum_coreAbs (x : Arr) (j : Fin 11) (i : Fin 750) :
    ∑ c : Fin 2, coreAbs x c j i = ∑ b : Fin 4096, absE (x b i - x b (padcol (i.val + j.val))) :=
  sum_rows (fun b => absE (x b i - x b (padcol (i.val + j.val))))

theorem sum_coreRes (x0 x1 : Arr) :
    ∑ c : Fin 2, coreRes x0 x1 c = ∑ b : Fin 4096, ∑ i : Fin 750, (x0 b i - x1 b i) * (x0 b i - x1 b i) :=
  sum_rows (fun b => ∑ i : Fin 750, (x0 b i - x1 b i) * (x0 b i - x1 b i))

/-! ## Arrays of reals -/

/-- A [4096, 750] array of reals. -/
abbrev ArrR := Fin 4096 → Fin 750 → ℝ

/-- A real array read as an array of extended reals. -/
def up (u : ArrR) : Arr := fun b i => (u b i : EReal)

/-- Row b's squared difference between column i and padded column i + j. -/
def dsq (u : ArrR) (i : Fin 750) (j : Fin 11) (b : Fin 4096) : ℝ :=
  (u b i - u b (padcol (i.val + j.val))) * (u b i - u b (padcol (i.val + j.val)))

/-- Row b's absolute difference between column i and padded column i + j. -/
def dab (u : ArrR) (i : Fin 750) (j : Fin 11) (b : Fin 4096) : ℝ := |u b i - u b (padcol (i.val + j.val))|

/-- Row b's squared distance between the two arrays. -/
def dres (u0 u1 : ArrR) (b : Fin 4096) : ℝ := ∑ i : Fin 750, (u0 b i - u1 b i) * (u0 b i - u1 b i)

/-- The sum over all rows of the squared differences. -/
def sumSq (u : ArrR) (i : Fin 750) (j : Fin 11) : ℝ := ∑ b : Fin 4096, dsq u i j b

/-- An array all of whose entries are reals is a real array read at the extended reals. -/
theorem exists_up (x : Arr) (h : ∀ b i, ∃ r : ℝ, x b i = (r : EReal)) : ∃ u : ArrR, x = up u := by
  choose u hu using h
  exact ⟨u, funext fun b => funext fun i => hu b i⟩

/-- The absolute value of a real, taken on the extended reals, is its real absolute value. -/
theorem absE_coe (a : ℝ) : absE (a : EReal) = ((|a| : ℝ) : EReal) := by
  unfold absE
  rw [← EReal.coe_neg, abs_eq_max_neg]
  exact (Monotone.map_max (fun _ _ h => EReal.coe_le_coe_iff.mpr h)).symm

theorem sq_coe (u : ArrR) (i : Fin 750) (j : Fin 11) (b : Fin 4096) :
    (up u b i - up u b (padcol (i.val + j.val))) * (up u b i - up u b (padcol (i.val + j.val))) = ((dsq u i j b : ℝ) : EReal) := by
  simp only [up, dsq, EReal.coe_mul, EReal.coe_sub]

theorem ab_coe (u : ArrR) (i : Fin 750) (j : Fin 11) (b : Fin 4096) :
    absE (up u b i - up u b (padcol (i.val + j.val))) = ((dab u i j b : ℝ) : EReal) := by
  simp only [up, dab]
  rw [← EReal.coe_sub, absE_coe]

theorem refSq_coe (u : ArrR) (i : Fin 750) (j : Fin 11) : refSq (up u) i j = ((sumSq u i j : ℝ) : EReal) := by
  unfold refSq sumSq
  rw [coe_sum]
  exact Finset.sum_congr rfl fun b _ => sq_coe u i j b

theorem sumAbs_coe (u : ArrR) (i : Fin 750) (j : Fin 11) :
    ∑ b : Fin 4096, absE (up u b i - up u b (padcol (i.val + j.val))) = ((∑ b : Fin 4096, dab u i j b : ℝ) : EReal) := by
  rw [coe_sum]
  exact Finset.sum_congr rfl fun b _ => ab_coe u i j b

theorem rowRes_coe (u0 u1 : ArrR) (b : Fin 4096) :
    ∑ i : Fin 750, (up u0 b i - up u1 b i) * (up u0 b i - up u1 b i) = ((dres u0 u1 b : ℝ) : EReal) := by
  unfold dres
  rw [coe_sum]
  refine Finset.sum_congr rfl fun i _ => ?_
  simp only [up, EReal.coe_mul, EReal.coe_sub]

/-! ## Each loss is the coercion of a real expression -/

/-- The kernel's arrangement over the reals. -/
def kernelLossR (t : ℝ) (u0 u1 : ArrR) : ℝ :=
  ((∑ j : Fin 11, ∑ i : Fin 750, Real.exp (sumSq u0 i j * (-0.5)) * ∑ b : Fin 4096, dab u1 i j b) * (1 / 4096)
    + (t * ∑ b : Fin 4096, dres u0 u1 b) * (1 / 4096)) * 1

/-- The reference's arrangement over the reals. -/
def refLossR (t : ℝ) (u0 u1 : ArrR) : ℝ :=
  ((∑ i : Fin 750, ∑ j : Fin 11, (∑ b : Fin 4096, Real.exp (-(sumSq u0 i j) * (1 / 2)) * dab u1 i j b) * (1 / 4096))
    + (∑ b : Fin 4096, t * dres u0 u1 b) * (1 / 4096)) * 1

theorem kernelLoss_coe (t : ℝ) (ht : tenth = (t : EReal)) (u0 u1 : ArrR) :
    kernelLoss (up u0) (up u1) = ((kernelLossR t u0 u1 : ℝ) : EReal) := by
  unfold kernelLoss kernelLossR
  simp only [sum_coreSq, sum_coreAbs, sum_coreRes, refSq_coe, sumAbs_coe, rowRes_coe]
  rw [ht, Ideal.div_coe (by norm_num : (4096 : ℝ) ≠ 0), Ideal.div_coe (by norm_num : (4096 : ℝ) ≠ 0)]
  simp only [← EReal.coe_mul, Ideal.exp_coe, ← coe_sum, ← EReal.coe_add]

theorem refLoss_coe (t : ℝ) (ht : tenth = (t : EReal)) (u0 u1 : ArrR) :
    refLoss (up u0) (up u1) = ((refLossR t u0 u1 : ℝ) : EReal) := by
  unfold refLoss refLossR
  simp only [refSq_coe, ab_coe, rowRes_coe]
  rw [ht]
  simp only [Ideal.div_coe (by norm_num : (4096 : ℝ) ≠ 0), Ideal.div_coe (by norm_num : (2 : ℝ) ≠ 0)]
  simp only [← EReal.coe_neg, ← EReal.coe_mul, Ideal.exp_coe, ← coe_sum, ← EReal.coe_add]

end Cert.WindowLoss

end
-- ==== Proof.LossAlgebra.lean ====
/-
  The two arrangements of the loss agree on arrays whose entries are all real numbers.

  Over the reals (Coe.lean carries both losses there) the kernel's and the reference's expressions differ by:
    * scaling the squared sum by -1/2 against negating it and halving: S * (-0.5) = (-S) * (1/2);
    * multiplying the weight exp(..) into the whole absolute sum against into each row's term:
      w * (sum over b of a b) = sum over b of w * a b;
    * dividing the whole double sum over (j, i) by 4096 against dividing each (i, j) entry, with the two sums in the
      other order: (sum over j, i of y i j) * (1/4096) = sum over i, j of y i j * (1/4096);
    * scaling the whole residual by the word of 0.1 against scaling each row's: t * (sum over b of r b) = sum over b of t * r b.
-/
import proofs.«172264_j3959959847206_2_alg».proof.Proof.Spec
import proofs.«172264_j3959959847206_2_alg».proof.Proof.Consts
import proofs.«172264_j3959959847206_2_alg».proof.Proof.Coe

noncomputable section

namespace Cert.WindowLoss

open Idealize.ShloMosaic

/-- Over the reals the two arrangements are the same number. -/
theorem lossR_eq (t : ℝ) (u0 u1 : ArrR) : kernelLossR t u0 u1 = refLossR t u0 u1 := by
  unfold kernelLossR refLossR
  have h1 : (∑ j : Fin 11, ∑ i : Fin 750, Real.exp (sumSq u0 i j * (-0.5)) * ∑ b : Fin 4096, dab u1 i j b) * (1 / 4096)
      = ∑ i : Fin 750, ∑ j : Fin 11, (∑ b : Fin 4096, Real.exp (-(sumSq u0 i j) * (1 / 2)) * dab u1 i j b) * (1 / 4096) := by
    rw [Finset.sum_comm, Finset.sum_mul]
    refine Finset.sum_congr rfl fun i _ => ?_
    rw [Finset.sum_mul]
    refine Finset.sum_congr rfl fun j _ => ?_
    have hs : sumSq u0 i j * (-0.5) = -(sumSq u0 i j) * (1 / 2) := by norm_num
    rw [hs, Finset.mul_sum]
  have h2 : t * ∑ b : Fin 4096, dres u0 u1 b = ∑ b : Fin 4096, t * dres u0 u1 b := Finset.mul_sum _ _ _
  rw [h1, h2]

/-- The word of 0.1 denotes a real. -/
theorem tenth_coe : ∃ t : ℝ, tenth = (t : EReal) := tenth_real

/-- On arrays of reals the kernel's arrangement of the loss and the reference's are equal. -/
theorem loss_eq (x0 x1 : Arr) (h0 : ∀ b i, ∃ r : ℝ, x0 b i = (r : EReal)) (h1 : ∀ b i, ∃ r : ℝ, x1 b i = (r : EReal)) :
    kernelLoss x0 x1 = refLoss x0 x1 := by
  obtain ⟨u0, rfl⟩ := exists_up x0 h0
  obtain ⟨u1, rfl⟩ := exists_up x1 h1
  obtain ⟨t, ht⟩ := tenth_coe
  rw [kernelLoss_coe t ht, refLoss_coe t ht, lossR_eq]

end Cert.WindowLoss

end
-- ==== Proof.Finite.lean ====
/-
  The precondition "every entry of both arrays is finite" read back: every entry of both arrays is a real number.

  The printed predicate is all(|x| < +inf) and all(|y| < +inf): the conjunction of two reductions by "and", over all
  4096 x 750 entries, of the comparison of the entry's absolute value with the f32 word of +inf.  If the result is 1,
  both reductions are 1, so every compared entry is 1, and an extended real whose absolute value lies strictly below
  the top element is neither infinite element: it is a real.
-/
import proofs.«172264_j3959959847206_2_alg».proof.Pre_finite_inputs
import proofs.«172264_j3959959847206_2_alg».proof.Proof.Gen.Pre_finite_inputs
import Idealize.ShloMosaic.Lib.ReduceAll
import Idealize.ShloMosaic.Lib.ValueIdx
import proofs.«172264_j3959959847206_2_alg».proof.Proof.Spec
import proofs.«172264_j3959959847206_2_alg».proof.Proof.LibERealFinite

noncomputable section

namespace Cert.WindowLoss

open Idealize.ShloMosaic Idealize.ShloMosaic.ValueIdx Cert.Pre_finite_inputs

/-- The rank-zero shape has one index. -/
instance subsingleton_scalar_idx : Subsingleton S_.Idx := ⟨fun a b => funext fun d => d.elim0⟩

/-- Under the printed precondition every entry of both argument arrays is a real number. -/
theorem real_of_pre [Facts] (a0 a1 : FVec Ideal S4096x750 .f32) (h : fn (F := Ideal) a0 a1 = fun _ => 1#1) :
    (∀ b i, ∃ r : ℝ, arr2 a0 b i = (r : EReal)) ∧ (∀ b i, ∃ r : ℝ, arr2 a1 b i = (r : EReal)) := by
  have h' := congrFun h ValueIdx.ix0
  dsimp only [fn] at h'
  obtain ⟨e0, e1⟩ := IntOp.andi_eq_one.1 h'
  refine ⟨fun b i => ?_, fun b i => ?_⟩
  · exact Cert.LibERealFinite.real_of_abs_lt _ (Host.reduce_andi_all _ _ _ _ _ e0 (ix2 b i))
  · exact Cert.LibERealFinite.real_of_abs_lt _ (Host.reduce_andi_all _ _ _ _ _ e1 (ix2 b i))

end Cert.WindowLoss

end
-- ==== Proof.lean ====
/-
  The certificate's claim, assembled from its five parts.

  Three parts are frames: the kernel's program with bit-exact values, the same program read on the extended reals,
  and the reference read on the extended reals each run to their end from any memory and leave the two [4096, 750]
  argument arrays as launched. The fourth part, that reading the kernel on the extended reals preserves it, has
  nothing to state: no operation was rewritten for that reading.

  The fifth part is the value statement: from memories that agree on the two arguments, all of whose entries are
  finite, both programs end with equal results. The kernel's result is kernelLoss of the argument arrays (the tile
  sums added per core and then over the cores, the squared sums scaled by -1/2 before the exponential, the weight
  multiplied with the whole absolute sum, one division by 4096); the reference's is refLoss (the weight multiplied
  into every row's term before the row sum, every window entry divided by 4096 before the outer sum, every row's
  residual scaled by the word of 0.1 before the row sum). A finite entry is a real number, and on arrays of real
  numbers the two arrangements are one number: a finite sum of reals may be regrouped and reordered, a factor
  common to the terms of a finite sum of reals moves in and out of the sum, and dividing a real by 2 or by 4096 is
  multiplying it by the reciprocal.
-/
import proofs.«172264_j3959959847206_2_alg».proof.Defs
import proofs.«172264_j3959959847206_2_alg».proof.Proof.Gen.Kernel
import proofs.«172264_j3959959847206_2_alg».proof.Proof.Gen.KernelIdeal
import proofs.«172264_j3959959847206_2_alg».proof.Proof.Gen.ReferenceIdeal
import proofs.«172264_j3959959847206_2_alg».proof.Proof.Gen.Pre_finite_inputs
import proofs.«172264_j3959959847206_2_alg».proof.Proof.KBFrame
import proofs.«172264_j3959959847206_2_alg».proof.Proof.KIFrame
import proofs.«172264_j3959959847206_2_alg».proof.Proof.KIFinal
import proofs.«172264_j3959959847206_2_alg».proof.Proof.RefValue
import proofs.«172264_j3959959847206_2_alg».proof.Proof.LossAlgebra
import proofs.«172264_j3959959847206_2_alg».proof.Proof.Finite

noncomputable section

namespace Cert.Proof

open Idealize.ShloMosaic Idealize.SL.Sem
open Cert.WindowLoss

/-- The printed kernel runs to its end and leaves both arguments as launched. -/
theorem frame_k : Cert.frame_Kernel := fun m ρ _ => Cert.Kernel.Fr.frame (F := Bits) m ρ

/-- So does its reading on the extended reals. -/
theorem frame_ki : Cert.frame_KernelIdeal := fun m ρ _ => Cert.KernelIdeal.Fr.frame (F := Ideal) m ρ

/-- So does the reference's: its value run, the result forgotten. -/
theorem frame_ri : Cert.frame_ReferenceIdeal := fun m ρ _ =>
  (θ_run (Cert.ReferenceIdeal.defs (F := Ideal)) _ _).mono (fun _ h c => (h c).2) (Cert.WindowLoss.Ref.run m ρ)

/-- No operation of the kernel was rewritten for the reading on the extended reals. -/
theorem preserves : Cert.preserves_Kernel_KernelIdeal := trivial

/-- From memories that agree on the two arguments, all of whose entries are finite, the kernel ends at kernelLoss of
    the argument arrays and the reference at refLoss of them; finite entries are real numbers, and on arrays of real
    numbers the two arrangements of the loss are equal. -/
theorem algebraic : Cert.algebraic_KernelIdeal_ReferenceIdeal := by
  intro m ρ m' ρ' hpre hagree
  refine ⟨fun c _ => kernelLoss
      (arr2 (m ((c.tc : Thread Cert.KernelIdeal.nD Cert.KernelIdeal.τ).loc Cert.KernelIdeal.main_arg0)))
      (arr2 (m ((c.tc : Thread Cert.KernelIdeal.nD Cert.KernelIdeal.τ).loc Cert.KernelIdeal.main_arg1))),
    Cert.KernelIdeal.Val.run m ρ, ?_⟩
  refine (θ_run (Cert.ReferenceIdeal.defs (F := Ideal)) _ _).mono (fun _ h c => ⟨(h c).1.trans ?_, (h c).2⟩)
    (Cert.WindowLoss.Ref.run m' ρ')
  have e0 := (hagree c).1
  have e1 := (hagree c).2
  obtain ⟨h0, h1⟩ := real_of_pre _ _ (hpre c)
  funext _
  show refLoss
      (arr2 (m' ((c.tc : Thread Cert.ReferenceIdeal.nD Cert.ReferenceIdeal.τ).loc Cert.ReferenceIdeal.main_arg0)))
      (arr2 (m' ((c.tc : Thread Cert.ReferenceIdeal.nD Cert.ReferenceIdeal.τ).loc Cert.ReferenceIdeal.main_arg1)))
    = kernelLoss
      (arr2 (m ((c.tc : Thread Cert.KernelIdeal.nD Cert.KernelIdeal.τ).loc Cert.KernelIdeal.main_arg0)))
      (arr2 (m ((c.tc : Thread Cert.KernelIdeal.nD Cert.KernelIdeal.τ).loc Cert.KernelIdeal.main_arg1)))
  rw [e0, e1]
  exact (loss_eq _ _ h0 h1).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
